-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x600000 : Shape := ⟨2, ![2, 600000]⟩
abbrev S600000 : Shape := ⟨1, ![600000]⟩
abbrev S5 : Shape := ⟨1, ![5]⟩
abbrev S5x128 : Shape := ⟨2, ![5, 128]⟩
abbrev S128 : Shape := ⟨1, ![128]⟩
abbrev S128x128 : Shape := ⟨2, ![128, 128]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S600000 : S_.BroadcastsInDim S600000 (![] : Fin 0 → Fin S600000.rank)
  reducesTo_S600000_S_d0 : S600000.ReducesTo [0] S_
  bcast_S_S5 : S_.BroadcastsInDim S5 (![] : Fin 0 → Fin S5.rank)
  reducesTo_S5_S_d0 : S5.ReducesTo [0] S_
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S5x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x128 .f32 := Host.absf main_arg5
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x5 .f32) (main_arg1 : IVec S2x600000 32) (main_arg2 : FVec F S600000 .f32) (main_arg3 : FVec F S5 .f32) (main_arg4 : FVec F S5 .f32) (main_arg5 : FVec F S5x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5 .f32 := Host.absf main_arg4
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S2x600000 : Shape := ⟨2, ![2, 600000]⟩
abbrev S600000 : Shape := ⟨1, ![600000]⟩
abbrev S5 : Shape := ⟨1, ![5]⟩
abbrev S5x128 : Shape := ⟨2, ![5, 128]⟩
abbrev S128 : Shape := ⟨1, ![128]⟩
abbrev S128x128 : Shape := ⟨2, ![128, 128]⟩
abbrev S1x600000 : Shape := ⟨2, ![1, 600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S1x5 : Shape := ⟨2, ![1, 5]⟩
abbrev S50000x128 : Shape := ⟨2, ![50000, 128]⟩
abbrev S5000x5 : Shape := ⟨2, ![5000, 5]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 202
  | .vmem => 32
  | .smem => 0
  | _ => 0

abbrev hbmTy0_0 (i : Nat) : BufTy := match i % 128 with
  | 0 => ⟨S50000x5, .f32⟩
  | 1 => ⟨S2x600000, .i32⟩
  | 2 => ⟨S600000, .f32⟩
  | 3 => ⟨S5, .f32⟩
  | 4 => ⟨S5, .f32⟩
  | 5 => ⟨S5x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S1x600000, .i32⟩
  | 18 => ⟨S600000, .i32⟩
  | 19 => ⟨S1x600000, .i32⟩
  | 20 => ⟨S600000, .i32⟩
  | 21 => ⟨S50000, .i32⟩
  | 22 => ⟨S650000, .i32⟩
  | 23 => ⟨S650000, .i32⟩
  | 24 => ⟨S_, .f32⟩
  | 25 => ⟨S50000, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000, .f32⟩
  | 61 => ⟨S650000, .f32⟩
  | 62 => ⟨S_, .f32⟩
  | 63 => ⟨S5, .f32⟩
  | 64 => ⟨S_, .f32⟩
  | 65 => ⟨S5, .f32⟩
  | 66 => ⟨S5, .f32⟩
  | 67 => ⟨S_, .i32⟩
  | 68 => ⟨S_, .f32⟩
  | 69 => ⟨S5, .f32⟩
  | 70 => ⟨S1x5, .f32⟩
  | 71 => ⟨S_, .f32⟩
  | 72 => ⟨S1x5, .f32⟩
  | 73 => ⟨S1x5, .f32⟩
  | 74 => ⟨S50000x5, .f32⟩
  | 75 => ⟨S50000x5, .f32⟩
  | 76 => ⟨S50000x5, .f32⟩
  | 77 => ⟨S_, .f32⟩
  | 78 => ⟨S_, .f32⟩
  | 79 => ⟨S_, .f32⟩
  | 80 => ⟨S_, .f32⟩
  | 81 => ⟨S5, .f32⟩
  | 82 => ⟨S5, .f32⟩
  | 83 => ⟨S5, .f32⟩
  | 84 => ⟨S_, .f32⟩
  | 85 => ⟨S_, .i1⟩
  | 86 => ⟨S_, .f32⟩
  | 87 => ⟨S_, .f32⟩
  | 88 => ⟨S5, .f32⟩
  | 89 => ⟨S5, .f32⟩
  | 90 => ⟨S1x5, .f32⟩
  | 91 => ⟨S1x5, .f32⟩
  | 92 => ⟨S1x5, .f32⟩
  | 93 => ⟨S1x5, .f32⟩
  | 94 => ⟨S50000x128, .f32⟩
  | 95 => ⟨S650000x1, .f32⟩
  | 96 => ⟨S_, .i32⟩
  | 97 => ⟨S650000, .i32⟩
  | 98 => ⟨S650000, .i1⟩
  | 99 => ⟨S_, .i32⟩
  | 100 => ⟨S650000, .i32⟩
  | 101 => ⟨S650000, .i32⟩
  | 102 => ⟨S650000, .i32⟩
  | 103 => ⟨S650000x1, .i32⟩
  | 104 => ⟨S650000x128, .f32⟩
  | 105 => ⟨S650000x128, .f32⟩
  | 106 => ⟨S650000x128, .f32⟩
  | 107 => ⟨S_, .f32⟩
  | 108 => ⟨S50000x128, .f32⟩
  | 109 => ⟨S650000x1, .i32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S50000x128, .f32⟩
  | 127 => ⟨S50000x128, .f32⟩
  | _ => ⟨S50000x5, .f32⟩

abbrev hbmTy0_1 (i : Nat) : BufTy := match i % 128 with
  | 0 => ⟨S50000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S1x128, .f32⟩
  | 16 => ⟨S1x128, .f32⟩
  | 17 => ⟨S1x128, .f32⟩
  | 18 => ⟨S50000x128, .f32⟩
  | 19 => ⟨S650000x1, .f32⟩
  | 20 => ⟨S_, .i32⟩
  | 21 => ⟨S650000, .i32⟩
  | 22 => ⟨S650000, .i1⟩
  | 23 => ⟨S_, .i32⟩
  | 24 => ⟨S650000, .i32⟩
  | 25 => ⟨S650000, .i32⟩
  | 26 => ⟨S650000, .i32⟩
  | 27 => ⟨S650000x1, .i32⟩
  | 28 => ⟨S650000x128, .f32⟩
  | 29 => ⟨S650000x128, .f32⟩
  | 30 => ⟨S650000x128, .f32⟩
  | 31 => ⟨S_, .f32⟩
  | 32 => ⟨S50000x128, .f32⟩
  | 33 => ⟨S650000x1, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S50000x128, .f32⟩
  | 73 => ⟨S50000x128, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S1x5, .f32⟩
  | .local _ .vmem, ⟨3, _⟩ => ⟨S1x5, .f32⟩
  | .local _ .vmem, ⟨4, _⟩ => ⟨S1x5, .f32⟩
  | .local _ .vmem, ⟨5, _⟩ => ⟨S1x5, .f32⟩
  | .local _ .vmem, ⟨6, _⟩ => ⟨S5x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_10 : Ref sig .tc := ⟨.hbm, 96, rfl⟩
abbrev main_v44 : Ref sig .tc := ⟨.hbm, 97, rfl⟩
abbrev main_v45 : Ref sig .tc := ⟨.hbm, 98, rfl⟩
abbrev main_c_11 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_12 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_13 : Ref sig .tc := ⟨.hbm, 114, rfl⟩
abbrev main_v59 : Ref sig .tc := ⟨.hbm, 115, rfl⟩
abbrev main_cst_14 : Ref sig .tc := ⟨.hbm, 116, rfl⟩
abbrev main_v60 : Ref sig .tc := ⟨.hbm, 117, rfl⟩
abbrev main_v61 : Ref sig .tc := ⟨.hbm, 118, rfl⟩
abbrev main_c_15 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_c_16 : Ref sig .tc := ⟨.hbm, 148, rfl⟩
abbrev main_v69 : Ref sig .tc := ⟨.hbm, 149, rfl⟩
abbrev main_v70 : Ref sig .tc := ⟨.hbm, 150, rfl⟩
abbrev main_c_17 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_cst_18 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_19 : Ref sig .tc := ⟨.hbm, 166, rfl⟩
abbrev main_v84 : Ref sig .tc := ⟨.hbm, 167, rfl⟩
abbrev main_cst_20 : Ref sig .tc := ⟨.hbm, 168, rfl⟩
abbrev main_v85 : Ref sig .tc := ⟨.hbm, 169, rfl⟩
abbrev main_v86 : Ref sig .tc := ⟨.hbm, 170, rfl⟩
abbrev main_c_21 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_cst_0 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_v7 : Ref sig .tc := ⟨.hbm, 181, rfl⟩
abbrev main_call3_cst_1 : Ref sig .tc := ⟨.hbm, 182, rfl⟩
abbrev main_call3_v8 : Ref sig .tc := ⟨.hbm, 183, rfl⟩
abbrev main_call3_cst_2 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_cst_3 : Ref sig .tc := ⟨.hbm, 188, rfl⟩
abbrev main_call3_v12 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94_0 : Ref sig .tc := ⟨.hbm, 200, rfl⟩
abbrev main_v94_1 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  reducesTo_S50000x5_S5_d0 : S50000x5.ReducesTo [0] S5
  h_S_ : 0 < S_.numel
  bcast_S_S5 : S_.BroadcastsInDim S5 (![] : Fin 0 → Fin S5.rank)
  bcast_S5_S1x5_1 : S5.BroadcastsInDim S1x5 (![1] : Fin 1 → Fin S1x5.rank)
  bcast_S_S1x5 : S_.BroadcastsInDim S1x5 (![] : Fin 0 → Fin S1x5.rank)
  bcast_S1x5_S50000x5_0_1 : S1x5.BroadcastsInDim S50000x5 (![0, 1] : Fin 2 → Fin S50000x5.rank)
  shapeCasts_S5_S1x5 : S5.ShapeCasts S1x5
  inb_S5000x5_S5000x5_0_0 : ∀ a, (![0, 0] : Fin 2 → Nat) a + S5000x5.size a ≤ S5000x5.size a
  h_S5000x5 : 0 < S5000x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5x128_S5x128_0_0 : ∀ a, (![0, 0] : Fin 2 → Nat) a + S5x128.size a ≤ S5x128.size a
  h_S5x128 : 0 < S5x128.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x5_S5x128_S5000x128_1_0_0_1_n_n_wf : DotDims.WF S5000x5 S5x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S50000x5.size a
  hwx0_0 : ∀ i : grid0.Coords, EltTy.bits .f32 = 32 ∨ (Rect.block (s := S50000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v83) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v93) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v94_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v94_1) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x5 : Shape := ⟨2, ![50000, 5]⟩
abbrev S2x600000 : Shape := ⟨2, ![2, 600000]⟩
abbrev S600000 : Shape := ⟨1, ![600000]⟩
abbrev S5 : Shape := ⟨1, ![5]⟩
abbrev S5x128 : Shape := ⟨2, ![5, 128]⟩
abbrev S128 : Shape := ⟨1, ![128]⟩
abbrev S128x128 : Shape := ⟨2, ![128, 128]⟩
abbrev S1x600000 : Shape := ⟨2, ![1, 600000]⟩
abbrev S_ : Shape := ⟨0, ![]⟩
abbrev S1x5 : Shape := ⟨2, ![1, 5]⟩
abbrev S50000x128 : Shape := ⟨2, ![50000, 128]⟩
abbrev S50000 : Shape := ⟨1, ![50000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 289
  | .vmem => 0
  | .smem => 0
  | _ => 0

abbrev hbmTy0_0 (i : Nat) : BufTy := match i % 128 with
  | 0 => ⟨S50000x5, .f32⟩
  | 1 => ⟨S2x600000, .i32⟩
  | 2 => ⟨S600000, .f32⟩
  | 3 => ⟨S5, .f32⟩
  | 4 => ⟨S5, .f32⟩
  | 5 => ⟨S5x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S1x600000, .i32⟩
  | 18 => ⟨S600000, .i32⟩
  | 19 => ⟨S1x600000, .i32⟩
  | 20 => ⟨S600000, .i32⟩
  | 21 => ⟨S_, .f32⟩
  | 22 => ⟨S5, .f32⟩
  | 23 => ⟨S_, .f32⟩
  | 24 => ⟨S5, .f32⟩
  | 25 => ⟨S5, .f32⟩
  | 26 => ⟨S_, .i32⟩
  | 27 => ⟨S_, .f32⟩
  | 28 => ⟨S5, .f32⟩
  | 29 => ⟨S1x5, .f32⟩
  | 30 => ⟨S_, .f32⟩
  | 31 => ⟨S1x5, .f32⟩
  | 32 => ⟨S1x5, .f32⟩
  | 33 => ⟨S50000x5, .f32⟩
  | 34 => ⟨S50000x5, .f32⟩
  | 35 => ⟨S50000x5, .f32⟩
  | 36 => ⟨S_, .f32⟩
  | 37 => ⟨S_, .f32⟩
  | 38 => ⟨S_, .f32⟩
  | 39 => ⟨S_, .f32⟩
  | 40 => ⟨S5, .f32⟩
  | 41 => ⟨S5, .f32⟩
  | 42 => ⟨S5, .f32⟩
  | 43 => ⟨S_, .f32⟩
  | 44 => ⟨S_, .i1⟩
  | 45 => ⟨S_, .f32⟩
  | 46 => ⟨S_, .f32⟩
  | 47 => ⟨S5, .f32⟩
  | 48 => ⟨S5, .f32⟩
  | 49 => ⟨S1x5, .f32⟩
  | 50 => ⟨S50000x5, .f32⟩
  | 51 => ⟨S50000x5, .f32⟩
  | 52 => ⟨S_, .f32⟩
  | 53 => ⟨S5, .f32⟩
  | 54 => ⟨S5, .f32⟩
  | 55 => ⟨S5, .f32⟩
  | 56 => ⟨S1x5, .f32⟩
  | 57 => ⟨S50000x5, .f32⟩
  | 58 => ⟨S50000x5, .f32⟩
  | 59 => ⟨S1x5, .f32⟩
  | 60 => ⟨S50000x5, .f32⟩
  | 61 => ⟨S50000x5, .f32⟩
  | 62 => ⟨S1x5, .f32⟩
  | 63 => ⟨S50000x5, .f32⟩
  | 64 => ⟨S50000x5, .f32⟩
  | 65 => ⟨S50000x128, .f32⟩
  | 66 => ⟨S50000, .i32⟩
  | 67 => ⟨S650000, .i32⟩
  | 68 => ⟨S650000, .i32⟩
  | 69 => ⟨S_, .f32⟩
  | 70 => ⟨S50000, .f32⟩
  | 71 => ⟨S650000, .f32⟩
  | 72 => ⟨S_, .f32⟩
  | 73 => ⟨S50000, .f32⟩
  | 74 => ⟨S650000x1, .i32⟩
  | 75 => ⟨S50000, .f32⟩
  | 76 => ⟨S_, .f32⟩
  | 77 => ⟨S50000, .f32⟩
  | 78 => ⟨S50000, .i1⟩
  | 79 => ⟨S_, .f32⟩
  | 80 => ⟨S50000, .f32⟩
  | 81 => ⟨S50000, .f32⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000, .f32⟩
  | 96 => ⟨S650000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S650000x1, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .f32⟩
  | 117 => ⟨S650000x128, .f32⟩
  | 118 => ⟨S650000x128, .f32⟩
  | 119 => ⟨S_, .f32⟩
  | 120 => ⟨S50000x128, .f32⟩
  | 121 => ⟨S650000x1, .i32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x5, .f32⟩

abbrev hbmTy0_1 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S50000, .i32⟩
  | 47 => ⟨S650000, .i32⟩
  | 48 => ⟨S650000, .i32⟩
  | 49 => ⟨S_, .f32⟩
  | 50 => ⟨S50000, .f32⟩
  | 51 => ⟨S650000, .f32⟩
  | 52 => ⟨S_, .f32⟩
  | 53 => ⟨S50000, .f32⟩
  | 54 => ⟨S650000x1, .i32⟩
  | 55 => ⟨S50000, .f32⟩
  | 56 => ⟨S_, .f32⟩
  | 57 => ⟨S50000, .f32⟩
  | 58 => ⟨S50000, .i1⟩
  | 59 => ⟨S_, .f32⟩
  | 60 => ⟨S50000, .f32⟩
  | 61 => ⟨S50000, .f32⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S650000, .i32⟩
  | 69 => ⟨S650000, .i1⟩
  | 70 => ⟨S_, .i32⟩
  | 71 => ⟨S650000, .i32⟩
  | 72 => ⟨S650000, .i32⟩
  | 73 => ⟨S650000, .i32⟩
  | 74 => ⟨S650000x1, .i32⟩
  | 75 => ⟨S650000, .f32⟩
  | 76 => ⟨S650000, .f32⟩
  | 77 => ⟨S_, .i32⟩
  | 78 => ⟨S650000, .i32⟩
  | 79 => ⟨S650000, .i1⟩
  | 80 => ⟨S_, .i32⟩
  | 81 => ⟨S650000, .i32⟩
  | 82 => ⟨S650000, .i32⟩
  | 83 => ⟨S650000, .i32⟩
  | 84 => ⟨S650000x1, .i32⟩
  | 85 => ⟨S650000, .f32⟩
  | 86 => ⟨S650000, .f32⟩
  | 87 => ⟨S650000x1, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000x128, .f32⟩
  | 97 => ⟨S650000x128, .f32⟩
  | 98 => ⟨S650000x128, .f32⟩
  | 99 => ⟨S_, .f32⟩
  | 100 => ⟨S50000x128, .f32⟩
  | 101 => ⟨S650000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x5, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | _ => ⟨S50000x5, .f32⟩

abbrev hbmTy (i : Nat) : BufTy := match i / 128 with
  | 0 => hbmTy0_0 i
  | 1 => hbmTy0_1 i
  | 2 => hbmTy0_2 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_2 : Ref sig .tc := ⟨.hbm, 69, rfl⟩
abbrev main_v27 : Ref sig .tc := ⟨.hbm, 70, rfl⟩
abbrev main_v28 : Ref sig .tc := ⟨.hbm, 71, rfl⟩
abbrev main_cst_3 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_4 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_6 : Ref sig .tc := ⟨.hbm, 83, rfl⟩
abbrev main_call1_v0 : Ref sig .tc := ⟨.hbm, 84, rfl⟩
abbrev main_call1_v1 : Ref sig .tc := ⟨.hbm, 85, rfl⟩
abbrev main_v37 : Ref sig .tc := ⟨.hbm, 86, rfl⟩
abbrev main_c_7 : Ref sig .tc := ⟨.hbm, 87, rfl⟩
abbrev main_v38 : Ref sig .tc := ⟨.hbm, 88, rfl⟩
abbrev main_v39 : Ref sig .tc := ⟨.hbm, 89, rfl⟩
abbrev main_c_8 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_9 : Ref sig .tc := ⟨.hbm, 97, rfl⟩
abbrev main_v46 : Ref sig .tc := ⟨.hbm, 98, rfl⟩
abbrev main_v47 : Ref sig .tc := ⟨.hbm, 99, rfl⟩
abbrev main_c_10 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_c_11 : Ref sig .tc := ⟨.hbm, 108, rfl⟩
abbrev main_v55 : Ref sig .tc := ⟨.hbm, 109, rfl⟩
abbrev main_v56 : Ref sig .tc := ⟨.hbm, 110, rfl⟩
abbrev main_c_12 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_cst_13 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_14 : Ref sig .tc := ⟨.hbm, 126, rfl⟩
abbrev main_v70 : Ref sig .tc := ⟨.hbm, 127, rfl⟩
abbrev main_cst_15 : Ref sig .tc := ⟨.hbm, 128, rfl⟩
abbrev main_v71 : Ref sig .tc := ⟨.hbm, 129, rfl⟩
abbrev main_v72 : Ref sig .tc := ⟨.hbm, 130, rfl⟩
abbrev main_c_16 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_cst_3 : Ref sig .tc := ⟨.hbm, 148, rfl⟩
abbrev main_call2_v12 : Ref sig .tc := ⟨.hbm, 149, rfl⟩
abbrev main_call2_cst_4 : Ref sig .tc := ⟨.hbm, 150, rfl⟩
abbrev main_call2_call0_v0 : Ref sig .tc := ⟨.hbm, 151, rfl⟩
abbrev main_call2_call0_v1 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_cst_17 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_call3_cst : Ref sig .tc := ⟨.hbm, 170, rfl⟩
abbrev main_call3_v0 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_18 : Ref sig .tc := ⟨.hbm, 177, rfl⟩
abbrev main_v94 : Ref sig .tc := ⟨.hbm, 178, rfl⟩
abbrev main_v95 : Ref sig .tc := ⟨.hbm, 179, rfl⟩
abbrev main_cst_19 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_20 : Ref sig .tc := ⟨.hbm, 184, rfl⟩
abbrev main_v99 : Ref sig .tc := ⟨.hbm, 185, rfl⟩
abbrev main_v100 : Ref sig .tc := ⟨.hbm, 186, rfl⟩
abbrev main_cst_21 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_22 : Ref sig .tc := ⟨.hbm, 191, rfl⟩
abbrev main_call4_v0 : Ref sig .tc := ⟨.hbm, 192, rfl⟩
abbrev main_call4_v1 : Ref sig .tc := ⟨.hbm, 193, rfl⟩
abbrev main_v104 : Ref sig .tc := ⟨.hbm, 194, rfl⟩
abbrev main_c_23 : Ref sig .tc := ⟨.hbm, 195, rfl⟩
abbrev main_v105 : Ref sig .tc := ⟨.hbm, 196, rfl⟩
abbrev main_v106 : Ref sig .tc := ⟨.hbm, 197, rfl⟩
abbrev main_c_24 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_c_25 : Ref sig .tc := ⟨.hbm, 205, rfl⟩
abbrev main_v113 : Ref sig .tc := ⟨.hbm, 206, rfl⟩
abbrev main_v114 : Ref sig .tc := ⟨.hbm, 207, rfl⟩
abbrev main_c_26 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_c_27 : Ref sig .tc := ⟨.hbm, 216, rfl⟩
abbrev main_v122 : Ref sig .tc := ⟨.hbm, 217, rfl⟩
abbrev main_v123 : Ref sig .tc := ⟨.hbm, 218, rfl⟩
abbrev main_c_28 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_cst_29 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_cst_30 : Ref sig .tc := ⟨.hbm, 234, rfl⟩
abbrev main_v137 : Ref sig .tc := ⟨.hbm, 235, rfl⟩
abbrev main_cst_31 : Ref sig .tc := ⟨.hbm, 236, rfl⟩
abbrev main_v138 : Ref sig .tc := ⟨.hbm, 237, rfl⟩
abbrev main_v139 : Ref sig .tc := ⟨.hbm, 238, rfl⟩
abbrev main_c_32 : Ref sig .tc := ⟨.hbm, 239, rfl⟩
abbrev main_call5_cst : Ref sig .tc := ⟨.hbm, 240, rfl⟩
abbrev main_call5_v0 : Ref sig .tc := ⟨.hbm, 241, rfl⟩
abbrev main_call5_v1 : Ref sig .tc := ⟨.hbm, 242, rfl⟩
abbrev main_call5_cst_0 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_call5_v5 : Ref sig .tc := ⟨.hbm, 247, rfl⟩
abbrev main_call5_v6 : Ref sig .tc := ⟨.hbm, 248, rfl⟩
abbrev main_call5_v7 : Ref sig .tc := ⟨.hbm, 249, rfl⟩
abbrev main_call5_cst_1 : Ref sig .tc := ⟨.hbm, 250, rfl⟩
abbrev main_call5_v8 : Ref sig .tc := ⟨.hbm, 251, rfl⟩
abbrev main_call5_cst_2 : Ref sig .tc := ⟨.hbm, 252, rfl⟩
abbrev main_call5_v9 : Ref sig .tc := ⟨.hbm, 253, rfl⟩
abbrev main_call5_v10 : Ref sig .tc := ⟨.hbm, 254, rfl⟩
abbrev main_call5_v11 : Ref sig .tc := ⟨.hbm, 255, rfl⟩
abbrev main_call5_cst_3 : Ref sig .tc := ⟨.hbm, 256, rfl⟩
abbrev main_call5_v12 : Ref sig .tc := ⟨.hbm, 257, rfl⟩
abbrev main_call5_cst_4 : Ref sig .tc := ⟨.hbm, 258, rfl⟩
abbrev main_call5_call0_v0 : Ref sig .tc := ⟨.hbm, 259, rfl⟩
abbrev main_call5_call0_v1 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_cst_33 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_call6_cst : Ref sig .tc := ⟨.hbm, 278, rfl⟩
abbrev main_call6_v0 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  reducesTo_S50000x5_S5_d0 : S50000x5.ReducesTo [0] S5
  h_S_ : 0 < S_.numel
  bcast_S_S5 : S_.BroadcastsInDim S5 (![] : Fin 0 → Fin S5.rank)
  bcast_S5_S1x5_1 : S5.BroadcastsInDim S1x5 (![1] : Fin 1 → Fin S1x5.rank)
  bcast_S_S1x5 : S_.BroadcastsInDim S1x5 (![] : Fin 0 → Fin S1x5.rank)
  bcast_S1x5_S50000x5_0_1 : S1x5.BroadcastsInDim S50000x5 (![0, 1] : Fin 2 → Fin S50000x5.rank)
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  dot_S50000x5_S5x128_S50000x128_1_0_0_1_n_n_wf : DotDims.WF S50000x5 S5x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []

variable [Facts₀]

def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with EVERY unscoped TensorCore buffer named at the end.

  The program is fourteen segments: stretches of host operations and three pipelined regions. The buffer contents at each
  segment boundary are a fold from the launch memory: a stretch applies its operations in order; a region replaces its
  windows' arrays by what its write-backs leave and keeps every other buffer. The frame argument shows that every
  weakly fair execution terminates without a fault in a state whose unscoped buffers hold the last fold; here that
  conclusion is kept whole (for every buffer, not only for the arguments), which is what a value claim needs.
-/
import proofs.«170029_j24111946400020_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each unscoped
    TensorCore buffer holds the last boundary's contents: the fold of the host stretches and the regions' write-backs
    over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.KRun

end
-- ==== Proof.RefRun.lean ====
/- The reference function's @main as a straight line of host operations, in ten consecutive pieces, and its run.

   Every operation of @main appears once, in program order; where @main calls a function (the variance, the
   selection `where`, the rectifier) the function's own operations appear at the call, over the buffers of that
   call, and a function called from inside a called function likewise at its call. The pieces are cut after the
   values %7, %23, %53, %69, %73, %90, %120, %136, %140 and %164 of the program text. `main_eq` says @main IS
   that line; `run_main` says that every weakly fair execution terminates with each buffer holding the fold of
   the operations' results over the launch contents; `after_ops` splits that fold piece by piece. -/
import proofs.«170029_j24111946400020_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 32 operations: from the start through the variance of the input features (the first called function, with the selection it calls). -/
abbrev opsA1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x00000000#32),
    StableHlo.binary main_arg0 main_cst main_v4 ((fun x v => Host.reduceAdd x v reducesTo_S50000x5_S5_d0 h_S_) : (⟨S50000x5, .f32⟩ : BufTy).Contents (Elt F) → (⟨S_, .f32⟩ : BufTy).Contents (Elt F) → (⟨S5, .f32⟩ : BufTy).Contents (Elt F)),
    StableHlo.nullary main_cst_0 (constant S_ .f32 0x47435000#32),
    StableHlo.unary main_cst_0 main_v5 (broadcastInDim S5 ![] bcast_S_S5 : (⟨S_, .f32⟩ : BufTy).Contents (Elt F) → (⟨S5, .f32⟩ : BufTy).Contents (Elt F)),
    StableHlo.binary main_v4 main_v5 main_v6 (Host.divf : (⟨S5, .f32⟩ : BufTy).Contents (Elt F) → (⟨S5, .f32⟩ : BufTy).Contents (Elt F) → (⟨S5, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S50000x5, .f32⟩) (.of main_call0_cst : StableHlo.TRef sig ⟨S_, .f32⟩) (.of main_call0_v0 : StableHlo.TRef sig ⟨S5, .f32⟩) (fun x v => Host.reduceAdd x v reducesTo_S50000x5_S5_d0 h_S_),
    StableHlo.TRef.unary (.of main_call0_v0 : StableHlo.TRef sig ⟨S5, .f32⟩) (.of main_call0_v1 : StableHlo.TRef sig ⟨S1x5, .f32⟩) (broadcastInDim S1x5 ![1] bcast_S5_S1x5_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x5, .f32⟩) (broadcastInDim S1x5 ![] bcast_S_S1x5),
    StableHlo.TRef.binary (.of main_call0_v1 : StableHlo.TRef sig ⟨S1x5, .f32⟩) (.of main_call0_v2 : StableHlo.TRef sig ⟨S1x5, .f32⟩) (.of main_call0_v3 : StableHlo.TRef sig ⟨S1x5, .f32⟩) Host.divf,
    StableHlo.TRef.unary (.of main_call0_v3 : StableHlo.TRef sig ⟨S1x5, .f32⟩) (.of main_call0_v4 : StableHlo.TRef sig ⟨S50000x5, .f32⟩) (broadcastInDim S50000x5 ![0, 1] bcast_S1x5_S50000x5_0_1),
    StableHlo.TRef.binary (.of main_arg0 : StableHlo.TRef sig ⟨S50000x5, .f32⟩) (.of main_call0_v4 : StableHlo.TRef sig ⟨S50000x5, .f32⟩) (.of main_call0_v5 : StableHlo.TRef sig ⟨S50000x5, .f32⟩) subf,
    StableHlo.TRef.binary (.of main_call0_v5 : StableHlo.TRef sig ⟨S50000x5, .f32⟩) (.of main_call0_v5 : StableHlo.TRef sig ⟨S50000x5, .f32⟩) (.of main_call0_v6 : StableHlo.TRef sig ⟨S50000x5, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x5, .f32⟩) (.of main_call0_cst_2 : StableHlo.TRef sig ⟨S_, .f32⟩) (.of main_call0_v9 : StableHlo.TRef sig ⟨S5, .f32⟩) (fun x v => Host.reduceAdd x v reducesTo_S50000x5_S5_d0 h_S_),
    StableHlo.TRef.unary (.of main_call0_v8 : StableHlo.TRef sig ⟨S_, .f32⟩) (.of main_call0_v10 : StableHlo.TRef sig ⟨S5, .f32⟩) (broadcastInDim S5 ![] bcast_S_S5),
    StableHlo.TRef.binary (.of main_call0_v9 : StableHlo.TRef sig ⟨S5, .f32⟩) (.of main_call0_v10 : StableHlo.TRef sig ⟨S5, .f32⟩) (.of main_call0_v11 : StableHlo.TRef sig ⟨S5, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S5, .f32⟩) (broadcastInDim S5 ![] bcast_S_S5),
    StableHlo.TRef.ternary (.of main_call0_v12 : StableHlo.TRef sig ⟨S_, .i1⟩) (.of main_call0_v11 : StableHlo.TRef sig ⟨S5, .f32⟩) (.of main_call0_call0_v1 : StableHlo.TRef sig ⟨S5, .f32⟩) (.of main_v7 : StableHlo.TRef sig ⟨S5, .f32⟩) (fun p a b => select (broadcastInDim S5 ![] bcast_S_S5 p) a b) ]

/-- 17 operations: the normalisation of the input features and the first matrix product. -/
abbrev opsA2 : List (HloOp τ sig (Elt F)) :=
  [ StableHlo.unary main_v6 main_v8 (broadcastInDim S1x5 ![1] bcast_S5_S1x5_1 : (⟨S5, .f32⟩ : BufTy).Contents (Elt F) → (⟨S1x5, .f32⟩ : BufTy).Contents (Elt F)),
    StableHlo.unary main_v8 main_v9 (broadcastInDim S50000x5 ![0, 1] bcast_S1x5_S50000x5_0_1 : (⟨S1x5, .f32⟩ : BufTy).Contents (Elt F) → (⟨S50000x5, .f32⟩ : BufTy).Contents (Elt F)),
    StableHlo.binary main_arg0 main_v9 main_v10 (subf : (⟨S50000x5, .f32⟩ : BufTy).Contents (Elt F) → (⟨S50000x5, .f32⟩ : BufTy).Contents (Elt F) → (⟨S50000x5, .f32⟩ : BufTy).Contents (Elt F)),
    StableHlo.nullary main_cst_1 (constant S_ .f32 0x3727C5AC#32),
    StableHlo.unary main_cst_1 main_v11 (broadcastInDim S5 ![] bcast_S_S5 : (⟨S_, .f32⟩ : BufTy).Contents (Elt F) → (⟨S5, .f32⟩ : BufTy).Contents (Elt F)),
    StableHlo.binary main_v7 main_v11 main_v12 (addf : (⟨S5, .f32⟩ : BufTy).Contents (Elt F) → (⟨S5, .f32⟩ : BufTy).Contents (Elt F) → (⟨S5, .f32⟩ : BufTy).Contents (Elt F)),
    StableHlo.unary main_v12 main_v13 (Host.rsqrt : (⟨S5, .f32⟩ : BufTy).Contents (Elt F) → (⟨S5, .f32⟩ : BufTy).Contents (Elt F)),
    StableHlo.unary main_v13 main_v14 (broadcastInDim S1x5 ![1] bcast_S5_S1x5_1 : (⟨S5, .f32⟩ : BufTy).Contents (Elt F) → (⟨S1x5, .f32⟩ : BufTy).Contents (Elt F)),
    StableHlo.unary main_v14 main_v15 (broadcastInDim S50000x5 ![0, 1] bcast_S1x5_S50000x5_0_1 : (⟨S1x5, .f32⟩ : BufTy).Contents (Elt F) → (⟨S50000x5, .f32⟩ : BufTy).Contents (Elt F)),
    StableHlo.binary main_v10 main_v15 main_v16 (mulf : (⟨S50000x5, .f32⟩ : BufTy).Contents (Elt F) → (⟨S50000x5, .f32⟩ : BufTy).Contents (Elt F) → (⟨S50000x5, .f32⟩ : BufTy).Contents (Elt F)),
    StableHlo.unary main_arg3 main_v17 (broadcastInDim S1x5 ![1] bcast_S5_S1x5_1 : (⟨S5, .f32⟩ : BufTy).Contents (Elt F) → (⟨S1x5, .f32⟩ : BufTy).Contents (Elt F)),
    StableHlo.unary main_v17 main_v18 (broadcastInDim S50000x5 ![0, 1] bcast_S1x5_S50000x5_0_1 : (⟨S1x5, .f32⟩ : BufTy).Contents (Elt F) → (⟨S50000x5, .f32⟩ : BufTy).Contents (Elt F)),
    StableHlo.binary main_v16 main_v18 main_v19 (mulf : (⟨S50000x5, .f32⟩ : BufTy).Contents (Elt F) → (⟨S50000x5, .f32⟩ : BufTy).Contents (Elt F) → (⟨S50000x5, .f32⟩ : BufTy).Contents (Elt F)),
    StableHlo.unary main_arg4 main_v20 (broadcastInDim S1x5 ![1] bcast_S5_S1x5_1 : (⟨S5, .f32⟩ : BufTy).Contents (Elt F) → (⟨S1x5, .f32⟩ : BufTy).Contents (Elt F)),
    StableHlo.unary main_v20 main_v21 (broadcastInDim S50000x5 ![0, 1] bcast_S1x5_S50000x5_0_1 : (⟨S1x5, .f32⟩ : BufTy).Contents (Elt F) → (⟨S50000x5, .f32⟩ : BufTy).Contents (Elt F)),
    StableHlo.binary main_v19 main_v21 main_v22 (addf : (⟨S50000x5, .f32⟩ : BufTy).Contents (Elt F) → (⟨S50000x5, .f32⟩ : BufTy).Contents (Elt F) → (⟨S50000x5, .f32⟩ : BufTy).Contents (Elt F)),
    StableHlo.binary main_v22 main_arg5 main_v23 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)) ]

/-- 41 operations: the edge lists with self-loops, the degrees, their inverse square roots (a called selection) and the edge coefficients. -/
abbrev opsB1 : List (HloOp τ sig (Elt F)) :=
  [ StableHlo.nullary main_v24 (iotaInDim S50000 32 0),
    StableHlo.binary main_v1 main_v24 main_v25 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_v3 main_v24 main_v26 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst_2 (constant S_ .f32 0x3F800000#32),
    StableHlo.unary main_cst_2 main_v27 (broadcastInDim S50000 ![] bcast_S_S50000 : (⟨S_, .f32⟩ : BufTy).Contents (Elt F) → (⟨S50000, .f32⟩ : BufTy).Contents (Elt F)),
    StableHlo.binary main_arg2 main_v27 main_v28 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)),
    StableHlo.nullary main_cst_3 (constant S_ .f32 0x00000000#32),
    StableHlo.unary main_cst_3 main_v29 (broadcastInDim S50000 ![] bcast_S_S50000 : (⟨S_, .f32⟩ : BufTy).Contents (Elt F) → (⟨S50000, .f32⟩ : BufTy).Contents (Elt F)),
    StableHlo.unary main_v26 main_v30 (broadcastInDim S650000x1 ![0] bcast_S650000_S650000x1_0 : (⟨S650000, .i32⟩ : BufTy).Contents (Elt F) → (⟨S650000x1, .i32⟩ : BufTy).Contents (Elt F)),
    StableHlo.ternary main_v29 main_v30 main_v28 main_v31 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_4 (constant S_ .f32 0x00000000#32),
    StableHlo.unary main_cst_4 main_v32 (broadcastInDim S50000 ![] bcast_S_S50000 : (⟨S_, .f32⟩ : BufTy).Contents (Elt F) → (⟨S50000, .f32⟩ : BufTy).Contents (Elt F)),
    StableHlo.binary main_v31 main_v32 main_v33 (cmpf .ogt : (⟨S50000, .f32⟩ : BufTy).Contents (Elt F) → (⟨S50000, .f32⟩ : BufTy).Contents (Elt F) → (⟨S50000, .i1⟩ : BufTy).Contents (Elt F)),
    StableHlo.nullary main_cst_5 (constant S_ .f32 0x2B8CBCCC#32),
    StableHlo.unary main_cst_5 main_v34 (broadcastInDim S50000 ![] bcast_S_S50000 : (⟨S_, .f32⟩ : BufTy).Contents (Elt F) → (⟨S50000, .f32⟩ : BufTy).Contents (Elt F)),
    StableHlo.binary main_v31 main_v34 main_v35 (maximumf : (⟨S50000, .f32⟩ : BufTy).Contents (Elt F) → (⟨S50000, .f32⟩ : BufTy).Contents (Elt F) → (⟨S50000, .f32⟩ : BufTy).Contents (Elt F)),
    StableHlo.unary main_v35 main_v36 (Host.rsqrt : (⟨S50000, .f32⟩ : BufTy).Contents (Elt F) → (⟨S50000, .f32⟩ : BufTy).Contents (Elt F)),
    StableHlo.nullary main_cst_6 (constant S_ .f32 0x00000000#32),
    StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v33 : StableHlo.TRef sig ⟨S50000, .i1⟩) (.of main_v36 : StableHlo.TRef sig ⟨S50000, .f32⟩) (.of main_call1_v1 : StableHlo.TRef sig ⟨S50000, .f32⟩) (.of main_v37 : StableHlo.TRef sig ⟨S50000, .f32⟩) select,
    StableHlo.nullary main_c_7 (constantI S_ 32 0#32),
    StableHlo.unary main_c_7 main_v38 (broadcastInDim S650000 ![] bcast_S_S650000 : (⟨S_, .i32⟩ : BufTy).Contents (Elt F) → (⟨S650000, .i32⟩ : BufTy).Contents (Elt F)),
    StableHlo.binary main_v25 main_v38 main_v39 (cmpi .slt : (⟨S650000, .i32⟩ : BufTy).Contents (Elt F) → (⟨S650000, .i32⟩ : BufTy).Contents (Elt F) → (⟨S650000, .i1⟩ : BufTy).Contents (Elt F)),
    StableHlo.nullary main_c_8 (constantI S_ 32 50000#32),
    StableHlo.unary main_c_8 main_v40 (broadcastInDim S650000 ![] bcast_S_S650000 : (⟨S_, .i32⟩ : BufTy).Contents (Elt F) → (⟨S650000, .i32⟩ : BufTy).Contents (Elt F)),
    StableHlo.binary main_v25 main_v40 main_v41 (addi : (⟨S650000, .i32⟩ : BufTy).Contents (Elt F) → (⟨S650000, .i32⟩ : BufTy).Contents (Elt F) → (⟨S650000, .i32⟩ : BufTy).Contents (Elt F)),
    StableHlo.ternary main_v39 main_v41 main_v25 main_v42 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v42 main_v43 (broadcastInDim S650000x1 ![0] bcast_S650000_S650000x1_0 : (⟨S650000, .i32⟩ : BufTy).Contents (Elt F) → (⟨S650000x1, .i32⟩ : BufTy).Contents (Elt F)),
    StableHlo.binary main_v37 main_v43 main_v44 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v44 main_v28 main_v45 (mulf : (⟨S650000, .f32⟩ : BufTy).Contents (Elt F) → (⟨S650000, .f32⟩ : BufTy).Contents (Elt F) → (⟨S650000, .f32⟩ : BufTy).Contents (Elt F)),
    StableHlo.nullary main_c_9 (constantI S_ 32 0#32),
    StableHlo.unary main_c_9 main_v46 (broadcastInDim S650000 ![] bcast_S_S650000 : (⟨S_, .i32⟩ : BufTy).Contents (Elt F) → (⟨S650000, .i32⟩ : BufTy).Contents (Elt F)),
    StableHlo.binary main_v26 main_v46 main_v47 (cmpi .slt : (⟨S650000, .i32⟩ : BufTy).Contents (Elt F) → (⟨S650000, .i32⟩ : BufTy).Contents (Elt F) → (⟨S650000, .i1⟩ : BufTy).Contents (Elt F)),
    StableHlo.nullary main_c_10 (constantI S_ 32 50000#32),
    StableHlo.unary main_c_10 main_v48 (broadcastInDim S650000 ![] bcast_S_S650000 : (⟨S_, .i32⟩ : BufTy).Contents (Elt F) → (⟨S650000, .i32⟩ : BufTy).Contents (Elt F)),
    StableHlo.binary main_v26 main_v48 main_v49 (addi : (⟨S650000, .i32⟩ : BufTy).Contents (Elt F) → (⟨S650000, .i32⟩ : BufTy).Contents (Elt F) → (⟨S650000, .i32⟩ : BufTy).Contents (Elt F)),
    StableHlo.ternary main_v47 main_v49 main_v26 main_v50 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v50 main_v51 (broadcastInDim S650000x1 ![0] bcast_S650000_S650000x1_0 : (⟨S650000, .i32⟩ : BufTy).Contents (Elt F) → (⟨S650000x1, .i32⟩ : BufTy).Contents (Elt F)),
    StableHlo.binary main_v37 main_v51 main_v52 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v45 main_v52 main_v53 (mulf : (⟨S650000, .f32⟩ : BufTy).Contents (Elt F) → (⟨S650000, .f32⟩ : BufTy).Contents (Elt F) → (⟨S650000, .f32⟩ : BufTy).Contents (Elt F)) ]

/-- 19 operations: the first aggregation over the edges plus bias. -/
abbrev opsB2 : List (HloOp τ sig (Elt F)) :=
  [ StableHlo.unary main_v53 main_v54 (broadcastInDim S650000x1 ![0] bcast_S650000_S650000x1_0 : (⟨S650000, .f32⟩ : BufTy).Contents (Elt F) → (⟨S650000x1, .f32⟩ : BufTy).Contents (Elt F)),
    StableHlo.nullary main_c_11 (constantI S_ 32 0#32),
    StableHlo.unary main_c_11 main_v55 (broadcastInDim S650000 ![] bcast_S_S650000 : (⟨S_, .i32⟩ : BufTy).Contents (Elt F) → (⟨S650000, .i32⟩ : BufTy).Contents (Elt F)),
    StableHlo.binary main_v25 main_v55 main_v56 (cmpi .slt : (⟨S650000, .i32⟩ : BufTy).Contents (Elt F) → (⟨S650000, .i32⟩ : BufTy).Contents (Elt F) → (⟨S650000, .i1⟩ : BufTy).Contents (Elt F)),
    StableHlo.nullary main_c_12 (constantI S_ 32 50000#32),
    StableHlo.unary main_c_12 main_v57 (broadcastInDim S650000 ![] bcast_S_S650000 : (⟨S_, .i32⟩ : BufTy).Contents (Elt F) → (⟨S650000, .i32⟩ : BufTy).Contents (Elt F)),
    StableHlo.binary main_v25 main_v57 main_v58 (addi : (⟨S650000, .i32⟩ : BufTy).Contents (Elt F) → (⟨S650000, .i32⟩ : BufTy).Contents (Elt F) → (⟨S650000, .i32⟩ : BufTy).Contents (Elt F)),
    StableHlo.ternary main_v56 main_v58 main_v25 main_v59 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v59 main_v60 (broadcastInDim S650000x1 ![0] bcast_S650000_S650000x1_0 : (⟨S650000, .i32⟩ : BufTy).Contents (Elt F) → (⟨S650000x1, .i32⟩ : BufTy).Contents (Elt F)),
    StableHlo.binary main_v23 main_v60 main_v61 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v54 main_v62 (broadcastInDim S650000x128 ![0, 1] bcast_S650000x1_S650000x128_0_1 : (⟨S650000x1, .f32⟩ : BufTy).Contents (Elt F) → (⟨S650000x128, .f32⟩ : BufTy).Contents (Elt F)),
    StableHlo.binary main_v62 main_v61 main_v63 (mulf : (⟨S650000x128, .f32⟩ : BufTy).Contents (Elt F) → (⟨S650000x128, .f32⟩ : BufTy).Contents (Elt F) → (⟨S650000x128, .f32⟩ : BufTy).Contents (Elt F)),
    StableHlo.nullary main_cst_13 (constant S_ .f32 0x00000000#32),
    StableHlo.unary main_cst_13 main_v64 (broadcastInDim S50000x128 ![] bcast_S_S50000x128 : (⟨S_, .f32⟩ : BufTy).Contents (Elt F) → (⟨S50000x128, .f32⟩ : BufTy).Contents (Elt F)),
    StableHlo.unary main_v26 main_v65 (broadcastInDim S650000x1 ![0] bcast_S650000_S650000x1_0 : (⟨S650000, .i32⟩ : BufTy).Contents (Elt F) → (⟨S650000x1, .i32⟩ : BufTy).Contents (Elt F)),
    StableHlo.ternary main_v64 main_v65 main_v63 main_v66 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg6 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- 28 operations: the mean and variance (a called function, with the selection it calls) of the first layer. -/
abbrev opsB3 : List (HloOp τ sig (Elt F)) :=
  [ StableHlo.nullary main_cst_14 (constant S_ .f32 0x00000000#32),
    StableHlo.binary main_v69 main_cst_14 main_v70 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v71 (broadcastInDim S128 ![] bcast_S_S128 : (⟨S_, .f32⟩ : BufTy).Contents (Elt F) → (⟨S128, .f32⟩ : BufTy).Contents (Elt F)),
    StableHlo.binary main_v70 main_v71 main_v72 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v69 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v69 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v73 : StableHlo.TRef sig ⟨S128, .f32⟩) (fun p a b => select (broadcastInDim S128 ![] bcast_S_S128 p) a b) ]

/-- 20 operations: the first layer's normalisation, its rectifier (called) and the second matrix product. -/
abbrev opsB4 : List (HloOp τ sig (Elt F)) :=
  [ StableHlo.unary main_v72 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v75 main_v76 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v77 (broadcastInDim S128 ![] bcast_S_S128 : (⟨S_, .f32⟩ : BufTy).Contents (Elt F) → (⟨S128, .f32⟩ : BufTy).Contents (Elt F)),
    StableHlo.binary main_v73 main_v77 main_v78 (addf : (⟨S128, .f32⟩ : BufTy).Contents (Elt F) → (⟨S128, .f32⟩ : BufTy).Contents (Elt F) → (⟨S128, .f32⟩ : BufTy).Contents (Elt F)),
    StableHlo.unary main_v78 main_v79 (Host.rsqrt : (⟨S128, .f32⟩ : BufTy).Contents (Elt F) → (⟨S128, .f32⟩ : BufTy).Contents (Elt F)),
    StableHlo.unary main_v79 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v81 main_v82 (mulf : (⟨S50000x128, .f32⟩ : BufTy).Contents (Elt F) → (⟨S50000x128, .f32⟩ : BufTy).Contents (Elt F) → (⟨S50000x128, .f32⟩ : BufTy).Contents (Elt F)),
    StableHlo.unary main_arg7 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (mulf : (⟨S50000x128, .f32⟩ : BufTy).Contents (Elt F) → (⟨S50000x128, .f32⟩ : BufTy).Contents (Elt F) → (⟨S50000x128, .f32⟩ : BufTy).Contents (Elt F)),
    StableHlo.unary main_arg8 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v87 main_v88 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v88 : StableHlo.TRef sig ⟨S50000x128, .f32⟩) (.of main_call3_v0 : StableHlo.TRef sig ⟨S50000x128, .f32⟩) (.of main_v89 : StableHlo.TRef sig ⟨S50000x128, .f32⟩) maximumf,
    StableHlo.binary main_v89 main_arg9 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- 41 operations: the second layer's edge lists, degrees, inverse square roots (a called selection) and edge coefficients. -/
abbrev opsC1 : List (HloOp τ sig (Elt F)) :=
  [ StableHlo.nullary main_v91 (iotaInDim S50000 32 0),
    StableHlo.binary main_v1 main_v91 main_v92 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.binary main_v3 main_v91 main_v93 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst_18 (constant S_ .f32 0x3F800000#32),
    StableHlo.unary main_cst_18 main_v94 (broadcastInDim S50000 ![] bcast_S_S50000 : (⟨S_, .f32⟩ : BufTy).Contents (Elt F) → (⟨S50000, .f32⟩ : BufTy).Contents (Elt F)),
    StableHlo.binary main_arg2 main_v94 main_v95 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)),
    StableHlo.nullary main_cst_19 (constant S_ .f32 0x00000000#32),
    StableHlo.unary main_cst_19 main_v96 (broadcastInDim S50000 ![] bcast_S_S50000 : (⟨S_, .f32⟩ : BufTy).Contents (Elt F) → (⟨S50000, .f32⟩ : BufTy).Contents (Elt F)),
    StableHlo.unary main_v93 main_v97 (broadcastInDim S650000x1 ![0] bcast_S650000_S650000x1_0 : (⟨S650000, .i32⟩ : BufTy).Contents (Elt F) → (⟨S650000x1, .i32⟩ : BufTy).Contents (Elt F)),
    StableHlo.ternary main_v96 main_v97 main_v95 main_v98 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_20 (constant S_ .f32 0x00000000#32),
    StableHlo.unary main_cst_20 main_v99 (broadcastInDim S50000 ![] bcast_S_S50000 : (⟨S_, .f32⟩ : BufTy).Contents (Elt F) → (⟨S50000, .f32⟩ : BufTy).Contents (Elt F)),
    StableHlo.binary main_v98 main_v99 main_v100 (cmpf .ogt : (⟨S50000, .f32⟩ : BufTy).Contents (Elt F) → (⟨S50000, .f32⟩ : BufTy).Contents (Elt F) → (⟨S50000, .i1⟩ : BufTy).Contents (Elt F)),
    StableHlo.nullary main_cst_21 (constant S_ .f32 0x2B8CBCCC#32),
    StableHlo.unary main_cst_21 main_v101 (broadcastInDim S50000 ![] bcast_S_S50000 : (⟨S_, .f32⟩ : BufTy).Contents (Elt F) → (⟨S50000, .f32⟩ : BufTy).Contents (Elt F)),
    StableHlo.binary main_v98 main_v101 main_v102 (maximumf : (⟨S50000, .f32⟩ : BufTy).Contents (Elt F) → (⟨S50000, .f32⟩ : BufTy).Contents (Elt F) → (⟨S50000, .f32⟩ : BufTy).Contents (Elt F)),
    StableHlo.unary main_v102 main_v103 (Host.rsqrt : (⟨S50000, .f32⟩ : BufTy).Contents (Elt F) → (⟨S50000, .f32⟩ : BufTy).Contents (Elt F)),
    StableHlo.nullary main_cst_22 (constant S_ .f32 0x00000000#32),
    StableHlo.TRef.unary (.of main_cst_22 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v100 : StableHlo.TRef sig ⟨S50000, .i1⟩) (.of main_v103 : StableHlo.TRef sig ⟨S50000, .f32⟩) (.of main_call4_v1 : StableHlo.TRef sig ⟨S50000, .f32⟩) (.of main_v104 : StableHlo.TRef sig ⟨S50000, .f32⟩) select,
    StableHlo.nullary main_c_23 (constantI S_ 32 0#32),
    StableHlo.unary main_c_23 main_v105 (broadcastInDim S650000 ![] bcast_S_S650000 : (⟨S_, .i32⟩ : BufTy).Contents (Elt F) → (⟨S650000, .i32⟩ : BufTy).Contents (Elt F)),
    StableHlo.binary main_v92 main_v105 main_v106 (cmpi .slt : (⟨S650000, .i32⟩ : BufTy).Contents (Elt F) → (⟨S650000, .i32⟩ : BufTy).Contents (Elt F) → (⟨S650000, .i1⟩ : BufTy).Contents (Elt F)),
    StableHlo.nullary main_c_24 (constantI S_ 32 50000#32),
    StableHlo.unary main_c_24 main_v107 (broadcastInDim S650000 ![] bcast_S_S650000 : (⟨S_, .i32⟩ : BufTy).Contents (Elt F) → (⟨S650000, .i32⟩ : BufTy).Contents (Elt F)),
    StableHlo.binary main_v92 main_v107 main_v108 (addi : (⟨S650000, .i32⟩ : BufTy).Contents (Elt F) → (⟨S650000, .i32⟩ : BufTy).Contents (Elt F) → (⟨S650000, .i32⟩ : BufTy).Contents (Elt F)),
    StableHlo.ternary main_v106 main_v108 main_v92 main_v109 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v109 main_v110 (broadcastInDim S650000x1 ![0] bcast_S650000_S650000x1_0 : (⟨S650000, .i32⟩ : BufTy).Contents (Elt F) → (⟨S650000x1, .i32⟩ : BufTy).Contents (Elt F)),
    StableHlo.binary main_v104 main_v110 main_v111 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v111 main_v95 main_v112 (mulf : (⟨S650000, .f32⟩ : BufTy).Contents (Elt F) → (⟨S650000, .f32⟩ : BufTy).Contents (Elt F) → (⟨S650000, .f32⟩ : BufTy).Contents (Elt F)),
    StableHlo.nullary main_c_25 (constantI S_ 32 0#32),
    StableHlo.unary main_c_25 main_v113 (broadcastInDim S650000 ![] bcast_S_S650000 : (⟨S_, .i32⟩ : BufTy).Contents (Elt F) → (⟨S650000, .i32⟩ : BufTy).Contents (Elt F)),
    StableHlo.binary main_v93 main_v113 main_v114 (cmpi .slt : (⟨S650000, .i32⟩ : BufTy).Contents (Elt F) → (⟨S650000, .i32⟩ : BufTy).Contents (Elt F) → (⟨S650000, .i1⟩ : BufTy).Contents (Elt F)),
    StableHlo.nullary main_c_26 (constantI S_ 32 50000#32),
    StableHlo.unary main_c_26 main_v115 (broadcastInDim S650000 ![] bcast_S_S650000 : (⟨S_, .i32⟩ : BufTy).Contents (Elt F) → (⟨S650000, .i32⟩ : BufTy).Contents (Elt F)),
    StableHlo.binary main_v93 main_v115 main_v116 (addi : (⟨S650000, .i32⟩ : BufTy).Contents (Elt F) → (⟨S650000, .i32⟩ : BufTy).Contents (Elt F) → (⟨S650000, .i32⟩ : BufTy).Contents (Elt F)),
    StableHlo.ternary main_v114 main_v116 main_v93 main_v117 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v117 main_v118 (broadcastInDim S650000x1 ![0] bcast_S650000_S650000x1_0 : (⟨S650000, .i32⟩ : BufTy).Contents (Elt F) → (⟨S650000x1, .i32⟩ : BufTy).Contents (Elt F)),
    StableHlo.binary main_v104 main_v118 main_v119 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v112 main_v119 main_v120 (mulf : (⟨S650000, .f32⟩ : BufTy).Contents (Elt F) → (⟨S650000, .f32⟩ : BufTy).Contents (Elt F) → (⟨S650000, .f32⟩ : BufTy).Contents (Elt F)) ]

/-- 19 operations: the second aggregation over the edges plus bias. -/
abbrev opsC2 : List (HloOp τ sig (Elt F)) :=
  [ StableHlo.unary main_v120 main_v121 (broadcastInDim S650000x1 ![0] bcast_S650000_S650000x1_0 : (⟨S650000, .f32⟩ : BufTy).Contents (Elt F) → (⟨S650000x1, .f32⟩ : BufTy).Contents (Elt F)),
    StableHlo.nullary main_c_27 (constantI S_ 32 0#32),
    StableHlo.unary main_c_27 main_v122 (broadcastInDim S650000 ![] bcast_S_S650000 : (⟨S_, .i32⟩ : BufTy).Contents (Elt F) → (⟨S650000, .i32⟩ : BufTy).Contents (Elt F)),
    StableHlo.binary main_v92 main_v122 main_v123 (cmpi .slt : (⟨S650000, .i32⟩ : BufTy).Contents (Elt F) → (⟨S650000, .i32⟩ : BufTy).Contents (Elt F) → (⟨S650000, .i1⟩ : BufTy).Contents (Elt F)),
    StableHlo.nullary main_c_28 (constantI S_ 32 50000#32),
    StableHlo.unary main_c_28 main_v124 (broadcastInDim S650000 ![] bcast_S_S650000 : (⟨S_, .i32⟩ : BufTy).Contents (Elt F) → (⟨S650000, .i32⟩ : BufTy).Contents (Elt F)),
    StableHlo.binary main_v92 main_v124 main_v125 (addi : (⟨S650000, .i32⟩ : BufTy).Contents (Elt F) → (⟨S650000, .i32⟩ : BufTy).Contents (Elt F) → (⟨S650000, .i32⟩ : BufTy).Contents (Elt F)),
    StableHlo.ternary main_v123 main_v125 main_v92 main_v126 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v126 main_v127 (broadcastInDim S650000x1 ![0] bcast_S650000_S650000x1_0 : (⟨S650000, .i32⟩ : BufTy).Contents (Elt F) → (⟨S650000x1, .i32⟩ : BufTy).Contents (Elt F)),
    StableHlo.binary main_v90 main_v127 main_v128 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v121 main_v129 (broadcastInDim S650000x128 ![0, 1] bcast_S650000x1_S650000x128_0_1 : (⟨S650000x1, .f32⟩ : BufTy).Contents (Elt F) → (⟨S650000x128, .f32⟩ : BufTy).Contents (Elt F)),
    StableHlo.binary main_v129 main_v128 main_v130 (mulf : (⟨S650000x128, .f32⟩ : BufTy).Contents (Elt F) → (⟨S650000x128, .f32⟩ : BufTy).Contents (Elt F) → (⟨S650000x128, .f32⟩ : BufTy).Contents (Elt F)),
    StableHlo.nullary main_cst_29 (constant S_ .f32 0x00000000#32),
    StableHlo.unary main_cst_29 main_v131 (broadcastInDim S50000x128 ![] bcast_S_S50000x128 : (⟨S_, .f32⟩ : BufTy).Contents (Elt F) → (⟨S50000x128, .f32⟩ : BufTy).Contents (Elt F)),
    StableHlo.unary main_v93 main_v132 (broadcastInDim S650000x1 ![0] bcast_S650000_S650000x1_0 : (⟨S650000, .i32⟩ : BufTy).Contents (Elt F) → (⟨S650000x1, .i32⟩ : BufTy).Contents (Elt F)),
    StableHlo.ternary main_v131 main_v132 main_v130 main_v133 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg10 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (addf : (⟨S50000x128, .f32⟩ : BufTy).Contents (Elt F) → (⟨S50000x128, .f32⟩ : BufTy).Contents (Elt F) → (⟨S50000x128, .f32⟩ : BufTy).Contents (Elt F)) ]

/-- 28 operations: the mean and variance (a called function, with the selection it calls) of the second layer. -/
abbrev opsC3 : List (HloOp τ sig (Elt F)) :=
  [ StableHlo.nullary main_cst_30 (constant S_ .f32 0x00000000#32),
    StableHlo.binary main_v136 main_cst_30 main_v137 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v138 (broadcastInDim S128 ![] bcast_S_S128 : (⟨S_, .f32⟩ : BufTy).Contents (Elt F) → (⟨S128, .f32⟩ : BufTy).Contents (Elt F)),
    StableHlo.binary main_v137 main_v138 main_v139 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary (.of main_call5_cst : StableHlo.TRef sig ⟨S_, .f32⟩) (constant S_ .f32 0x00000000#32),
    StableHlo.TRef.binary (.of main_v136 : StableHlo.TRef sig ⟨S50000x128, .f32⟩) (.of main_call5_cst : StableHlo.TRef sig ⟨S_, .f32⟩) (.of main_call5_v0 : StableHlo.TRef sig ⟨S128, .f32⟩) (fun x v => Host.reduceAdd x v reducesTo_S50000x128_S128_d0 h_S_),
    StableHlo.TRef.unary (.of main_call5_v0 : StableHlo.TRef sig ⟨S128, .f32⟩) (.of main_call5_v1 : StableHlo.TRef sig ⟨S1x128, .f32⟩) (broadcastInDim S1x128 ![1] bcast_S128_S1x128_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x128, .f32⟩) (broadcastInDim S1x128 ![] bcast_S_S1x128),
    StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf,
    StableHlo.TRef.unary (.of main_call5_v3 : StableHlo.TRef sig ⟨S1x128, .f32⟩) (.of main_call5_v4 : StableHlo.TRef sig ⟨S50000x128, .f32⟩) (broadcastInDim S50000x128 ![0, 1] bcast_S1x128_S50000x128_0_1),
    StableHlo.TRef.binary (.of main_v136 : StableHlo.TRef sig ⟨S50000x128, .f32⟩) (.of main_call5_v4 : StableHlo.TRef sig ⟨S50000x128, .f32⟩) (.of main_call5_v5 : StableHlo.TRef sig ⟨S50000x128, .f32⟩) subf,
    StableHlo.TRef.binary (.of main_call5_v5 : StableHlo.TRef sig ⟨S50000x128, .f32⟩) (.of main_call5_v5 : StableHlo.TRef sig ⟨S50000x128, .f32⟩) (.of main_call5_v6 : StableHlo.TRef sig ⟨S50000x128, .f32⟩) mulf,
    StableHlo.TRef.unary (.of main_c_32 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S50000x128, .f32⟩) (.of main_call5_cst_2 : StableHlo.TRef sig ⟨S_, .f32⟩) (.of main_call5_v9 : StableHlo.TRef sig ⟨S128, .f32⟩) (fun x v => Host.reduceAdd x v reducesTo_S50000x128_S128_d0 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v140 : StableHlo.TRef sig ⟨S128, .f32⟩) (fun p a b => select (broadcastInDim S128 ![] bcast_S_S128 p) a b) ]

/-- 27 operations: the second layer's normalisation, its rectifier (called) and the two output products plus biases. -/
abbrev opsC4 : List (HloOp τ sig (Elt F)) :=
  [ StableHlo.unary main_v139 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v142 main_v143 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v144 (broadcastInDim S128 ![] bcast_S_S128 : (⟨S_, .f32⟩ : BufTy).Contents (Elt F) → (⟨S128, .f32⟩ : BufTy).Contents (Elt F)),
    StableHlo.binary main_v140 main_v144 main_v145 (addf : (⟨S128, .f32⟩ : BufTy).Contents (Elt F) → (⟨S128, .f32⟩ : BufTy).Contents (Elt F) → (⟨S128, .f32⟩ : BufTy).Contents (Elt F)),
    StableHlo.unary main_v145 main_v146 (Host.rsqrt : (⟨S128, .f32⟩ : BufTy).Contents (Elt F) → (⟨S128, .f32⟩ : BufTy).Contents (Elt F)),
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_arg11 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v151 main_v152 (mulf : (⟨S50000x128, .f32⟩ : BufTy).Contents (Elt F) → (⟨S50000x128, .f32⟩ : BufTy).Contents (Elt F) → (⟨S50000x128, .f32⟩ : BufTy).Contents (Elt F)),
    StableHlo.unary main_arg12 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v154 main_v155 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x128, .f32⟩) (broadcastInDim S50000x128 ![] bcast_S_S50000x128),
    StableHlo.TRef.binary (.of main_v155 : StableHlo.TRef sig ⟨S50000x128, .f32⟩) (.of main_call6_v0 : StableHlo.TRef sig ⟨S50000x128, .f32⟩) (.of main_v156 : StableHlo.TRef sig ⟨S50000x128, .f32⟩) maximumf,
    StableHlo.binary main_v156 main_arg13 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),
    StableHlo.binary main_v156 main_arg15 main_v161 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S50000x128 ![0, 1] bcast_S1x128_S50000x128_0_1 : (⟨S1x128, .f32⟩ : BufTy).Contents (Elt F) → (⟨S50000x128, .f32⟩ : BufTy).Contents (Elt F)),
    StableHlo.binary main_v161 main_v163 main_v164 (addf : (⟨S50000x128, .f32⟩ : BufTy).Contents (Elt F) → (⟨S50000x128, .f32⟩ : BufTy).Contents (Elt F) → (⟨S50000x128, .f32⟩ : BufTy).Contents (Elt F)) ]

/-- The reference's 272 operations in order: the ten pieces one after the other (nested to the right). -/
abbrev ops : List (HloOp τ sig (Elt F)) :=
  opsA1 ++ (opsA2 ++ (opsB1 ++ (opsB2 ++ (opsB3 ++ (opsB4 ++ (opsC1 ++ (opsC2 ++ (opsC3 ++ (opsC4)))))))))

/-- The fold of a line made of two lines is the second line's fold of the first's. -/
theorem after_two_lines : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two_lines l₁ l₂]

/-- The whole fold, piece by piece: each piece folds over what the pieces before it left. -/
theorem after_ops (V : Valuation τ sig (Elt F)) :
    after ops V = after opsC4 (after opsC3 (after opsC2 (after opsC1 (after opsB4 (after opsB3 (after opsB2 (after opsB1 (after opsA2 (after opsA1 (V)))))))))) := by
  simp only [ops, after_two_lines]

/-! ## @main is that line

The program text states @main in four consecutive windows, which end inside the third, the seventh and the
last piece: each window is the line of the pieces (or parts of pieces, `List.take` / `List.drop`) it covers,
by unfolding — a called function's definition at its call —, and the windows in a row are the ten pieces in a
row because a list is its first `n` elements followed by the rest. -/

set_option maxRecDepth 65536 in
set_option maxHeartbeats 4000000 in
theorem main_part0_eq (c : Dev nD) : main_part0 (F := F) c = seq (opsA1 ++ (opsA2 ++ opsB1.take 34)) := rfl
set_option maxRecDepth 65536 in
set_option maxHeartbeats 4000000 in
theorem main_part1_eq (c : Dev nD) : main_part1 (F := F) c = seq (opsB1.drop 34 ++ (opsB2 ++ (opsB3 ++ (opsB4 ++ opsC1.take 9)))) := rfl
set_option maxRecDepth 65536 in
set_option maxHeartbeats 4000000 in
theorem main_part2_eq (c : Dev nD) : main_part2 (F := F) c = seq (opsC1.drop 9 ++ (opsC2 ++ (opsC3 ++ opsC4.take 4))) := rfl
set_option maxRecDepth 65536 in
set_option maxHeartbeats 4000000 in
theorem main_part3_eq (c : Dev nD) : main_part3 (F := F) c = seq (opsC4.drop 4) := rfl

/-- The ten pieces in a row are the four windows' lists in a row. -/
theorem ops_eq_windows : (ops : List (HloOp τ sig (Elt F))) =
    (opsA1 ++ (opsA2 ++ opsB1.take 34)) ++ ((opsB1.drop 34 ++ (opsB2 ++ (opsB3 ++ (opsB4 ++ opsC1.take 9)))) ++ ((opsC1.drop 9 ++ (opsC2 ++ (opsC3 ++ opsC4.take 4))) ++ (opsC4.drop 4))) := by
  have hB : (opsB1 : List (HloOp τ sig (Elt F))) = opsB1.take 34 ++ opsB1.drop 34 := (List.take_append_drop 34 opsB1).symm
  have hC : (opsC1 : List (HloOp τ sig (Elt F))) = opsC1.take 9 ++ opsC1.drop 9 := (List.take_append_drop 9 opsC1).symm
  have hD : (opsC4 : List (HloOp τ sig (Elt F))) = opsC4.take 4 ++ opsC4.drop 4 := (List.take_append_drop 4 opsC4).symm
  show opsA1 ++ (opsA2 ++ (opsB1 ++ (opsB2 ++ (opsB3 ++ (opsB4 ++ (opsC1 ++ (opsC2 ++ (opsC3 ++ opsC4)))))))) = _
  conv_lhs => rw [hB, hC, hD]
  simp only [List.append_assoc]

theorem main_eq (c : Dev nD) : main (F := F) c = seq ops := by
  rw [ops_eq_windows, seq_append (opsA1 ++ (opsA2 ++ opsB1.take 34)), seq_append (opsB1.drop 34 ++ (opsB2 ++ (opsB3 ++ (opsB4 ++ opsC1.take 9)))), seq_append (opsC1.drop 9 ++ (opsC2 ++ (opsC3 ++ opsC4.take 4))),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

set_option maxRecDepth 65536 in
theorem opsA1_sub : (opsA1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub ..⟩
set_option maxRecDepth 65536 in
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩
set_option maxRecDepth 65536 in
theorem opsA2_sub : (opsA2 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., binary_bufs_sub ..⟩
set_option maxRecDepth 65536 in
theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 65536 in
theorem opsB1_sub : (opsB1 : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
set_option maxRecDepth 65536 in
theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩
set_option maxRecDepth 65536 in
theorem opsB2_sub : (opsB2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩
set_option maxRecDepth 65536 in
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 65536 in
theorem opsB3_sub : (opsB3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
set_option maxRecDepth 65536 in
theorem opsB3_fresh : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl⟩
set_option maxRecDepth 65536 in
theorem opsB4_sub : (opsB4 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub ..⟩
set_option maxRecDepth 65536 in
theorem opsB4_fresh : (opsB4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 65536 in
theorem opsC1_sub : (opsC1 : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
set_option maxRecDepth 65536 in
theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩
set_option maxRecDepth 65536 in
theorem opsC2_sub : (opsC2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩
set_option maxRecDepth 65536 in
theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 65536 in
theorem opsC3_sub : (opsC3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
set_option maxRecDepth 65536 in
theorem opsC3_fresh : (opsC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl⟩
set_option maxRecDepth 65536 in
theorem opsC4_sub : (opsC4 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., binary_bufs_sub ..,
    unary_bufs_sub .., unary_bufs_sub .., binary_bufs_sub ..⟩
set_option maxRecDepth 65536 in
theorem opsC4_fresh : (opsC4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp opsA1_sub op h, List.forall_iff_forall_mem.mp opsA2_sub op h, List.forall_iff_forall_mem.mp opsB1_sub op h, List.forall_iff_forall_mem.mp opsB2_sub op h, List.forall_iff_forall_mem.mp opsB3_sub op h, List.forall_iff_forall_mem.mp opsB4_sub op h, List.forall_iff_forall_mem.mp opsC1_sub op h, List.forall_iff_forall_mem.mp opsC2_sub op h, List.forall_iff_forall_mem.mp opsC3_sub op h, List.forall_iff_forall_mem.mp opsC4_sub op h]

theorem ops_fresh : ∀ op ∈ (ops : List (HloOp τ sig (Elt F))), op.fresh = ∅ := fun op h => by
  simp only [ops, List.mem_append] at h
  rcases h with h | h | h | h | h | h | h | h | h | h
  exacts [List.forall_iff_forall_mem.mp opsA1_fresh op h, List.forall_iff_forall_mem.mp opsA2_fresh op h, List.forall_iff_forall_mem.mp opsB1_fresh op h, List.forall_iff_forall_mem.mp opsB2_fresh op h, List.forall_iff_forall_mem.mp opsB3_fresh op h, List.forall_iff_forall_mem.mp opsB4_fresh op h, List.forall_iff_forall_mem.mp opsC1_fresh op h, List.forall_iff_forall_mem.mp opsC2_fresh op h, List.forall_iff_forall_mem.mp opsC3_fresh op h, List.forall_iff_forall_mem.mp opsC4_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.Pass.lean ====
/- A buffer no operation of a stretch of host operations writes keeps its contents.

   Every host operation writes exactly one buffer, its result. For each stretch of operations the buffers it writes
   are listed once (and each operation's result is checked to be in the list); a buffer outside the list then
   holds after the stretch what it held before, and over several stretches in a row the same by transitivity.
   The facts are stated for the program's arguments, which nothing writes, and for a few intermediate arrays
   over the stretches that leave them alone. -/
import proofs.«170029_j24111946400020_1_alg».proof.Proof.Gen.KernelIdeal.Frame
import proofs.«170029_j24111946400020_1_alg».proof.Proof.RefRun
import Idealize.ShloMosaic.Lib.StableHlo.Run
import Idealize.ShloMosaic.PureOps.Ideal

noncomputable section

namespace Cert.Pass

open Idealize.ShloMosaic Idealize.ShloMosaic.TcCoe Idealize.SL.Sem Idealize.ShloMosaic.StableHlo

section Builders

variable {τ : Topo} {sig : RefSig} {Val : EltTy → Type} {x a b c y : Ref sig .tc} {W : List (Ref sig .tc)}

/-- A listed buffer, alone, is among the listed buffers. -/
theorem single_sub (h : y ∈ W) : ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- Each builder writes its result buffer only. -/
theorem nullary_w (h : y ∈ W) (v : y.ty.Contents Val) (hy) : (nullary (τ := τ) y v hy).writes ⊆ (W.map (Proc.devRef (τ := τ) .tc)).toFinset := single_sub h
theorem unary_w (h : y ∈ W) (f : x.ty.Contents Val → y.ty.Contents Val) (hx hy) : (unary (τ := τ) x y f hx hy).writes ⊆ (W.map (Proc.devRef (τ := τ) .tc)).toFinset := single_sub h
theorem binary_w (h : y ∈ W) (f : a.ty.Contents Val → b.ty.Contents Val → y.ty.Contents Val) (ha hb hy) :
    (binary (τ := τ) a b y f ha hb hy).writes ⊆ (W.map (Proc.devRef (τ := τ) .tc)).toFinset := single_sub h
theorem ternary_w (h : y ∈ W) (f : c.ty.Contents Val → a.ty.Contents Val → b.ty.Contents Val → y.ty.Contents Val) (hc ha hb hy) :
    (ternary (τ := τ) c a b y f hc ha hb hy).writes ⊆ (W.map (Proc.devRef (τ := τ) .tc)).toFinset := single_sub h
theorem reshape_w (h : y ∈ W) (he hn hx hy) : (reshape (τ := τ) (Val := Val) x y he hn hx hy).writes ⊆ (W.map (Proc.devRef (τ := τ) .tc)).toFinset := single_sub h

end Builders

/-! ## The kernel's program -/

section Kernel

open Cert.KernelIdeal Cert.KernelIdeal.Gen

/-- The buffers the 22 operations of `hostOps0` write. -/
abbrev wk_hostOps0 : List (Ref sig .tc) :=
  [main_v0, main_v1, main_v2, main_v3, main_v4, main_v5, main_v6, main_cst, main_v7, main_v8, main_cst_0, main_v9,
   main_v10, main_v11, main_cst_1, main_v12, main_v13, main_cst_2, main_v14, main_v15, main_v16, main_cst_3]
set_option maxRecDepth 65536 in
theorem wk_hostOps0_sub : (hostOps0 (F := Ideal)).Forall fun op => op.writes ⊆ ((wk_hostOps0).map (Proc.devRef (τ := τ) .tc)).toFinset :=
  ⟨unary_w (by decide) .., reshape_w (by decide) .., unary_w (by decide) .., reshape_w (by decide) .., nullary_w (by decide) .., binary_w (by decide) ..,
   binary_w (by decide) .., nullary_w (by decide) .., unary_w (by decide) .., binary_w (by decide) .., nullary_w (by decide) .., unary_w (by decide) ..,
   unary_w (by decide) .., ternary_w (by decide) .., nullary_w (by decide) .., unary_w (by decide) .., binary_w (by decide) .., nullary_w (by decide) ..,
   unary_w (by decide) .., binary_w (by decide) .., unary_w (by decide) .., nullary_w (by decide) ..⟩
theorem keep_hostOps0 {r : Ref sig .tc} (hr : r ∉ wk_hostOps0) (V : Valuation τ sig (Elt Ideal)) :
    after (hostOps0 (F := Ideal)) V (Proc.devRef .tc r) = V (Proc.devRef .tc r) :=
  after_of_writes_sub _ V wk_hostOps0_sub hr

/-- The buffers the 3 operations of `hostOps0_1` write. -/
abbrev wk_hostOps0_1 : List (Ref sig .tc) :=
  [main_call0_v0, main_call0_v1, main_v17]
set_option maxRecDepth 65536 in
theorem wk_hostOps0_1_sub : (hostOps0_1 (F := Ideal)).Forall fun op => op.writes ⊆ ((wk_hostOps0_1).map (Proc.devRef (τ := τ) .tc)).toFinset :=
  ⟨unary_w (by decide) .., unary_w (by decide) .., ternary_w (by decide) ..⟩
theorem keep_hostOps0_1 {r : Ref sig .tc} (hr : r ∉ wk_hostOps0_1) (V : Valuation τ sig (Elt Ideal)) :
    after (hostOps0_1 (F := Ideal)) V (Proc.devRef .tc r) = V (Proc.devRef .tc r) :=
  after_of_writes_sub _ V wk_hostOps0_1_sub hr

/-- The buffers the 26 operations of `hostOps0_2` write. -/
abbrev wk_hostOps0_2 : List (Ref sig .tc) :=
  [main_c, main_v18, main_v19, main_c_4, main_v20, main_v21, main_v22, main_v23, main_v24, main_v25, main_c_5, main_v26,
   main_v27, main_c_6, main_v28, main_v29, main_v30, main_v31, main_v32, main_v33, main_cst_7, main_v34, main_cst_8, main_v35,
   main_v36, main_c_9]
set_option maxRecDepth 65536 in
theorem wk_hostOps0_2_sub : (hostOps0_2 (F := Ideal)).Forall fun op => op.writes ⊆ ((wk_hostOps0_2).map (Proc.devRef (τ := τ) .tc)).toFinset :=
  ⟨nullary_w (by decide) .., unary_w (by decide) .., binary_w (by decide) .., nullary_w (by decide) .., unary_w (by decide) .., binary_w (by decide) ..,
   ternary_w (by decide) .., unary_w (by decide) .., binary_w (by decide) .., binary_w (by decide) .., nullary_w (by decide) .., unary_w (by decide) ..,
   binary_w (by decide) .., nullary_w (by decide) .., unary_w (by decide) .., binary_w (by decide) .., ternary_w (by decide) .., unary_w (by decide) ..,
   binary_w (by decide) .., binary_w (by decide) .., nullary_w (by decide) .., binary_w (by decide) .., nullary_w (by decide) .., unary_w (by decide) ..,
   binary_w (by decide) .., nullary_w (by decide) ..⟩
theorem keep_hostOps0_2 {r : Ref sig .tc} (hr : r ∉ wk_hostOps0_2) (V : Valuation τ sig (Elt Ideal)) :
    after (hostOps0_2 (F := Ideal)) V (Proc.devRef .tc r) = V (Proc.devRef .tc r) :=
  after_of_writes_sub _ V wk_hostOps0_2_sub hr

/-- The buffers the 22 operations of `hostOps0_3` write. -/
abbrev wk_hostOps0_3 : List (Ref sig .tc) :=
  [main_call1_cst, main_call1_v0, main_call1_v1, main_call1_cst_0, main_call1_v2, main_call1_v3, main_call1_v4, main_call1_v5, main_call1_v6, main_call1_v7, main_call1_cst_1, main_call1_v8,
   main_call1_cst_2, main_call1_v9, main_call1_v10, main_call1_v11, main_call1_cst_3, main_call1_v12, main_call1_cst_4, main_call1_call0_v0, main_call1_call0_v1, main_v37]
set_option maxRecDepth 65536 in
theorem wk_hostOps0_3_sub : (hostOps0_3 (F := Ideal)).Forall fun op => op.writes ⊆ ((wk_hostOps0_3).map (Proc.devRef (τ := τ) .tc)).toFinset :=
  ⟨nullary_w (by decide) .., binary_w (by decide) .., unary_w (by decide) .., nullary_w (by decide) .., unary_w (by decide) .., binary_w (by decide) ..,
   unary_w (by decide) .., binary_w (by decide) .., binary_w (by decide) .., unary_w (by decide) .., nullary_w (by decide) .., binary_w (by decide) ..,
   nullary_w (by decide) .., binary_w (by decide) .., unary_w (by decide) .., binary_w (by decide) .., nullary_w (by decide) .., binary_w (by decide) ..,
   nullary_w (by decide) .., unary_w (by decide) .., unary_w (by decide) .., ternary_w (by decide) ..⟩
theorem keep_hostOps0_3 {r : Ref sig .tc} (hr : r ∉ wk_hostOps0_3) (V : Valuation τ sig (Elt Ideal)) :
    after (hostOps0_3 (F := Ideal)) V (Proc.devRef .tc r) = V (Proc.devRef .tc r) :=
  after_of_writes_sub _ V wk_hostOps0_3_sub hr

/-- The buffers the 4 operations of `hostOps0_4` write. -/
abbrev wk_hostOps0_4 : List (Ref sig .tc) :=
  [main_v38, main_v39, main_v40, main_v41]
set_option maxRecDepth 65536 in
theorem wk_hostOps0_4_sub : (hostOps0_4 (F := Ideal)).Forall fun op => op.writes ⊆ ((wk_hostOps0_4).map (Proc.devRef (τ := τ) .tc)).toFinset :=
  ⟨reshape_w (by decide) .., reshape_w (by decide) .., reshape_w (by decide) .., reshape_w (by decide) ..⟩
theorem keep_hostOps0_4 {r : Ref sig .tc} (hr : r ∉ wk_hostOps0_4) (V : Valuation τ sig (Elt Ideal)) :
    after (hostOps0_4 (F := Ideal)) V (Proc.devRef .tc r) = V (Proc.devRef .tc r) :=
  after_of_writes_sub _ V wk_hostOps0_4_sub hr

/-- The buffers the 25 operations of `hostOps1` write. -/
abbrev wk_hostOps1 : List (Ref sig .tc) :=
  [main_v43, main_c_10, main_v44, main_v45, main_c_11, main_v46, main_v47, main_v48, main_v49, main_v50, main_v51, main_v52,
   main_cst_12, main_v53, main_v54, main_v55, main_v56, main_v57, main_v58, main_cst_13, main_v59, main_cst_14, main_v60, main_v61,
   main_c_15]
set_option maxRecDepth 65536 in
theorem wk_hostOps1_sub : (hostOps1 (F := Ideal)).Forall fun op => op.writes ⊆ ((wk_hostOps1).map (Proc.devRef (τ := τ) .tc)).toFinset :=
  ⟨unary_w (by decide) .., nullary_w (by decide) .., unary_w (by decide) .., binary_w (by decide) .., nullary_w (by decide) .., unary_w (by decide) ..,
   binary_w (by decide) .., ternary_w (by decide) .., unary_w (by decide) .., binary_w (by decide) .., unary_w (by decide) .., binary_w (by decide) ..,
   nullary_w (by decide) .., unary_w (by decide) .., unary_w (by decide) .., ternary_w (by decide) .., unary_w (by decide) .., unary_w (by decide) ..,
   binary_w (by decide) .., nullary_w (by decide) .., binary_w (by decide) .., nullary_w (by decide) .., unary_w (by decide) .., binary_w (by decide) ..,
   nullary_w (by decide) ..⟩
theorem keep_hostOps1 {r : Ref sig .tc} (hr : r ∉ wk_hostOps1) (V : Valuation τ sig (Elt Ideal)) :
    after (hostOps1 (F := Ideal)) V (Proc.devRef .tc r) = V (Proc.devRef .tc r) :=
  after_of_writes_sub _ V wk_hostOps1_sub hr

/-- The buffers the 22 operations of `hostOps1_1` write. -/
abbrev wk_hostOps1_1 : List (Ref sig .tc) :=
  [main_call2_cst, main_call2_v0, main_call2_v1, main_call2_cst_0, main_call2_v2, main_call2_v3, main_call2_v4, main_call2_v5, main_call2_v6, main_call2_v7, main_call2_cst_1, main_call2_v8,
   main_call2_cst_2, main_call2_v9, main_call2_v10, main_call2_v11, main_call2_cst_3, main_call2_v12, main_call2_cst_4, main_call2_call0_v0, main_call2_call0_v1, main_v62]
set_option maxRecDepth 65536 in
theorem wk_hostOps1_1_sub : (hostOps1_1 (F := Ideal)).Forall fun op => op.writes ⊆ ((wk_hostOps1_1).map (Proc.devRef (τ := τ) .tc)).toFinset :=
  ⟨nullary_w (by decide) .., binary_w (by decide) .., unary_w (by decide) .., nullary_w (by decide) .., unary_w (by decide) .., binary_w (by decide) ..,
   unary_w (by decide) .., binary_w (by decide) .., binary_w (by decide) .., unary_w (by decide) .., nullary_w (by decide) .., binary_w (by decide) ..,
   nullary_w (by decide) .., binary_w (by decide) .., unary_w (by decide) .., binary_w (by decide) .., nullary_w (by decide) .., binary_w (by decide) ..,
   nullary_w (by decide) .., unary_w (by decide) .., unary_w (by decide) .., ternary_w (by decide) ..⟩
theorem keep_hostOps1_1 {r : Ref sig .tc} (hr : r ∉ wk_hostOps1_1) (V : Valuation τ sig (Elt Ideal)) :
    after (hostOps1_1 (F := Ideal)) V (Proc.devRef .tc r) = V (Proc.devRef .tc r) :=
  after_of_writes_sub _ V wk_hostOps1_1_sub hr

/-- The buffers the 4 operations of `hostOps1_2` write. -/
abbrev wk_hostOps1_2 : List (Ref sig .tc) :=
  [main_v63, main_v64, main_v65, main_v66]
set_option maxRecDepth 65536 in
theorem wk_hostOps1_2_sub : (hostOps1_2 (F := Ideal)).Forall fun op => op.writes ⊆ ((wk_hostOps1_2).map (Proc.devRef (τ := τ) .tc)).toFinset :=
  ⟨reshape_w (by decide) .., reshape_w (by decide) .., reshape_w (by decide) .., reshape_w (by decide) ..⟩
theorem keep_hostOps1_2 {r : Ref sig .tc} (hr : r ∉ wk_hostOps1_2) (V : Valuation τ sig (Elt Ideal)) :
    after (hostOps1_2 (F := Ideal)) V (Proc.devRef .tc r) = V (Proc.devRef .tc r) :=
  after_of_writes_sub _ V wk_hostOps1_2_sub hr

/-- The buffers the 25 operations of `hostOps2` write. -/
abbrev wk_hostOps2 : List (Ref sig .tc) :=
  [main_v68, main_c_16, main_v69, main_v70, main_c_17, main_v71, main_v72, main_v73, main_v74, main_v75, main_v76, main_v77,
   main_cst_18, main_v78, main_v79, main_v80, main_v81, main_v82, main_v83, main_cst_19, main_v84, main_cst_20, main_v85, main_v86,
   main_c_21]
set_option maxRecDepth 65536 in
theorem wk_hostOps2_sub : (hostOps2 (F := Ideal)).Forall fun op => op.writes ⊆ ((wk_hostOps2).map (Proc.devRef (τ := τ) .tc)).toFinset :=
  ⟨unary_w (by decide) .., nullary_w (by decide) .., unary_w (by decide) .., binary_w (by decide) .., nullary_w (by decide) .., unary_w (by decide) ..,
   binary_w (by decide) .., ternary_w (by decide) .., unary_w (by decide) .., binary_w (by decide) .., unary_w (by decide) .., binary_w (by decide) ..,
   nullary_w (by decide) .., unary_w (by decide) .., unary_w (by decide) .., ternary_w (by decide) .., unary_w (by decide) .., unary_w (by decide) ..,
   binary_w (by decide) .., nullary_w (by decide) .., binary_w (by decide) .., nullary_w (by decide) .., unary_w (by decide) .., binary_w (by decide) ..,
   nullary_w (by decide) ..⟩
theorem keep_hostOps2 {r : Ref sig .tc} (hr : r ∉ wk_hostOps2) (V : Valuation τ sig (Elt Ideal)) :
    after (hostOps2 (F := Ideal)) V (Proc.devRef .tc r) = V (Proc.devRef .tc r) :=
  after_of_writes_sub _ V wk_hostOps2_sub hr

/-- The buffers the 22 operations of `hostOps2_1` write. -/
abbrev wk_hostOps2_1 : List (Ref sig .tc) :=
  [main_call3_cst, main_call3_v0, main_call3_v1, main_call3_cst_0, main_call3_v2, main_call3_v3, main_call3_v4, main_call3_v5, main_call3_v6, main_call3_v7, main_call3_cst_1, main_call3_v8,
   main_call3_cst_2, main_call3_v9, main_call3_v10, main_call3_v11, main_call3_cst_3, main_call3_v12, main_call3_cst_4, main_call3_call0_v0, main_call3_call0_v1, main_v87]
set_option maxRecDepth 65536 in
theorem wk_hostOps2_1_sub : (hostOps2_1 (F := Ideal)).Forall fun op => op.writes ⊆ ((wk_hostOps2_1).map (Proc.devRef (τ := τ) .tc)).toFinset :=
  ⟨nullary_w (by decide) .., binary_w (by decide) .., unary_w (by decide) .., nullary_w (by decide) .., unary_w (by decide) .., binary_w (by decide) ..,
   unary_w (by decide) .., binary_w (by decide) .., binary_w (by decide) .., unary_w (by decide) .., nullary_w (by decide) .., binary_w (by decide) ..,
   nullary_w (by decide) .., binary_w (by decide) .., unary_w (by decide) .., binary_w (by decide) .., nullary_w (by decide) .., binary_w (by decide) ..,
   nullary_w (by decide) .., unary_w (by decide) .., unary_w (by decide) .., ternary_w (by decide) ..⟩
theorem keep_hostOps2_1 {r : Ref sig .tc} (hr : r ∉ wk_hostOps2_1) (V : Valuation τ sig (Elt Ideal)) :
    after (hostOps2_1 (F := Ideal)) V (Proc.devRef .tc r) = V (Proc.devRef .tc r) :=
  after_of_writes_sub _ V wk_hostOps2_1_sub hr

/-- The buffers the 6 operations of `hostOps2_2` write. -/
abbrev wk_hostOps2_2 : List (Ref sig .tc) :=
  [main_v88, main_v89, main_v90, main_v91, main_v92, main_v93]
set_option maxRecDepth 65536 in
theorem wk_hostOps2_2_sub : (hostOps2_2 (F := Ideal)).Forall fun op => op.writes ⊆ ((wk_hostOps2_2).map (Proc.devRef (τ := τ) .tc)).toFinset :=
  ⟨reshape_w (by decide) .., reshape_w (by decide) .., reshape_w (by decide) .., reshape_w (by decide) .., reshape_w (by decide) .., reshape_w (by decide) ..⟩
theorem keep_hostOps2_2 {r : Ref sig .tc} (hr : r ∉ wk_hostOps2_2) (V : Valuation τ sig (Elt Ideal)) :
    after (hostOps2_2 (F := Ideal)) V (Proc.devRef .tc r) = V (Proc.devRef .tc r) :=
  after_of_writes_sub _ V wk_hostOps2_2_sub hr

theorem k5_arg0 (X : Valuation τ sig (Elt Ideal)) :
    after hostOps0_4 (after hostOps0_3 (after hostOps0_2 (after hostOps0_1 (after hostOps0 (X))))) (Proc.devRef .tc main_arg0) = X (Proc.devRef .tc main_arg0) :=
  (keep_hostOps0_4 (by decide) _).trans ((keep_hostOps0_3 (by decide) _).trans ((keep_hostOps0_2 (by decide) _).trans ((keep_hostOps0_1 (by decide) _).trans (keep_hostOps0 (by decide) X))))
theorem k5_arg1 (X : Valuation τ sig (Elt Ideal)) :
    after hostOps0_4 (after hostOps0_3 (after hostOps0_2 (after hostOps0_1 (after hostOps0 (X))))) (Proc.devRef .tc main_arg1) = X (Proc.devRef .tc main_arg1) :=
  (keep_hostOps0_4 (by decide) _).trans ((keep_hostOps0_3 (by decide) _).trans ((keep_hostOps0_2 (by decide) _).trans ((keep_hostOps0_1 (by decide) _).trans (keep_hostOps0 (by decide) X))))
theorem k5_arg2 (X : Valuation τ sig (Elt Ideal)) :
    after hostOps0_4 (after hostOps0_3 (after hostOps0_2 (after hostOps0_1 (after hostOps0 (X))))) (Proc.devRef .tc main_arg2) = X (Proc.devRef .tc main_arg2) :=
  (keep_hostOps0_4 (by decide) _).trans ((keep_hostOps0_3 (by decide) _).trans ((keep_hostOps0_2 (by decide) _).trans ((keep_hostOps0_1 (by decide) _).trans (keep_hostOps0 (by decide) X))))
theorem k5_arg3 (X : Valuation τ sig (Elt Ideal)) :
    after hostOps0_4 (after hostOps0_3 (after hostOps0_2 (after hostOps0_1 (after hostOps0 (X))))) (Proc.devRef .tc main_arg3) = X (Proc.devRef .tc main_arg3) :=
  (keep_hostOps0_4 (by decide) _).trans ((keep_hostOps0_3 (by decide) _).trans ((keep_hostOps0_2 (by decide) _).trans ((keep_hostOps0_1 (by decide) _).trans (keep_hostOps0 (by decide) X))))
theorem k5_arg4 (X : Valuation τ sig (Elt Ideal)) :
    after hostOps0_4 (after hostOps0_3 (after hostOps0_2 (after hostOps0_1 (after hostOps0 (X))))) (Proc.devRef .tc main_arg4) = X (Proc.devRef .tc main_arg4) :=
  (keep_hostOps0_4 (by decide) _).trans ((keep_hostOps0_3 (by decide) _).trans ((keep_hostOps0_2 (by decide) _).trans ((keep_hostOps0_1 (by decide) _).trans (keep_hostOps0 (by decide) X))))
theorem k5_arg5 (X : Valuation τ sig (Elt Ideal)) :
    after hostOps0_4 (after hostOps0_3 (after hostOps0_2 (after hostOps0_1 (after hostOps0 (X))))) (Proc.devRef .tc main_arg5) = X (Proc.devRef .tc main_arg5) :=
  (keep_hostOps0_4 (by decide) _).trans ((keep_hostOps0_3 (by decide) _).trans ((keep_hostOps0_2 (by decide) _).trans ((keep_hostOps0_1 (by decide) _).trans (keep_hostOps0 (by decide) X))))
theorem k5_arg6 (X : Valuation τ sig (Elt Ideal)) :
    after hostOps0_4 (after hostOps0_3 (after hostOps0_2 (after hostOps0_1 (after hostOps0 (X))))) (Proc.devRef .tc main_arg6) = X (Proc.devRef .tc main_arg6) :=
  (keep_hostOps0_4 (by decide) _).trans ((keep_hostOps0_3 (by decide) _).trans ((keep_hostOps0_2 (by decide) _).trans ((keep_hostOps0_1 (by decide) _).trans (keep_hostOps0 (by decide) X))))
theorem k5_arg7 (X : Valuation τ sig (Elt Ideal)) :
    after hostOps0_4 (after hostOps0_3 (after hostOps0_2 (after hostOps0_1 (after hostOps0 (X))))) (Proc.devRef .tc main_arg7) = X (Proc.devRef .tc main_arg7) :=
  (keep_hostOps0_4 (by decide) _).trans ((keep_hostOps0_3 (by decide) _).trans ((keep_hostOps0_2 (by decide) _).trans ((keep_hostOps0_1 (by decide) _).trans (keep_hostOps0 (by decide) X))))
theorem k5_arg8 (X : Valuation τ sig (Elt Ideal)) :
    after hostOps0_4 (after hostOps0_3 (after hostOps0_2 (after hostOps0_1 (after hostOps0 (X))))) (Proc.devRef .tc main_arg8) = X (Proc.devRef .tc main_arg8) :=
  (keep_hostOps0_4 (by decide) _).trans ((keep_hostOps0_3 (by decide) _).trans ((keep_hostOps0_2 (by decide) _).trans ((keep_hostOps0_1 (by decide) _).trans (keep_hostOps0 (by decide) X))))
theorem k5_arg9 (X : Valuation τ sig (Elt Ideal)) :
    after hostOps0_4 (after hostOps0_3 (after hostOps0_2 (after hostOps0_1 (after hostOps0 (X))))) (Proc.devRef .tc main_arg9) = X (Proc.devRef .tc main_arg9) :=
  (keep_hostOps0_4 (by decide) _).trans ((keep_hostOps0_3 (by decide) _).trans ((keep_hostOps0_2 (by decide) _).trans ((keep_hostOps0_1 (by decide) _).trans (keep_hostOps0 (by decide) X))))
theorem k5_arg10 (X : Valuation τ sig (Elt Ideal)) :
    after hostOps0_4 (after hostOps0_3 (after hostOps0_2 (after hostOps0_1 (after hostOps0 (X))))) (Proc.devRef .tc main_arg10) = X (Proc.devRef .tc main_arg10) :=
  (keep_hostOps0_4 (by decide) _).trans ((keep_hostOps0_3 (by decide) _).trans ((keep_hostOps0_2 (by decide) _).trans ((keep_hostOps0_1 (by decide) _).trans (keep_hostOps0 (by decide) X))))
theorem k5_arg11 (X : Valuation τ sig (Elt Ideal)) :
    after hostOps0_4 (after hostOps0_3 (after hostOps0_2 (after hostOps0_1 (after hostOps0 (X))))) (Proc.devRef .tc main_arg11) = X (Proc.devRef .tc main_arg11) :=
  (keep_hostOps0_4 (by decide) _).trans ((keep_hostOps0_3 (by decide) _).trans ((keep_hostOps0_2 (by decide) _).trans ((keep_hostOps0_1 (by decide) _).trans (keep_hostOps0 (by decide) X))))
theorem k5_arg12 (X : Valuation τ sig (Elt Ideal)) :
    after hostOps0_4 (after hostOps0_3 (after hostOps0_2 (after hostOps0_1 (after hostOps0 (X))))) (Proc.devRef .tc main_arg12) = X (Proc.devRef .tc main_arg12) :=
  (keep_hostOps0_4 (by decide) _).trans ((keep_hostOps0_3 (by decide) _).trans ((keep_hostOps0_2 (by decide) _).trans ((keep_hostOps0_1 (by decide) _).trans (keep_hostOps0 (by decide) X))))
theorem k5_arg13 (X : Valuation τ sig (Elt Ideal)) :
    after hostOps0_4 (after hostOps0_3 (after hostOps0_2 (after hostOps0_1 (after hostOps0 (X))))) (Proc.devRef .tc main_arg13) = X (Proc.devRef .tc main_arg13) :=
  (keep_hostOps0_4 (by decide) _).trans ((keep_hostOps0_3 (by decide) _).trans ((keep_hostOps0_2 (by decide) _).trans ((keep_hostOps0_1 (by decide) _).trans (keep_hostOps0 (by decide) X))))
theorem k5_arg14 (X : Valuation τ sig (Elt Ideal)) :
    after hostOps0_4 (after hostOps0_3 (after hostOps0_2 (after hostOps0_1 (after hostOps0 (X))))) (Proc.devRef .tc main_arg14) = X (Proc.devRef .tc main_arg14) :=
  (keep_hostOps0_4 (by decide) _).trans ((keep_hostOps0_3 (by decide) _).trans ((keep_hostOps0_2 (by decide) _).trans ((keep_hostOps0_1 (by decide) _).trans (keep_hostOps0 (by decide) X))))
theorem k5_arg15 (X : Valuation τ sig (Elt Ideal)) :
    after hostOps0_4 (after hostOps0_3 (after hostOps0_2 (after hostOps0_1 (after hostOps0 (X))))) (Proc.devRef .tc main_arg15) = X (Proc.devRef .tc main_arg15) :=
  (keep_hostOps0_4 (by decide) _).trans ((keep_hostOps0_3 (by decide) _).trans ((keep_hostOps0_2 (by decide) _).trans ((keep_hostOps0_1 (by decide) _).trans (keep_hostOps0 (by decide) X))))
theorem k5_arg16 (X : Valuation τ sig (Elt Ideal)) :
    after hostOps0_4 (after hostOps0_3 (after hostOps0_2 (after hostOps0_1 (after hostOps0 (X))))) (Proc.devRef .tc main_arg16) = X (Proc.devRef .tc main_arg16) :=
  (keep_hostOps0_4 (by decide) _).trans ((keep_hostOps0_3 (by decide) _).trans ((keep_hostOps0_2 (by decide) _).trans ((keep_hostOps0_1 (by decide) _).trans (keep_hostOps0 (by decide) X))))

theorem k9_arg0 (X : Valuation τ sig (Elt Ideal)) :
    after hostOps1_2 (after hostOps1_1 (after hostOps1 (X))) (Proc.devRef .tc main_arg0) = X (Proc.devRef .tc main_arg0) :=
  (keep_hostOps1_2 (by decide) _).trans ((keep_hostOps1_1 (by decide) _).trans (keep_hostOps1 (by decide) X))
theorem k9_arg1 (X : Valuation τ sig (Elt Ideal)) :
    after hostOps1_2 (after hostOps1_1 (after hostOps1 (X))) (Proc.devRef .tc main_arg1) = X (Proc.devRef .tc main_arg1) :=
  (keep_hostOps1_2 (by decide) _).trans ((keep_hostOps1_1 (by decide) _).trans (keep_hostOps1 (by decide) X))
theorem k9_arg2 (X : Valuation τ sig (Elt Ideal)) :
    after hostOps1_2 (after hostOps1_1 (after hostOps1 (X))) (Proc.devRef .tc main_arg2) = X (Proc.devRef .tc main_arg2) :=
  (keep_hostOps1_2 (by decide) _).trans ((keep_hostOps1_1 (by decide) _).trans (keep_hostOps1 (by decide) X))
theorem k9_arg3 (X : Valuation τ sig (Elt Ideal)) :
    after hostOps1_2 (after hostOps1_1 (after hostOps1 (X))) (Proc.devRef .tc main_arg3) = X (Proc.devRef .tc main_arg3) :=
  (keep_hostOps1_2 (by decide) _).trans ((keep_hostOps1_1 (by decide) _).trans (keep_hostOps1 (by decide) X))
theorem k9_arg4 (X : Valuation τ sig (Elt Ideal)) :
    after hostOps1_2 (after hostOps1_1 (after hostOps1 (X))) (Proc.devRef .tc main_arg4) = X (Proc.devRef .tc main_arg4) :=
  (keep_hostOps1_2 (by decide) _).trans ((keep_hostOps1_1 (by decide) _).trans (keep_hostOps1 (by decide) X))
theorem k9_arg5 (X : Valuation τ sig (Elt Ideal)) :
    after hostOps1_2 (after hostOps1_1 (after hostOps1 (X))) (Proc.devRef .tc main_arg5) = X (Proc.devRef .tc main_arg5) :=
  (keep_hostOps1_2 (by decide) _).trans ((keep_hostOps1_1 (by decide) _).trans (keep_hostOps1 (by decide) X))
theorem k9_arg6 (X : Valuation τ sig (Elt Ideal)) :
    after hostOps1_2 (after hostOps1_1 (after hostOps1 (X))) (Proc.devRef .tc main_arg6) = X (Proc.devRef .tc main_arg6) :=
  (keep_hostOps1_2 (by decide) _).trans ((keep_hostOps1_1 (by decide) _).trans (keep_hostOps1 (by decide) X))
theorem k9_arg7 (X : Valuation τ sig (Elt Ideal)) :
    after hostOps1_2 (after hostOps1_1 (after hostOps1 (X))) (Proc.devRef .tc main_arg7) = X (Proc.devRef .tc main_arg7) :=
  (keep_hostOps1_2 (by decide) _).trans ((keep_hostOps1_1 (by decide) _).trans (keep_hostOps1 (by decide) X))
theorem k9_arg8 (X : Valuation τ sig (Elt Ideal)) :
    after hostOps1_2 (after hostOps1_1 (after hostOps1 (X))) (Proc.devRef .tc main_arg8) = X (Proc.devRef .tc main_arg8) :=
  (keep_hostOps1_2 (by decide) _).trans ((keep_hostOps1_1 (by decide) _).trans (keep_hostOps1 (by decide) X))
theorem k9_arg9 (X : Valuation τ sig (Elt Ideal)) :
    after hostOps1_2 (after hostOps1_1 (after hostOps1 (X))) (Proc.devRef .tc main_arg9) = X (Proc.devRef .tc main_arg9) :=
  (keep_hostOps1_2 (by decide) _).trans ((keep_hostOps1_1 (by decide) _).trans (keep_hostOps1 (by decide) X))
theorem k9_arg10 (X : Valuation τ sig (Elt Ideal)) :
    after hostOps1_2 (after hostOps1_1 (after hostOps1 (X))) (Proc.devRef .tc main_arg10) = X (Proc.devRef .tc main_arg10) :=
  (keep_hostOps1_2 (by decide) _).trans ((keep_hostOps1_1 (by decide) _).trans (keep_hostOps1 (by decide) X))
theorem k9_arg11 (X : Valuation τ sig (Elt Ideal)) :
    after hostOps1_2 (after hostOps1_1 (after hostOps1 (X))) (Proc.devRef .tc main_arg11) = X (Proc.devRef .tc main_arg11) :=
  (keep_hostOps1_2 (by decide) _).trans ((keep_hostOps1_1 (by decide) _).trans (keep_hostOps1 (by decide) X))
theorem k9_arg12 (X : Valuation τ sig (Elt Ideal)) :
    after hostOps1_2 (after hostOps1_1 (after hostOps1 (X))) (Proc.devRef .tc main_arg12) = X (Proc.devRef .tc main_arg12) :=
  (keep_hostOps1_2 (by decide) _).trans ((keep_hostOps1_1 (by decide) _).trans (keep_hostOps1 (by decide) X))
theorem k9_arg13 (X : Valuation τ sig (Elt Ideal)) :
    after hostOps1_2 (after hostOps1_1 (after hostOps1 (X))) (Proc.devRef .tc main_arg13) = X (Proc.devRef .tc main_arg13) :=
  (keep_hostOps1_2 (by decide) _).trans ((keep_hostOps1_1 (by decide) _).trans (keep_hostOps1 (by decide) X))
theorem k9_arg14 (X : Valuation τ sig (Elt Ideal)) :
    after hostOps1_2 (after hostOps1_1 (after hostOps1 (X))) (Proc.devRef .tc main_arg14) = X (Proc.devRef .tc main_arg14) :=
  (keep_hostOps1_2 (by decide) _).trans ((keep_hostOps1_1 (by decide) _).trans (keep_hostOps1 (by decide) X))
theorem k9_arg15 (X : Valuation τ sig (Elt Ideal)) :
    after hostOps1_2 (after hostOps1_1 (after hostOps1 (X))) (Proc.devRef .tc main_arg15) = X (Proc.devRef .tc main_arg15) :=
  (keep_hostOps1_2 (by decide) _).trans ((keep_hostOps1_1 (by decide) _).trans (keep_hostOps1 (by decide) X))
theorem k9_arg16 (X : Valuation τ sig (Elt Ideal)) :
    after hostOps1_2 (after hostOps1_1 (after hostOps1 (X))) (Proc.devRef .tc main_arg16) = X (Proc.devRef .tc main_arg16) :=
  (keep_hostOps1_2 (by decide) _).trans ((keep_hostOps1_1 (by decide) _).trans (keep_hostOps1 (by decide) X))
theorem k9_v33 (X : Valuation τ sig (Elt Ideal)) :
    after hostOps1_2 (after hostOps1_1 (after hostOps1 (X))) (Proc.devRef .tc main_v33) = X (Proc.devRef .tc main_v33) :=
  (keep_hostOps1_2 (by decide) _).trans ((keep_hostOps1_1 (by decide) _).trans (keep_hostOps1 (by decide) X))
theorem k9_v5 (X : Valuation τ sig (Elt Ideal)) :
    after hostOps1_2 (after hostOps1_1 (after hostOps1 (X))) (Proc.devRef .tc main_v5) = X (Proc.devRef .tc main_v5) :=
  (keep_hostOps1_2 (by decide) _).trans ((keep_hostOps1_1 (by decide) _).trans (keep_hostOps1 (by decide) X))
theorem k9_v6 (X : Valuation τ sig (Elt Ideal)) :
    after hostOps1_2 (after hostOps1_1 (after hostOps1 (X))) (Proc.devRef .tc main_v6) = X (Proc.devRef .tc main_v6) :=
  (keep_hostOps1_2 (by decide) _).trans ((keep_hostOps1_1 (by decide) _).trans (keep_hostOps1 (by decide) X))

theorem k13_arg0 (X : Valuation τ sig (Elt Ideal)) :
    after hostOps2_2 (after hostOps2_1 (after hostOps2 (X))) (Proc.devRef .tc main_arg0) = X (Proc.devRef .tc main_arg0) :=
  (keep_hostOps2_2 (by decide) _).trans ((keep_hostOps2_1 (by decide) _).trans (keep_hostOps2 (by decide) X))
theorem k13_arg1 (X : Valuation τ sig (Elt Ideal)) :
    after hostOps2_2 (after hostOps2_1 (after hostOps2 (X))) (Proc.devRef .tc main_arg1) = X (Proc.devRef .tc main_arg1) :=
  (keep_hostOps2_2 (by decide) _).trans ((keep_hostOps2_1 (by decide) _).trans (keep_hostOps2 (by decide) X))
theorem k13_arg2 (X : Valuation τ sig (Elt Ideal)) :
    after hostOps2_2 (after hostOps2_1 (after hostOps2 (X))) (Proc.devRef .tc main_arg2) = X (Proc.devRef .tc main_arg2) :=
  (keep_hostOps2_2 (by decide) _).trans ((keep_hostOps2_1 (by decide) _).trans (keep_hostOps2 (by decide) X))
theorem k13_arg3 (X : Valuation τ sig (Elt Ideal)) :
    after hostOps2_2 (after hostOps2_1 (after hostOps2 (X))) (Proc.devRef .tc main_arg3) = X (Proc.devRef .tc main_arg3) :=
  (keep_hostOps2_2 (by decide) _).trans ((keep_hostOps2_1 (by decide) _).trans (keep_hostOps2 (by decide) X))
theorem k13_arg4 (X : Valuation τ sig (Elt Ideal)) :
    after hostOps2_2 (after hostOps2_1 (after hostOps2 (X))) (Proc.devRef .tc main_arg4) = X (Proc.devRef .tc main_arg4) :=
  (keep_hostOps2_2 (by decide) _).trans ((keep_hostOps2_1 (by decide) _).trans (keep_hostOps2 (by decide) X))
theorem k13_arg5 (X : Valuation τ sig (Elt Ideal)) :
    after hostOps2_2 (after hostOps2_1 (after hostOps2 (X))) (Proc.devRef .tc main_arg5) = X (Proc.devRef .tc main_arg5) :=
  (keep_hostOps2_2 (by decide) _).trans ((keep_hostOps2_1 (by decide) _).trans (keep_hostOps2 (by decide) X))
theorem k13_arg6 (X : Valuation τ sig (Elt Ideal)) :
    after hostOps2_2 (after hostOps2_1 (after hostOps2 (X))) (Proc.devRef .tc main_arg6) = X (Proc.devRef .tc main_arg6) :=
  (keep_hostOps2_2 (by decide) _).trans ((keep_hostOps2_1 (by decide) _).trans (keep_hostOps2 (by decide) X))
theorem k13_arg7 (X : Valuation τ sig (Elt Ideal)) :
    after hostOps2_2 (after hostOps2_1 (after hostOps2 (X))) (Proc.devRef .tc main_arg7) = X (Proc.devRef .tc main_arg7) :=
  (keep_hostOps2_2 (by decide) _).trans ((keep_hostOps2_1 (by decide) _).trans (keep_hostOps2 (by decide) X))
theorem k13_arg8 (X : Valuation τ sig (Elt Ideal)) :
    after hostOps2_2 (after hostOps2_1 (after hostOps2 (X))) (Proc.devRef .tc main_arg8) = X (Proc.devRef .tc main_arg8) :=
  (keep_hostOps2_2 (by decide) _).trans ((keep_hostOps2_1 (by decide) _).trans (keep_hostOps2 (by decide) X))
theorem k13_arg9 (X : Valuation τ sig (Elt Ideal)) :
    after hostOps2_2 (after hostOps2_1 (after hostOps2 (X))) (Proc.devRef .tc main_arg9) = X (Proc.devRef .tc main_arg9) :=
  (keep_hostOps2_2 (by decide) _).trans ((keep_hostOps2_1 (by decide) _).trans (keep_hostOps2 (by decide) X))
theorem k13_arg10 (X : Valuation τ sig (Elt Ideal)) :
    after hostOps2_2 (after hostOps2_1 (after hostOps2 (X))) (Proc.devRef .tc main_arg10) = X (Proc.devRef .tc main_arg10) :=
  (keep_hostOps2_2 (by decide) _).trans ((keep_hostOps2_1 (by decide) _).trans (keep_hostOps2 (by decide) X))
theorem k13_arg11 (X : Valuation τ sig (Elt Ideal)) :
    after hostOps2_2 (after hostOps2_1 (after hostOps2 (X))) (Proc.devRef .tc main_arg11) = X (Proc.devRef .tc main_arg11) :=
  (keep_hostOps2_2 (by decide) _).trans ((keep_hostOps2_1 (by decide) _).trans (keep_hostOps2 (by decide) X))
theorem k13_arg12 (X : Valuation τ sig (Elt Ideal)) :
    after hostOps2_2 (after hostOps2_1 (after hostOps2 (X))) (Proc.devRef .tc main_arg12) = X (Proc.devRef .tc main_arg12) :=
  (keep_hostOps2_2 (by decide) _).trans ((keep_hostOps2_1 (by decide) _).trans (keep_hostOps2 (by decide) X))
theorem k13_arg13 (X : Valuation τ sig (Elt Ideal)) :
    after hostOps2_2 (after hostOps2_1 (after hostOps2 (X))) (Proc.devRef .tc main_arg13) = X (Proc.devRef .tc main_arg13) :=
  (keep_hostOps2_2 (by decide) _).trans ((keep_hostOps2_1 (by decide) _).trans (keep_hostOps2 (by decide) X))
theorem k13_arg14 (X : Valuation τ sig (Elt Ideal)) :
    after hostOps2_2 (after hostOps2_1 (after hostOps2 (X))) (Proc.devRef .tc main_arg14) = X (Proc.devRef .tc main_arg14) :=
  (keep_hostOps2_2 (by decide) _).trans ((keep_hostOps2_1 (by decide) _).trans (keep_hostOps2 (by decide) X))
theorem k13_arg15 (X : Valuation τ sig (Elt Ideal)) :
    after hostOps2_2 (after hostOps2_1 (after hostOps2 (X))) (Proc.devRef .tc main_arg15) = X (Proc.devRef .tc main_arg15) :=
  (keep_hostOps2_2 (by decide) _).trans ((keep_hostOps2_1 (by decide) _).trans (keep_hostOps2 (by decide) X))
theorem k13_arg16 (X : Valuation τ sig (Elt Ideal)) :
    after hostOps2_2 (after hostOps2_1 (after hostOps2 (X))) (Proc.devRef .tc main_arg16) = X (Proc.devRef .tc main_arg16) :=
  (keep_hostOps2_2 (by decide) _).trans ((keep_hostOps2_1 (by decide) _).trans (keep_hostOps2 (by decide) X))
theorem k13_v33 (X : Valuation τ sig (Elt Ideal)) :
    after hostOps2_2 (after hostOps2_1 (after hostOps2 (X))) (Proc.devRef .tc main_v33) = X (Proc.devRef .tc main_v33) :=
  (keep_hostOps2_2 (by decide) _).trans ((keep_hostOps2_1 (by decide) _).trans (keep_hostOps2 (by decide) X))
theorem k13_v5 (X : Valuation τ sig (Elt Ideal)) :
    after hostOps2_2 (after hostOps2_1 (after hostOps2 (X))) (Proc.devRef .tc main_v5) = X (Proc.devRef .tc main_v5) :=
  (keep_hostOps2_2 (by decide) _).trans ((keep_hostOps2_1 (by decide) _).trans (keep_hostOps2 (by decide) X))
theorem k13_v6 (X : Valuation τ sig (Elt Ideal)) :
    after hostOps2_2 (after hostOps2_1 (after hostOps2 (X))) (Proc.devRef .tc main_v6) = X (Proc.devRef .tc main_v6) :=
  (keep_hostOps2_2 (by decide) _).trans ((keep_hostOps2_1 (by decide) _).trans (keep_hostOps2 (by decide) X))

end Kernel

/-! ## The reference -/

section Reference

open Cert.ReferenceIdeal Cert.ReferenceIdeal.RefRun

/-- The buffers the 32 operations of `opsA1` write. -/
abbrev wr_opsA1 : List (Ref sig .tc) :=
  [main_v0, main_v1, main_v2, main_v3, main_cst, main_v4, main_cst_0, main_v5, main_v6, main_c, main_call0_cst, main_call0_v0,
   main_call0_v1, main_call0_cst_0, main_call0_v2, main_call0_v3, main_call0_v4, main_call0_v5, main_call0_v6, main_call0_v7, main_call0_cst_1, main_call0_v8, main_call0_cst_2, main_call0_v9,
   main_call0_v10, main_call0_v11, main_call0_cst_3, main_call0_v12, main_call0_cst_4, main_call0_call0_v0, main_call0_call0_v1, main_v7]
set_option maxRecDepth 65536 in
theorem wr_opsA1_sub : (opsA1 (F := Ideal)).Forall fun op => op.writes ⊆ ((wr_opsA1).map (Proc.devRef (τ := τ) .tc)).toFinset :=
  ⟨unary_w (by decide) .., reshape_w (by decide) .., unary_w (by decide) .., reshape_w (by decide) .., nullary_w (by decide) .., binary_w (by decide) ..,
   nullary_w (by decide) .., unary_w (by decide) .., binary_w (by decide) .., nullary_w (by decide) .., nullary_w (by decide) .., binary_w (by decide) ..,
   unary_w (by decide) .., nullary_w (by decide) .., unary_w (by decide) .., binary_w (by decide) .., unary_w (by decide) .., binary_w (by decide) ..,
   binary_w (by decide) .., unary_w (by decide) .., nullary_w (by decide) .., binary_w (by decide) .., nullary_w (by decide) .., binary_w (by decide) ..,
   unary_w (by decide) .., binary_w (by decide) .., nullary_w (by decide) .., binary_w (by decide) .., nullary_w (by decide) .., unary_w (by decide) ..,
   unary_w (by decide) .., ternary_w (by decide) ..⟩
theorem keep_opsA1 {r : Ref sig .tc} (hr : r ∉ wr_opsA1) (V : Valuation τ sig (Elt Ideal)) :
    after (opsA1 (F := Ideal)) V (Proc.devRef .tc r) = V (Proc.devRef .tc r) :=
  after_of_writes_sub _ V wr_opsA1_sub hr

/-- The buffers the 17 operations of `opsA2` write. -/
abbrev wr_opsA2 : List (Ref sig .tc) :=
  [main_v8, main_v9, main_v10, main_cst_1, main_v11, main_v12, main_v13, main_v14, main_v15, main_v16, main_v17, main_v18,
   main_v19, main_v20, main_v21, main_v22, main_v23]
set_option maxRecDepth 65536 in
theorem wr_opsA2_sub : (opsA2 (F := Ideal)).Forall fun op => op.writes ⊆ ((wr_opsA2).map (Proc.devRef (τ := τ) .tc)).toFinset :=
  ⟨unary_w (by decide) .., unary_w (by decide) .., binary_w (by decide) .., nullary_w (by decide) .., unary_w (by decide) .., binary_w (by decide) ..,
   unary_w (by decide) .., unary_w (by decide) .., unary_w (by decide) .., binary_w (by decide) .., unary_w (by decide) .., unary_w (by decide) ..,
   binary_w (by decide) .., unary_w (by decide) .., unary_w (by decide) .., binary_w (by decide) .., binary_w (by decide) ..⟩
theorem keep_opsA2 {r : Ref sig .tc} (hr : r ∉ wr_opsA2) (V : Valuation τ sig (Elt Ideal)) :
    after (opsA2 (F := Ideal)) V (Proc.devRef .tc r) = V (Proc.devRef .tc r) :=
  after_of_writes_sub _ V wr_opsA2_sub hr

/-- The buffers the 41 operations of `opsB1` write. -/
abbrev wr_opsB1 : List (Ref sig .tc) :=
  [main_v24, main_v25, main_v26, main_cst_2, main_v27, main_v28, main_cst_3, main_v29, main_v30, main_v31, main_cst_4, main_v32,
   main_v33, main_cst_5, main_v34, main_v35, main_v36, main_cst_6, main_call1_v0, main_call1_v1, main_v37, main_c_7, main_v38, main_v39,
   main_c_8, main_v40, main_v41, main_v42, main_v43, main_v44, main_v45, main_c_9, main_v46, main_v47, main_c_10, main_v48,
   main_v49, main_v50, main_v51, main_v52, main_v53]
set_option maxRecDepth 65536 in
theorem wr_opsB1_sub : (opsB1 (F := Ideal)).Forall fun op => op.writes ⊆ ((wr_opsB1).map (Proc.devRef (τ := τ) .tc)).toFinset :=
  ⟨nullary_w (by decide) .., binary_w (by decide) .., binary_w (by decide) .., nullary_w (by decide) .., unary_w (by decide) .., binary_w (by decide) ..,
   nullary_w (by decide) .., unary_w (by decide) .., unary_w (by decide) .., ternary_w (by decide) .., nullary_w (by decide) .., unary_w (by decide) ..,
   binary_w (by decide) .., nullary_w (by decide) .., unary_w (by decide) .., binary_w (by decide) .., unary_w (by decide) .., nullary_w (by decide) ..,
   unary_w (by decide) .., unary_w (by decide) .., ternary_w (by decide) .., nullary_w (by decide) .., unary_w (by decide) .., binary_w (by decide) ..,
   nullary_w (by decide) .., unary_w (by decide) .., binary_w (by decide) .., ternary_w (by decide) .., unary_w (by decide) .., binary_w (by decide) ..,
   binary_w (by decide) .., nullary_w (by decide) .., unary_w (by decide) .., binary_w (by decide) .., nullary_w (by decide) .., unary_w (by decide) ..,
   binary_w (by decide) .., ternary_w (by decide) .., unary_w (by decide) .., binary_w (by decide) .., binary_w (by decide) ..⟩
theorem keep_opsB1 {r : Ref sig .tc} (hr : r ∉ wr_opsB1) (V : Valuation τ sig (Elt Ideal)) :
    after (opsB1 (F := Ideal)) V (Proc.devRef .tc r) = V (Proc.devRef .tc r) :=
  after_of_writes_sub _ V wr_opsB1_sub hr

/-- The buffers the 19 operations of `opsB2` write. -/
abbrev wr_opsB2 : List (Ref sig .tc) :=
  [main_v54, main_c_11, main_v55, main_v56, main_c_12, main_v57, main_v58, main_v59, main_v60, main_v61, main_v62, main_v63,
   main_cst_13, main_v64, main_v65, main_v66, main_v67, main_v68, main_v69]
set_option maxRecDepth 65536 in
theorem wr_opsB2_sub : (opsB2 (F := Ideal)).Forall fun op => op.writes ⊆ ((wr_opsB2).map (Proc.devRef (τ := τ) .tc)).toFinset :=
  ⟨unary_w (by decide) .., nullary_w (by decide) .., unary_w (by decide) .., binary_w (by decide) .., nullary_w (by decide) .., unary_w (by decide) ..,
   binary_w (by decide) .., ternary_w (by decide) .., unary_w (by decide) .., binary_w (by decide) .., unary_w (by decide) .., binary_w (by decide) ..,
   nullary_w (by decide) .., unary_w (by decide) .., unary_w (by decide) .., ternary_w (by decide) .., unary_w (by decide) .., unary_w (by decide) ..,
   binary_w (by decide) ..⟩
theorem keep_opsB2 {r : Ref sig .tc} (hr : r ∉ wr_opsB2) (V : Valuation τ sig (Elt Ideal)) :
    after (opsB2 (F := Ideal)) V (Proc.devRef .tc r) = V (Proc.devRef .tc r) :=
  after_of_writes_sub _ V wr_opsB2_sub hr

/-- The buffers the 28 operations of `opsB3` write. -/
abbrev wr_opsB3 : List (Ref sig .tc) :=
  [main_cst_14, main_v70, main_cst_15, main_v71, main_v72, main_c_16, main_call2_cst, main_call2_v0, main_call2_v1, main_call2_cst_0, main_call2_v2, main_call2_v3,
   main_call2_v4, main_call2_v5, main_call2_v6, main_call2_v7, main_call2_cst_1, main_call2_v8, main_call2_cst_2, main_call2_v9, main_call2_v10, main_call2_v11, main_call2_cst_3, main_call2_v12,
   main_call2_cst_4, main_call2_call0_v0, main_call2_call0_v1, main_v73]
set_option maxRecDepth 65536 in
theorem wr_opsB3_sub : (opsB3 (F := Ideal)).Forall fun op => op.writes ⊆ ((wr_opsB3).map (Proc.devRef (τ := τ) .tc)).toFinset :=
  ⟨nullary_w (by decide) .., binary_w (by decide) .., nullary_w (by decide) .., unary_w (by decide) .., binary_w (by decide) .., nullary_w (by decide) ..,
   nullary_w (by decide) .., binary_w (by decide) .., unary_w (by decide) .., nullary_w (by decide) .., unary_w (by decide) .., binary_w (by decide) ..,
   unary_w (by decide) .., binary_w (by decide) .., binary_w (by decide) .., unary_w (by decide) .., nullary_w (by decide) .., binary_w (by decide) ..,
   nullary_w (by decide) .., binary_w (by decide) .., unary_w (by decide) .., binary_w (by decide) .., nullary_w (by decide) .., binary_w (by decide) ..,
   nullary_w (by decide) .., unary_w (by decide) .., unary_w (by decide) .., ternary_w (by decide) ..⟩
theorem keep_opsB3 {r : Ref sig .tc} (hr : r ∉ wr_opsB3) (V : Valuation τ sig (Elt Ideal)) :
    after (opsB3 (F := Ideal)) V (Proc.devRef .tc r) = V (Proc.devRef .tc r) :=
  after_of_writes_sub _ V wr_opsB3_sub hr

/-- The buffers the 20 operations of `opsB4` write. -/
abbrev wr_opsB4 : List (Ref sig .tc) :=
  [main_v74, main_v75, main_v76, main_cst_17, main_v77, main_v78, main_v79, main_v80, main_v81, main_v82, main_v83, main_v84,
   main_v85, main_v86, main_v87, main_v88, main_call3_cst, main_call3_v0, main_v89, main_v90]
set_option maxRecDepth 65536 in
theorem wr_opsB4_sub : (opsB4 (F := Ideal)).Forall fun op => op.writes ⊆ ((wr_opsB4).map (Proc.devRef (τ := τ) .tc)).toFinset :=
  ⟨unary_w (by decide) .., unary_w (by decide) .., binary_w (by decide) .., nullary_w (by decide) .., unary_w (by decide) .., binary_w (by decide) ..,
   unary_w (by decide) .., unary_w (by decide) .., unary_w (by decide) .., binary_w (by decide) .., unary_w (by decide) .., unary_w (by decide) ..,
   binary_w (by decide) .., unary_w (by decide) .., unary_w (by decide) .., binary_w (by decide) .., nullary_w (by decide) .., unary_w (by decide) ..,
   binary_w (by decide) .., binary_w (by decide) ..⟩
theorem keep_opsB4 {r : Ref sig .tc} (hr : r ∉ wr_opsB4) (V : Valuation τ sig (Elt Ideal)) :
    after (opsB4 (F := Ideal)) V (Proc.devRef .tc r) = V (Proc.devRef .tc r) :=
  after_of_writes_sub _ V wr_opsB4_sub hr

/-- The buffers the 41 operations of `opsC1` write. -/
abbrev wr_opsC1 : List (Ref sig .tc) :=
  [main_v91, main_v92, main_v93, main_cst_18, main_v94, main_v95, main_cst_19, main_v96, main_v97, main_v98, main_cst_20, main_v99,
   main_v100, main_cst_21, main_v101, main_v102, main_v103, main_cst_22, main_call4_v0, main_call4_v1, main_v104, main_c_23, main_v105, main_v106,
   main_c_24, main_v107, main_v108, main_v109, main_v110, main_v111, main_v112, main_c_25, main_v113, main_v114, main_c_26, main_v115,
   main_v116, main_v117, main_v118, main_v119, main_v120]
set_option maxRecDepth 65536 in
theorem wr_opsC1_sub : (opsC1 (F := Ideal)).Forall fun op => op.writes ⊆ ((wr_opsC1).map (Proc.devRef (τ := τ) .tc)).toFinset :=
  ⟨nullary_w (by decide) .., binary_w (by decide) .., binary_w (by decide) .., nullary_w (by decide) .., unary_w (by decide) .., binary_w (by decide) ..,
   nullary_w (by decide) .., unary_w (by decide) .., unary_w (by decide) .., ternary_w (by decide) .., nullary_w (by decide) .., unary_w (by decide) ..,
   binary_w (by decide) .., nullary_w (by decide) .., unary_w (by decide) .., binary_w (by decide) .., unary_w (by decide) .., nullary_w (by decide) ..,
   unary_w (by decide) .., unary_w (by decide) .., ternary_w (by decide) .., nullary_w (by decide) .., unary_w (by decide) .., binary_w (by decide) ..,
   nullary_w (by decide) .., unary_w (by decide) .., binary_w (by decide) .., ternary_w (by decide) .., unary_w (by decide) .., binary_w (by decide) ..,
   binary_w (by decide) .., nullary_w (by decide) .., unary_w (by decide) .., binary_w (by decide) .., nullary_w (by decide) .., unary_w (by decide) ..,
   binary_w (by decide) .., ternary_w (by decide) .., unary_w (by decide) .., binary_w (by decide) .., binary_w (by decide) ..⟩
theorem keep_opsC1 {r : Ref sig .tc} (hr : r ∉ wr_opsC1) (V : Valuation τ sig (Elt Ideal)) :
    after (opsC1 (F := Ideal)) V (Proc.devRef .tc r) = V (Proc.devRef .tc r) :=
  after_of_writes_sub _ V wr_opsC1_sub hr

/-- The buffers the 19 operations of `opsC2` write. -/
abbrev wr_opsC2 : List (Ref sig .tc) :=
  [main_v121, main_c_27, main_v122, main_v123, main_c_28, main_v124, main_v125, main_v126, main_v127, main_v128, main_v129, main_v130,
   main_cst_29, main_v131, main_v132, main_v133, main_v134, main_v135, main_v136]
set_option maxRecDepth 65536 in
theorem wr_opsC2_sub : (opsC2 (F := Ideal)).Forall fun op => op.writes ⊆ ((wr_opsC2).map (Proc.devRef (τ := τ) .tc)).toFinset :=
  ⟨unary_w (by decide) .., nullary_w (by decide) .., unary_w (by decide) .., binary_w (by decide) .., nullary_w (by decide) .., unary_w (by decide) ..,
   binary_w (by decide) .., ternary_w (by decide) .., unary_w (by decide) .., binary_w (by decide) .., unary_w (by decide) .., binary_w (by decide) ..,
   nullary_w (by decide) .., unary_w (by decide) .., unary_w (by decide) .., ternary_w (by decide) .., unary_w (by decide) .., unary_w (by decide) ..,
   binary_w (by decide) ..⟩
theorem keep_opsC2 {r : Ref sig .tc} (hr : r ∉ wr_opsC2) (V : Valuation τ sig (Elt Ideal)) :
    after (opsC2 (F := Ideal)) V (Proc.devRef .tc r) = V (Proc.devRef .tc r) :=
  after_of_writes_sub _ V wr_opsC2_sub hr

/-- The buffers the 28 operations of `opsC3` write. -/
abbrev wr_opsC3 : List (Ref sig .tc) :=
  [main_cst_30, main_v137, main_cst_31, main_v138, main_v139, main_c_32, main_call5_cst, main_call5_v0, main_call5_v1, main_call5_cst_0, main_call5_v2, main_call5_v3,
   main_call5_v4, main_call5_v5, main_call5_v6, main_call5_v7, main_call5_cst_1, main_call5_v8, main_call5_cst_2, main_call5_v9, main_call5_v10, main_call5_v11, main_call5_cst_3, main_call5_v12,
   main_call5_cst_4, main_call5_call0_v0, main_call5_call0_v1, main_v140]
set_option maxRecDepth 65536 in
theorem wr_opsC3_sub : (opsC3 (F := Ideal)).Forall fun op => op.writes ⊆ ((wr_opsC3).map (Proc.devRef (τ := τ) .tc)).toFinset :=
  ⟨nullary_w (by decide) .., binary_w (by decide) .., nullary_w (by decide) .., unary_w (by decide) .., binary_w (by decide) .., nullary_w (by decide) ..,
   nullary_w (by decide) .., binary_w (by decide) .., unary_w (by decide) .., nullary_w (by decide) .., unary_w (by decide) .., binary_w (by decide) ..,
   unary_w (by decide) .., binary_w (by decide) .., binary_w (by decide) .., unary_w (by decide) .., nullary_w (by decide) .., binary_w (by decide) ..,
   nullary_w (by decide) .., binary_w (by decide) .., unary_w (by decide) .., binary_w (by decide) .., nullary_w (by decide) .., binary_w (by decide) ..,
   nullary_w (by decide) .., unary_w (by decide) .., unary_w (by decide) .., ternary_w (by decide) ..⟩
theorem keep_opsC3 {r : Ref sig .tc} (hr : r ∉ wr_opsC3) (V : Valuation τ sig (Elt Ideal)) :
    after (opsC3 (F := Ideal)) V (Proc.devRef .tc r) = V (Proc.devRef .tc r) :=
  after_of_writes_sub _ V wr_opsC3_sub hr

/-- The buffers the 27 operations of `opsC4` write. -/
abbrev wr_opsC4 : List (Ref sig .tc) :=
  [main_v141, main_v142, main_v143, main_cst_33, main_v144, main_v145, main_v146, main_v147, main_v148, main_v149, main_v150, main_v151,
   main_v152, main_v153, main_v154, main_v155, main_call6_cst, main_call6_v0, main_v156, main_v157, main_v158, main_v159, main_v160, main_v161,
   main_v162, main_v163, main_v164]
set_option maxRecDepth 65536 in
theorem wr_opsC4_sub : (opsC4 (F := Ideal)).Forall fun op => op.writes ⊆ ((wr_opsC4).map (Proc.devRef (τ := τ) .tc)).toFinset :=
  ⟨unary_w (by decide) .., unary_w (by decide) .., binary_w (by decide) .., nullary_w (by decide) .., unary_w (by decide) .., binary_w (by decide) ..,
   unary_w (by decide) .., unary_w (by decide) .., unary_w (by decide) .., binary_w (by decide) .., unary_w (by decide) .., unary_w (by decide) ..,
   binary_w (by decide) .., unary_w (by decide) .., unary_w (by decide) .., binary_w (by decide) .., nullary_w (by decide) .., unary_w (by decide) ..,
   binary_w (by decide) .., binary_w (by decide) .., unary_w (by decide) .., unary_w (by decide) .., binary_w (by decide) .., binary_w (by decide) ..,
   unary_w (by decide) .., unary_w (by decide) .., binary_w (by decide) ..⟩
theorem keep_opsC4 {r : Ref sig .tc} (hr : r ∉ wr_opsC4) (V : Valuation τ sig (Elt Ideal)) :
    after (opsC4 (F := Ideal)) V (Proc.devRef .tc r) = V (Proc.devRef .tc r) :=
  after_of_writes_sub _ V wr_opsC4_sub hr

theorem rA1_arg0 (Y : Valuation τ sig (Elt Ideal)) :
    after opsA1 (Y) (Proc.devRef .tc main_arg0) = Y (Proc.devRef .tc main_arg0) :=
  keep_opsA1 (by decide) Y
theorem rA1_arg1 (Y : Valuation τ sig (Elt Ideal)) :
    after opsA1 (Y) (Proc.devRef .tc main_arg1) = Y (Proc.devRef .tc main_arg1) :=
  keep_opsA1 (by decide) Y
theorem rA1_arg2 (Y : Valuation τ sig (Elt Ideal)) :
    after opsA1 (Y) (Proc.devRef .tc main_arg2) = Y (Proc.devRef .tc main_arg2) :=
  keep_opsA1 (by decide) Y
theorem rA1_arg3 (Y : Valuation τ sig (Elt Ideal)) :
    after opsA1 (Y) (Proc.devRef .tc main_arg3) = Y (Proc.devRef .tc main_arg3) :=
  keep_opsA1 (by decide) Y
theorem rA1_arg4 (Y : Valuation τ sig (Elt Ideal)) :
    after opsA1 (Y) (Proc.devRef .tc main_arg4) = Y (Proc.devRef .tc main_arg4) :=
  keep_opsA1 (by decide) Y
theorem rA1_arg5 (Y : Valuation τ sig (Elt Ideal)) :
    after opsA1 (Y) (Proc.devRef .tc main_arg5) = Y (Proc.devRef .tc main_arg5) :=
  keep_opsA1 (by decide) Y
theorem rA1_arg6 (Y : Valuation τ sig (Elt Ideal)) :
    after opsA1 (Y) (Proc.devRef .tc main_arg6) = Y (Proc.devRef .tc main_arg6) :=
  keep_opsA1 (by decide) Y
theorem rA1_arg7 (Y : Valuation τ sig (Elt Ideal)) :
    after opsA1 (Y) (Proc.devRef .tc main_arg7) = Y (Proc.devRef .tc main_arg7) :=
  keep_opsA1 (by decide) Y
theorem rA1_arg8 (Y : Valuation τ sig (Elt Ideal)) :
    after opsA1 (Y) (Proc.devRef .tc main_arg8) = Y (Proc.devRef .tc main_arg8) :=
  keep_opsA1 (by decide) Y
theorem rA1_arg9 (Y : Valuation τ sig (Elt Ideal)) :
    after opsA1 (Y) (Proc.devRef .tc main_arg9) = Y (Proc.devRef .tc main_arg9) :=
  keep_opsA1 (by decide) Y
theorem rA1_arg10 (Y : Valuation τ sig (Elt Ideal)) :
    after opsA1 (Y) (Proc.devRef .tc main_arg10) = Y (Proc.devRef .tc main_arg10) :=
  keep_opsA1 (by decide) Y
theorem rA1_arg11 (Y : Valuation τ sig (Elt Ideal)) :
    after opsA1 (Y) (Proc.devRef .tc main_arg11) = Y (Proc.devRef .tc main_arg11) :=
  keep_opsA1 (by decide) Y
theorem rA1_arg12 (Y : Valuation τ sig (Elt Ideal)) :
    after opsA1 (Y) (Proc.devRef .tc main_arg12) = Y (Proc.devRef .tc main_arg12) :=
  keep_opsA1 (by decide) Y
theorem rA1_arg13 (Y : Valuation τ sig (Elt Ideal)) :
    after opsA1 (Y) (Proc.devRef .tc main_arg13) = Y (Proc.devRef .tc main_arg13) :=
  keep_opsA1 (by decide) Y
theorem rA1_arg14 (Y : Valuation τ sig (Elt Ideal)) :
    after opsA1 (Y) (Proc.devRef .tc main_arg14) = Y (Proc.devRef .tc main_arg14) :=
  keep_opsA1 (by decide) Y
theorem rA1_arg15 (Y : Valuation τ sig (Elt Ideal)) :
    after opsA1 (Y) (Proc.devRef .tc main_arg15) = Y (Proc.devRef .tc main_arg15) :=
  keep_opsA1 (by decide) Y
theorem rA1_arg16 (Y : Valuation τ sig (Elt Ideal)) :
    after opsA1 (Y) (Proc.devRef .tc main_arg16) = Y (Proc.devRef .tc main_arg16) :=
  keep_opsA1 (by decide) Y

theorem rB1_arg0 (Y : Valuation τ sig (Elt Ideal)) :
    after opsB1 (after opsA2 (after opsA1 (Y))) (Proc.devRef .tc main_arg0) = Y (Proc.devRef .tc main_arg0) :=
  (keep_opsB1 (by decide) _).trans ((keep_opsA2 (by decide) _).trans (keep_opsA1 (by decide) Y))
theorem rB1_arg1 (Y : Valuation τ sig (Elt Ideal)) :
    after opsB1 (after opsA2 (after opsA1 (Y))) (Proc.devRef .tc main_arg1) = Y (Proc.devRef .tc main_arg1) :=
  (keep_opsB1 (by decide) _).trans ((keep_opsA2 (by decide) _).trans (keep_opsA1 (by decide) Y))
theorem rB1_arg2 (Y : Valuation τ sig (Elt Ideal)) :
    after opsB1 (after opsA2 (after opsA1 (Y))) (Proc.devRef .tc main_arg2) = Y (Proc.devRef .tc main_arg2) :=
  (keep_opsB1 (by decide) _).trans ((keep_opsA2 (by decide) _).trans (keep_opsA1 (by decide) Y))
theorem rB1_arg3 (Y : Valuation τ sig (Elt Ideal)) :
    after opsB1 (after opsA2 (after opsA1 (Y))) (Proc.devRef .tc main_arg3) = Y (Proc.devRef .tc main_arg3) :=
  (keep_opsB1 (by decide) _).trans ((keep_opsA2 (by decide) _).trans (keep_opsA1 (by decide) Y))
theorem rB1_arg4 (Y : Valuation τ sig (Elt Ideal)) :
    after opsB1 (after opsA2 (after opsA1 (Y))) (Proc.devRef .tc main_arg4) = Y (Proc.devRef .tc main_arg4) :=
  (keep_opsB1 (by decide) _).trans ((keep_opsA2 (by decide) _).trans (keep_opsA1 (by decide) Y))
theorem rB1_arg5 (Y : Valuation τ sig (Elt Ideal)) :
    after opsB1 (after opsA2 (after opsA1 (Y))) (Proc.devRef .tc main_arg5) = Y (Proc.devRef .tc main_arg5) :=
  (keep_opsB1 (by decide) _).trans ((keep_opsA2 (by decide) _).trans (keep_opsA1 (by decide) Y))
theorem rB1_arg6 (Y : Valuation τ sig (Elt Ideal)) :
    after opsB1 (after opsA2 (after opsA1 (Y))) (Proc.devRef .tc main_arg6) = Y (Proc.devRef .tc main_arg6) :=
  (keep_opsB1 (by decide) _).trans ((keep_opsA2 (by decide) _).trans (keep_opsA1 (by decide) Y))
theorem rB1_arg7 (Y : Valuation τ sig (Elt Ideal)) :
    after opsB1 (after opsA2 (after opsA1 (Y))) (Proc.devRef .tc main_arg7) = Y (Proc.devRef .tc main_arg7) :=
  (keep_opsB1 (by decide) _).trans ((keep_opsA2 (by decide) _).trans (keep_opsA1 (by decide) Y))
theorem rB1_arg8 (Y : Valuation τ sig (Elt Ideal)) :
    after opsB1 (after opsA2 (after opsA1 (Y))) (Proc.devRef .tc main_arg8) = Y (Proc.devRef .tc main_arg8) :=
  (keep_opsB1 (by decide) _).trans ((keep_opsA2 (by decide) _).trans (keep_opsA1 (by decide) Y))
theorem rB1_arg9 (Y : Valuation τ sig (Elt Ideal)) :
    after opsB1 (after opsA2 (after opsA1 (Y))) (Proc.devRef .tc main_arg9) = Y (Proc.devRef .tc main_arg9) :=
  (keep_opsB1 (by decide) _).trans ((keep_opsA2 (by decide) _).trans (keep_opsA1 (by decide) Y))
theorem rB1_arg10 (Y : Valuation τ sig (Elt Ideal)) :
    after opsB1 (after opsA2 (after opsA1 (Y))) (Proc.devRef .tc main_arg10) = Y (Proc.devRef .tc main_arg10) :=
  (keep_opsB1 (by decide) _).trans ((keep_opsA2 (by decide) _).trans (keep_opsA1 (by decide) Y))
theorem rB1_arg11 (Y : Valuation τ sig (Elt Ideal)) :
    after opsB1 (after opsA2 (after opsA1 (Y))) (Proc.devRef .tc main_arg11) = Y (Proc.devRef .tc main_arg11) :=
  (keep_opsB1 (by decide) _).trans ((keep_opsA2 (by decide) _).trans (keep_opsA1 (by decide) Y))
theorem rB1_arg12 (Y : Valuation τ sig (Elt Ideal)) :
    after opsB1 (after opsA2 (after opsA1 (Y))) (Proc.devRef .tc main_arg12) = Y (Proc.devRef .tc main_arg12) :=
  (keep_opsB1 (by decide) _).trans ((keep_opsA2 (by decide) _).trans (keep_opsA1 (by decide) Y))
theorem rB1_arg13 (Y : Valuation τ sig (Elt Ideal)) :
    after opsB1 (after opsA2 (after opsA1 (Y))) (Proc.devRef .tc main_arg13) = Y (Proc.devRef .tc main_arg13) :=
  (keep_opsB1 (by decide) _).trans ((keep_opsA2 (by decide) _).trans (keep_opsA1 (by decide) Y))
theorem rB1_arg14 (Y : Valuation τ sig (Elt Ideal)) :
    after opsB1 (after opsA2 (after opsA1 (Y))) (Proc.devRef .tc main_arg14) = Y (Proc.devRef .tc main_arg14) :=
  (keep_opsB1 (by decide) _).trans ((keep_opsA2 (by decide) _).trans (keep_opsA1 (by decide) Y))
theorem rB1_arg15 (Y : Valuation τ sig (Elt Ideal)) :
    after opsB1 (after opsA2 (after opsA1 (Y))) (Proc.devRef .tc main_arg15) = Y (Proc.devRef .tc main_arg15) :=
  (keep_opsB1 (by decide) _).trans ((keep_opsA2 (by decide) _).trans (keep_opsA1 (by decide) Y))
theorem rB1_arg16 (Y : Valuation τ sig (Elt Ideal)) :
    after opsB1 (after opsA2 (after opsA1 (Y))) (Proc.devRef .tc main_arg16) = Y (Proc.devRef .tc main_arg16) :=
  (keep_opsB1 (by decide) _).trans ((keep_opsA2 (by decide) _).trans (keep_opsA1 (by decide) Y))

theorem rB3_arg0 (Y : Valuation τ sig (Elt Ideal)) :
    after opsB3 (after opsB2 (after opsB1 (after opsA2 (after opsA1 (Y))))) (Proc.devRef .tc main_arg0) = Y (Proc.devRef .tc main_arg0) :=
  (keep_opsB3 (by decide) _).trans ((keep_opsB2 (by decide) _).trans ((keep_opsB1 (by decide) _).trans ((keep_opsA2 (by decide) _).trans (keep_opsA1 (by decide) Y))))
theorem rB3_arg1 (Y : Valuation τ sig (Elt Ideal)) :
    after opsB3 (after opsB2 (after opsB1 (after opsA2 (after opsA1 (Y))))) (Proc.devRef .tc main_arg1) = Y (Proc.devRef .tc main_arg1) :=
  (keep_opsB3 (by decide) _).trans ((keep_opsB2 (by decide) _).trans ((keep_opsB1 (by decide) _).trans ((keep_opsA2 (by decide) _).trans (keep_opsA1 (by decide) Y))))
theorem rB3_arg2 (Y : Valuation τ sig (Elt Ideal)) :
    after opsB3 (after opsB2 (after opsB1 (after opsA2 (after opsA1 (Y))))) (Proc.devRef .tc main_arg2) = Y (Proc.devRef .tc main_arg2) :=
  (keep_opsB3 (by decide) _).trans ((keep_opsB2 (by decide) _).trans ((keep_opsB1 (by decide) _).trans ((keep_opsA2 (by decide) _).trans (keep_opsA1 (by decide) Y))))
theorem rB3_arg3 (Y : Valuation τ sig (Elt Ideal)) :
    after opsB3 (after opsB2 (after opsB1 (after opsA2 (after opsA1 (Y))))) (Proc.devRef .tc main_arg3) = Y (Proc.devRef .tc main_arg3) :=
  (keep_opsB3 (by decide) _).trans ((keep_opsB2 (by decide) _).trans ((keep_opsB1 (by decide) _).trans ((keep_opsA2 (by decide) _).trans (keep_opsA1 (by decide) Y))))
theorem rB3_arg4 (Y : Valuation τ sig (Elt Ideal)) :
    after opsB3 (after opsB2 (after opsB1 (after opsA2 (after opsA1 (Y))))) (Proc.devRef .tc main_arg4) = Y (Proc.devRef .tc main_arg4) :=
  (keep_opsB3 (by decide) _).trans ((keep_opsB2 (by decide) _).trans ((keep_opsB1 (by decide) _).trans ((keep_opsA2 (by decide) _).trans (keep_opsA1 (by decide) Y))))
theorem rB3_arg5 (Y : Valuation τ sig (Elt Ideal)) :
    after opsB3 (after opsB2 (after opsB1 (after opsA2 (after opsA1 (Y))))) (Proc.devRef .tc main_arg5) = Y (Proc.devRef .tc main_arg5) :=
  (keep_opsB3 (by decide) _).trans ((keep_opsB2 (by decide) _).trans ((keep_opsB1 (by decide) _).trans ((keep_opsA2 (by decide) _).trans (keep_opsA1 (by decide) Y))))
theorem rB3_arg6 (Y : Valuation τ sig (Elt Ideal)) :
    after opsB3 (after opsB2 (after opsB1 (after opsA2 (after opsA1 (Y))))) (Proc.devRef .tc main_arg6) = Y (Proc.devRef .tc main_arg6) :=
  (keep_opsB3 (by decide) _).trans ((keep_opsB2 (by decide) _).trans ((keep_opsB1 (by decide) _).trans ((keep_opsA2 (by decide) _).trans (keep_opsA1 (by decide) Y))))
theorem rB3_arg7 (Y : Valuation τ sig (Elt Ideal)) :
    after opsB3 (after opsB2 (after opsB1 (after opsA2 (after opsA1 (Y))))) (Proc.devRef .tc main_arg7) = Y (Proc.devRef .tc main_arg7) :=
  (keep_opsB3 (by decide) _).trans ((keep_opsB2 (by decide) _).trans ((keep_opsB1 (by decide) _).trans ((keep_opsA2 (by decide) _).trans (keep_opsA1 (by decide) Y))))
theorem rB3_arg8 (Y : Valuation τ sig (Elt Ideal)) :
    after opsB3 (after opsB2 (after opsB1 (after opsA2 (after opsA1 (Y))))) (Proc.devRef .tc main_arg8) = Y (Proc.devRef .tc main_arg8) :=
  (keep_opsB3 (by decide) _).trans ((keep_opsB2 (by decide) _).trans ((keep_opsB1 (by decide) _).trans ((keep_opsA2 (by decide) _).trans (keep_opsA1 (by decide) Y))))
theorem rB3_arg9 (Y : Valuation τ sig (Elt Ideal)) :
    after opsB3 (after opsB2 (after opsB1 (after opsA2 (after opsA1 (Y))))) (Proc.devRef .tc main_arg9) = Y (Proc.devRef .tc main_arg9) :=
  (keep_opsB3 (by decide) _).trans ((keep_opsB2 (by decide) _).trans ((keep_opsB1 (by decide) _).trans ((keep_opsA2 (by decide) _).trans (keep_opsA1 (by decide) Y))))
theorem rB3_arg10 (Y : Valuation τ sig (Elt Ideal)) :
    after opsB3 (after opsB2 (after opsB1 (after opsA2 (after opsA1 (Y))))) (Proc.devRef .tc main_arg10) = Y (Proc.devRef .tc main_arg10) :=
  (keep_opsB3 (by decide) _).trans ((keep_opsB2 (by decide) _).trans ((keep_opsB1 (by decide) _).trans ((keep_opsA2 (by decide) _).trans (keep_opsA1 (by decide) Y))))
theorem rB3_arg11 (Y : Valuation τ sig (Elt Ideal)) :
    after opsB3 (after opsB2 (after opsB1 (after opsA2 (after opsA1 (Y))))) (Proc.devRef .tc main_arg11) = Y (Proc.devRef .tc main_arg11) :=
  (keep_opsB3 (by decide) _).trans ((keep_opsB2 (by decide) _).trans ((keep_opsB1 (by decide) _).trans ((keep_opsA2 (by decide) _).trans (keep_opsA1 (by decide) Y))))
theorem rB3_arg12 (Y : Valuation τ sig (Elt Ideal)) :
    after opsB3 (after opsB2 (after opsB1 (after opsA2 (after opsA1 (Y))))) (Proc.devRef .tc main_arg12) = Y (Proc.devRef .tc main_arg12) :=
  (keep_opsB3 (by decide) _).trans ((keep_opsB2 (by decide) _).trans ((keep_opsB1 (by decide) _).trans ((keep_opsA2 (by decide) _).trans (keep_opsA1 (by decide) Y))))
theorem rB3_arg13 (Y : Valuation τ sig (Elt Ideal)) :
    after opsB3 (after opsB2 (after opsB1 (after opsA2 (after opsA1 (Y))))) (Proc.devRef .tc main_arg13) = Y (Proc.devRef .tc main_arg13) :=
  (keep_opsB3 (by decide) _).trans ((keep_opsB2 (by decide) _).trans ((keep_opsB1 (by decide) _).trans ((keep_opsA2 (by decide) _).trans (keep_opsA1 (by decide) Y))))
theorem rB3_arg14 (Y : Valuation τ sig (Elt Ideal)) :
    after opsB3 (after opsB2 (after opsB1 (after opsA2 (after opsA1 (Y))))) (Proc.devRef .tc main_arg14) = Y (Proc.devRef .tc main_arg14) :=
  (keep_opsB3 (by decide) _).trans ((keep_opsB2 (by decide) _).trans ((keep_opsB1 (by decide) _).trans ((keep_opsA2 (by decide) _).trans (keep_opsA1 (by decide) Y))))
theorem rB3_arg15 (Y : Valuation τ sig (Elt Ideal)) :
    after opsB3 (after opsB2 (after opsB1 (after opsA2 (after opsA1 (Y))))) (Proc.devRef .tc main_arg15) = Y (Proc.devRef .tc main_arg15) :=
  (keep_opsB3 (by decide) _).trans ((keep_opsB2 (by decide) _).trans ((keep_opsB1 (by decide) _).trans ((keep_opsA2 (by decide) _).trans (keep_opsA1 (by decide) Y))))
theorem rB3_arg16 (Y : Valuation τ sig (Elt Ideal)) :
    after opsB3 (after opsB2 (after opsB1 (after opsA2 (after opsA1 (Y))))) (Proc.devRef .tc main_arg16) = Y (Proc.devRef .tc main_arg16) :=
  (keep_opsB3 (by decide) _).trans ((keep_opsB2 (by decide) _).trans ((keep_opsB1 (by decide) _).trans ((keep_opsA2 (by decide) _).trans (keep_opsA1 (by decide) Y))))

theorem rC1_arg0 (Y : Valuation τ sig (Elt Ideal)) :
    after opsC1 (after opsB4 (after opsB3 (after opsB2 (after opsB1 (after opsA2 (after opsA1 (Y))))))) (Proc.devRef .tc main_arg0) = Y (Proc.devRef .tc main_arg0) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg1 (Y : Valuation τ sig (Elt Ideal)) :
    after opsC1 (after opsB4 (after opsB3 (after opsB2 (after opsB1 (after opsA2 (after opsA1 (Y))))))) (Proc.devRef .tc main_arg1) = Y (Proc.devRef .tc main_arg1) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg2 (Y : Valuation τ sig (Elt Ideal)) :
    after opsC1 (after opsB4 (after opsB3 (after opsB2 (after opsB1 (after opsA2 (after opsA1 (Y))))))) (Proc.devRef .tc main_arg2) = Y (Proc.devRef .tc main_arg2) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg3 (Y : Valuation τ sig (Elt Ideal)) :
    after opsC1 (after opsB4 (after opsB3 (after opsB2 (after opsB1 (after opsA2 (after opsA1 (Y))))))) (Proc.devRef .tc main_arg3) = Y (Proc.devRef .tc main_arg3) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg4 (Y : Valuation τ sig (Elt Ideal)) :
    after opsC1 (after opsB4 (after opsB3 (after opsB2 (after opsB1 (after opsA2 (after opsA1 (Y))))))) (Proc.devRef .tc main_arg4) = Y (Proc.devRef .tc main_arg4) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg5 (Y : Valuation τ sig (Elt Ideal)) :
    after opsC1 (after opsB4 (after opsB3 (after opsB2 (after opsB1 (after opsA2 (after opsA1 (Y))))))) (Proc.devRef .tc main_arg5) = Y (Proc.devRef .tc main_arg5) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg6 (Y : Valuation τ sig (Elt Ideal)) :
    after opsC1 (after opsB4 (after opsB3 (after opsB2 (after opsB1 (after opsA2 (after opsA1 (Y))))))) (Proc.devRef .tc main_arg6) = Y (Proc.devRef .tc main_arg6) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg7 (Y : Valuation τ sig (Elt Ideal)) :
    after opsC1 (after opsB4 (after opsB3 (after opsB2 (after opsB1 (after opsA2 (after opsA1 (Y))))))) (Proc.devRef .tc main_arg7) = Y (Proc.devRef .tc main_arg7) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg8 (Y : Valuation τ sig (Elt Ideal)) :
    after opsC1 (after opsB4 (after opsB3 (after opsB2 (after opsB1 (after opsA2 (after opsA1 (Y))))))) (Proc.devRef .tc main_arg8) = Y (Proc.devRef .tc main_arg8) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg9 (Y : Valuation τ sig (Elt Ideal)) :
    after opsC1 (after opsB4 (after opsB3 (after opsB2 (after opsB1 (after opsA2 (after opsA1 (Y))))))) (Proc.devRef .tc main_arg9) = Y (Proc.devRef .tc main_arg9) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg10 (Y : Valuation τ sig (Elt Ideal)) :
    after opsC1 (after opsB4 (after opsB3 (after opsB2 (after opsB1 (after opsA2 (after opsA1 (Y))))))) (Proc.devRef .tc main_arg10) = Y (Proc.devRef .tc main_arg10) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg11 (Y : Valuation τ sig (Elt Ideal)) :
    after opsC1 (after opsB4 (after opsB3 (after opsB2 (after opsB1 (after opsA2 (after opsA1 (Y))))))) (Proc.devRef .tc main_arg11) = Y (Proc.devRef .tc main_arg11) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg12 (Y : Valuation τ sig (Elt Ideal)) :
    after opsC1 (after opsB4 (after opsB3 (after opsB2 (after opsB1 (after opsA2 (after opsA1 (Y))))))) (Proc.devRef .tc main_arg12) = Y (Proc.devRef .tc main_arg12) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg13 (Y : Valuation τ sig (Elt Ideal)) :
    after opsC1 (after opsB4 (after opsB3 (after opsB2 (after opsB1 (after opsA2 (after opsA1 (Y))))))) (Proc.devRef .tc main_arg13) = Y (Proc.devRef .tc main_arg13) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg14 (Y : Valuation τ sig (Elt Ideal)) :
    after opsC1 (after opsB4 (after opsB3 (after opsB2 (after opsB1 (after opsA2 (after opsA1 (Y))))))) (Proc.devRef .tc main_arg14) = Y (Proc.devRef .tc main_arg14) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg15 (Y : Valuation τ sig (Elt Ideal)) :
    after opsC1 (after opsB4 (after opsB3 (after opsB2 (after opsB1 (after opsA2 (after opsA1 (Y))))))) (Proc.devRef .tc main_arg15) = Y (Proc.devRef .tc main_arg15) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))
theorem rC1_arg16 (Y : Valuation τ sig (Elt Ideal)) :
    after opsC1 (after opsB4 (after opsB3 (after opsB2 (after opsB1 (after opsA2 (after opsA1 (Y))))))) (Proc.devRef .tc main_arg16) = Y (Proc.devRef .tc main_arg16) :=
  (keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))

theorem rC3_arg0 (Y : Valuation τ sig (Elt Ideal)) :
    after opsC3 (after opsC2 (after opsC1 (after opsB4 (after opsB3 (after opsB2 (after opsB1 (after opsA2 (after opsA1 (Y))))))))) (Proc.devRef .tc main_arg0) = Y (Proc.devRef .tc main_arg0) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg1 (Y : Valuation τ sig (Elt Ideal)) :
    after opsC3 (after opsC2 (after opsC1 (after opsB4 (after opsB3 (after opsB2 (after opsB1 (after opsA2 (after opsA1 (Y))))))))) (Proc.devRef .tc main_arg1) = Y (Proc.devRef .tc main_arg1) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg2 (Y : Valuation τ sig (Elt Ideal)) :
    after opsC3 (after opsC2 (after opsC1 (after opsB4 (after opsB3 (after opsB2 (after opsB1 (after opsA2 (after opsA1 (Y))))))))) (Proc.devRef .tc main_arg2) = Y (Proc.devRef .tc main_arg2) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg3 (Y : Valuation τ sig (Elt Ideal)) :
    after opsC3 (after opsC2 (after opsC1 (after opsB4 (after opsB3 (after opsB2 (after opsB1 (after opsA2 (after opsA1 (Y))))))))) (Proc.devRef .tc main_arg3) = Y (Proc.devRef .tc main_arg3) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg4 (Y : Valuation τ sig (Elt Ideal)) :
    after opsC3 (after opsC2 (after opsC1 (after opsB4 (after opsB3 (after opsB2 (after opsB1 (after opsA2 (after opsA1 (Y))))))))) (Proc.devRef .tc main_arg4) = Y (Proc.devRef .tc main_arg4) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg5 (Y : Valuation τ sig (Elt Ideal)) :
    after opsC3 (after opsC2 (after opsC1 (after opsB4 (after opsB3 (after opsB2 (after opsB1 (after opsA2 (after opsA1 (Y))))))))) (Proc.devRef .tc main_arg5) = Y (Proc.devRef .tc main_arg5) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg6 (Y : Valuation τ sig (Elt Ideal)) :
    after opsC3 (after opsC2 (after opsC1 (after opsB4 (after opsB3 (after opsB2 (after opsB1 (after opsA2 (after opsA1 (Y))))))))) (Proc.devRef .tc main_arg6) = Y (Proc.devRef .tc main_arg6) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg7 (Y : Valuation τ sig (Elt Ideal)) :
    after opsC3 (after opsC2 (after opsC1 (after opsB4 (after opsB3 (after opsB2 (after opsB1 (after opsA2 (after opsA1 (Y))))))))) (Proc.devRef .tc main_arg7) = Y (Proc.devRef .tc main_arg7) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg8 (Y : Valuation τ sig (Elt Ideal)) :
    after opsC3 (after opsC2 (after opsC1 (after opsB4 (after opsB3 (after opsB2 (after opsB1 (after opsA2 (after opsA1 (Y))))))))) (Proc.devRef .tc main_arg8) = Y (Proc.devRef .tc main_arg8) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg9 (Y : Valuation τ sig (Elt Ideal)) :
    after opsC3 (after opsC2 (after opsC1 (after opsB4 (after opsB3 (after opsB2 (after opsB1 (after opsA2 (after opsA1 (Y))))))))) (Proc.devRef .tc main_arg9) = Y (Proc.devRef .tc main_arg9) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg10 (Y : Valuation τ sig (Elt Ideal)) :
    after opsC3 (after opsC2 (after opsC1 (after opsB4 (after opsB3 (after opsB2 (after opsB1 (after opsA2 (after opsA1 (Y))))))))) (Proc.devRef .tc main_arg10) = Y (Proc.devRef .tc main_arg10) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg11 (Y : Valuation τ sig (Elt Ideal)) :
    after opsC3 (after opsC2 (after opsC1 (after opsB4 (after opsB3 (after opsB2 (after opsB1 (after opsA2 (after opsA1 (Y))))))))) (Proc.devRef .tc main_arg11) = Y (Proc.devRef .tc main_arg11) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg12 (Y : Valuation τ sig (Elt Ideal)) :
    after opsC3 (after opsC2 (after opsC1 (after opsB4 (after opsB3 (after opsB2 (after opsB1 (after opsA2 (after opsA1 (Y))))))))) (Proc.devRef .tc main_arg12) = Y (Proc.devRef .tc main_arg12) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg13 (Y : Valuation τ sig (Elt Ideal)) :
    after opsC3 (after opsC2 (after opsC1 (after opsB4 (after opsB3 (after opsB2 (after opsB1 (after opsA2 (after opsA1 (Y))))))))) (Proc.devRef .tc main_arg13) = Y (Proc.devRef .tc main_arg13) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg14 (Y : Valuation τ sig (Elt Ideal)) :
    after opsC3 (after opsC2 (after opsC1 (after opsB4 (after opsB3 (after opsB2 (after opsB1 (after opsA2 (after opsA1 (Y))))))))) (Proc.devRef .tc main_arg14) = Y (Proc.devRef .tc main_arg14) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg15 (Y : Valuation τ sig (Elt Ideal)) :
    after opsC3 (after opsC2 (after opsC1 (after opsB4 (after opsB3 (after opsB2 (after opsB1 (after opsA2 (after opsA1 (Y))))))))) (Proc.devRef .tc main_arg15) = Y (Proc.devRef .tc main_arg15) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))
theorem rC3_arg16 (Y : Valuation τ sig (Elt Ideal)) :
    after opsC3 (after opsC2 (after opsC1 (after opsB4 (after opsB3 (after opsB2 (after opsB1 (after opsA2 (after opsA1 (Y))))))))) (Proc.devRef .tc main_arg16) = Y (Proc.devRef .tc main_arg16) :=
  (keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))

theorem rAll_arg0 (Y : Valuation τ sig (Elt Ideal)) :
    after (ops (F := Ideal)) Y (Proc.devRef .tc main_arg0) = Y (Proc.devRef .tc main_arg0) :=
  (congrFun (after_ops Y) (Proc.devRef .tc main_arg0)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg1 (Y : Valuation τ sig (Elt Ideal)) :
    after (ops (F := Ideal)) Y (Proc.devRef .tc main_arg1) = Y (Proc.devRef .tc main_arg1) :=
  (congrFun (after_ops Y) (Proc.devRef .tc main_arg1)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg2 (Y : Valuation τ sig (Elt Ideal)) :
    after (ops (F := Ideal)) Y (Proc.devRef .tc main_arg2) = Y (Proc.devRef .tc main_arg2) :=
  (congrFun (after_ops Y) (Proc.devRef .tc main_arg2)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg3 (Y : Valuation τ sig (Elt Ideal)) :
    after (ops (F := Ideal)) Y (Proc.devRef .tc main_arg3) = Y (Proc.devRef .tc main_arg3) :=
  (congrFun (after_ops Y) (Proc.devRef .tc main_arg3)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg4 (Y : Valuation τ sig (Elt Ideal)) :
    after (ops (F := Ideal)) Y (Proc.devRef .tc main_arg4) = Y (Proc.devRef .tc main_arg4) :=
  (congrFun (after_ops Y) (Proc.devRef .tc main_arg4)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg5 (Y : Valuation τ sig (Elt Ideal)) :
    after (ops (F := Ideal)) Y (Proc.devRef .tc main_arg5) = Y (Proc.devRef .tc main_arg5) :=
  (congrFun (after_ops Y) (Proc.devRef .tc main_arg5)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg6 (Y : Valuation τ sig (Elt Ideal)) :
    after (ops (F := Ideal)) Y (Proc.devRef .tc main_arg6) = Y (Proc.devRef .tc main_arg6) :=
  (congrFun (after_ops Y) (Proc.devRef .tc main_arg6)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg7 (Y : Valuation τ sig (Elt Ideal)) :
    after (ops (F := Ideal)) Y (Proc.devRef .tc main_arg7) = Y (Proc.devRef .tc main_arg7) :=
  (congrFun (after_ops Y) (Proc.devRef .tc main_arg7)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg8 (Y : Valuation τ sig (Elt Ideal)) :
    after (ops (F := Ideal)) Y (Proc.devRef .tc main_arg8) = Y (Proc.devRef .tc main_arg8) :=
  (congrFun (after_ops Y) (Proc.devRef .tc main_arg8)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg9 (Y : Valuation τ sig (Elt Ideal)) :
    after (ops (F := Ideal)) Y (Proc.devRef .tc main_arg9) = Y (Proc.devRef .tc main_arg9) :=
  (congrFun (after_ops Y) (Proc.devRef .tc main_arg9)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg10 (Y : Valuation τ sig (Elt Ideal)) :
    after (ops (F := Ideal)) Y (Proc.devRef .tc main_arg10) = Y (Proc.devRef .tc main_arg10) :=
  (congrFun (after_ops Y) (Proc.devRef .tc main_arg10)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg11 (Y : Valuation τ sig (Elt Ideal)) :
    after (ops (F := Ideal)) Y (Proc.devRef .tc main_arg11) = Y (Proc.devRef .tc main_arg11) :=
  (congrFun (after_ops Y) (Proc.devRef .tc main_arg11)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg12 (Y : Valuation τ sig (Elt Ideal)) :
    after (ops (F := Ideal)) Y (Proc.devRef .tc main_arg12) = Y (Proc.devRef .tc main_arg12) :=
  (congrFun (after_ops Y) (Proc.devRef .tc main_arg12)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg13 (Y : Valuation τ sig (Elt Ideal)) :
    after (ops (F := Ideal)) Y (Proc.devRef .tc main_arg13) = Y (Proc.devRef .tc main_arg13) :=
  (congrFun (after_ops Y) (Proc.devRef .tc main_arg13)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg14 (Y : Valuation τ sig (Elt Ideal)) :
    after (ops (F := Ideal)) Y (Proc.devRef .tc main_arg14) = Y (Proc.devRef .tc main_arg14) :=
  (congrFun (after_ops Y) (Proc.devRef .tc main_arg14)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg15 (Y : Valuation τ sig (Elt Ideal)) :
    after (ops (F := Ideal)) Y (Proc.devRef .tc main_arg15) = Y (Proc.devRef .tc main_arg15) :=
  (congrFun (after_ops Y) (Proc.devRef .tc main_arg15)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))
theorem rAll_arg16 (Y : Valuation τ sig (Elt Ideal)) :
    after (ops (F := Ideal)) Y (Proc.devRef .tc main_arg16) = Y (Proc.devRef .tc main_arg16) :=
  (congrFun (after_ops Y) (Proc.devRef .tc main_arg16)).trans ((keep_opsC4 (by decide) _).trans ((keep_opsC3 (by decide) _).trans ((keep_opsC2 (by decide) _).trans ((keep_opsC1 (by decide) _).trans ((keep_opsB4 (by decide) _).trans ((keep_opsB3 (by decide) _).trans ((keep_opsB2 (by decide) _).trans ((keep_opsB1 (by decide) _).trans ((keep_opsA2 (by decide) _).trans (keep_opsA1 (by decide) Y))))))))))

theorem rB1_keeps_v23 (Z : Valuation τ sig (Elt Ideal)) :
    after (opsB1 (F := Ideal)) Z (Proc.devRef .tc main_v23) = Z (Proc.devRef .tc main_v23) := keep_opsB1 (by decide) Z
theorem rC1_keeps_v90 (Z : Valuation τ sig (Elt Ideal)) :
    after (opsC1 (F := Ideal)) Z (Proc.devRef .tc main_v90) = Z (Proc.devRef .tc main_v90) := keep_opsC1 (by decide) Z

end Reference

end Cert.Pass

end
-- ==== Proof.Chain.lean ====
/-
  The host computations the two programs share, matched as functions of what they read.

  Between the normalise-and-multiply stages both programs run the same graph-convolution bookkeeping on the host: the
  edge list extended by one self-loop per node, the weighted in-degree of every node by a scatter-add, its reciprocal
  square root where positive, the per-edge coefficient (source factor · weight · target factor), the gather of the
  source rows, their scaling, the scatter-add into the target rows, the bias, and then the per-feature mean and the
  biased variance of the result. The kernel program computes the edge coefficients once and reuses them; the reference
  recomputes them before each aggregation; the buffers have other names and the operations stand in another order, but
  as functions of the arrays they read the two are the same composition of the same operations. So whenever the
  buffers that such a stretch READS hold equal arrays on the two sides, the buffers it WRITES do too: both folds unroll
  to one and the same term.
-/
import proofs.«170029_j24111946400020_1_alg».proof.Proof.Gen.KernelIdeal.Frame
import proofs.«170029_j24111946400020_1_alg».proof.Proof.RefRun
import Idealize.ShloMosaic.Lib.StableHlo.Run
import Idealize.ShloMosaic.PureOps.Ideal

set_option maxRecDepth 16384

noncomputable section

namespace Cert.Chain

open Idealize.ShloMosaic Idealize.ShloMosaic.TcCoe Idealize.SL.Sem Idealize.ShloMosaic.StableHlo

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, _, _⟩ := x; subst h; rfl

local notation "KV" => Valuation Cert.KernelIdeal.τ Cert.KernelIdeal.sig (Elt Ideal)
local notation "RV" => Valuation Cert.ReferenceIdeal.τ Cert.ReferenceIdeal.sig (Elt Ideal)

/-- A concatenation of two arrays depends on each only through its entries. -/
@[congr] theorem concatenate_two_congr {α : Type} (t : Shape) (ax : Fin t.rank) {s1 s2 : Shape}
    {a a' : s1.Idx → α} {b b' : s2.Idx → α}
    (h : Shape.Concatenates (([⟨s1, a⟩, ⟨s2, b⟩] : List ((s : Shape) × (s.Idx → α))).map (·.1)) t ax)
    (ha : a = a') (hb : b = b') :
    concatenate t ax [⟨s1, a⟩, ⟨s2, b⟩] h = concatenate t ax [⟨s1, a'⟩, ⟨s2, b'⟩] h := by
  subst ha; subst hb; rfl

/-! ## The folds -/

/-- The kernel program's fold from the launch to the first region's entry. -/
abbrev K5 (X : KV) : KV :=
  after Cert.KernelIdeal.Gen.hostOps0_4 (after Cert.KernelIdeal.Gen.hostOps0_3 (after Cert.KernelIdeal.Gen.hostOps0_2
    (after Cert.KernelIdeal.Gen.hostOps0_1 (after Cert.KernelIdeal.Gen.hostOps0 X))))
/-- The kernel program's fold from the first region's exit to the second region's entry. -/
abbrev K9 (X : KV) : KV :=
  after Cert.KernelIdeal.Gen.hostOps1_2 (after Cert.KernelIdeal.Gen.hostOps1_1 (after Cert.KernelIdeal.Gen.hostOps1 X))
/-- The kernel program's fold from the second region's exit to the third region's entry. -/
abbrev K13 (X : KV) : KV :=
  after Cert.KernelIdeal.Gen.hostOps2_2 (after Cert.KernelIdeal.Gen.hostOps2_1 (after Cert.KernelIdeal.Gen.hostOps2 X))

/-- The reference's fold over its first statistics. -/
abbrev RA1 (Y : RV) : RV := after Cert.ReferenceIdeal.RefRun.opsA1 Y
/-- The reference's fold up to its first edge coefficients. -/
abbrev RB1 (Y : RV) : RV := after Cert.ReferenceIdeal.RefRun.opsB1 (after Cert.ReferenceIdeal.RefRun.opsA2 (RA1 Y))
/-- The reference's fold over its first aggregation and the statistics after it. -/
abbrev RB3 (Y : RV) : RV := after Cert.ReferenceIdeal.RefRun.opsB3 (after Cert.ReferenceIdeal.RefRun.opsB2 Y)
/-- The reference's fold up to its second edge coefficients. -/
abbrev RC1 (Y : RV) : RV :=
  after Cert.ReferenceIdeal.RefRun.opsC1 (after Cert.ReferenceIdeal.RefRun.opsB4 (RB3 (RB1 Y)))
/-- The reference's fold over its second aggregation and the statistics after it. -/
abbrev RC3 (Y : RV) : RV := after Cert.ReferenceIdeal.RefRun.opsC3 (after Cert.ReferenceIdeal.RefRun.opsC2 Y)

section Stats0
variable (X : KV) (Y : RV)
  (h1 : X (Proc.devRef .tc Cert.KernelIdeal.main_arg0) = Y (Proc.devRef .tc Cert.ReferenceIdeal.main_arg0))
include h1

/-- The input's per-feature mean. -/
theorem mean0 : K5 X (Proc.devRef .tc Cert.KernelIdeal.main_v36) = RA1 Y (Proc.devRef .tc Cert.ReferenceIdeal.main_v6) := by
  after_results_simp
  try simp only [ofBuf_toBuf]
  try simp only [h1]
  try rfl

/-- The input's per-feature biased variance. -/
theorem var0 : K5 X (Proc.devRef .tc Cert.KernelIdeal.main_v37) = RA1 Y (Proc.devRef .tc Cert.ReferenceIdeal.main_v7) := by
  after_results_simp
  try simp only [ofBuf_toBuf]
  try simp only [h1]
  try rfl

end Stats0

section Edges1
variable (X : KV) (Y : RV)
  (h1 : X (Proc.devRef .tc Cert.KernelIdeal.main_arg1) = Y (Proc.devRef .tc Cert.ReferenceIdeal.main_arg1))
  (h2 : X (Proc.devRef .tc Cert.KernelIdeal.main_arg2) = Y (Proc.devRef .tc Cert.ReferenceIdeal.main_arg2))
include h1 h2

/-- The per-edge coefficients, as the reference first computes them. -/
theorem norm1 : K5 X (Proc.devRef .tc Cert.KernelIdeal.main_v33) = RB1 Y (Proc.devRef .tc Cert.ReferenceIdeal.main_v53) := by
  after_results_simp
  try simp only [ofBuf_toBuf]
  try simp only [h1, h2]
  try rfl

/-- The source list with the self-loops. -/
theorem src1 : K5 X (Proc.devRef .tc Cert.KernelIdeal.main_v5) = RB1 Y (Proc.devRef .tc Cert.ReferenceIdeal.main_v25) := by
  after_results_simp
  try simp only [ofBuf_toBuf]
  try simp only [h1, h2]
  try rfl

/-- The target list with the self-loops. -/
theorem dst1 : K5 X (Proc.devRef .tc Cert.KernelIdeal.main_v6) = RB1 Y (Proc.devRef .tc Cert.ReferenceIdeal.main_v26) := by
  after_results_simp
  try simp only [ofBuf_toBuf]
  try simp only [h1, h2]
  try rfl

end Edges1

section Edges2
variable (X : KV) (Y : RV)
  (h1 : X (Proc.devRef .tc Cert.KernelIdeal.main_arg1) = Y (Proc.devRef .tc Cert.ReferenceIdeal.main_arg1))
  (h2 : X (Proc.devRef .tc Cert.KernelIdeal.main_arg2) = Y (Proc.devRef .tc Cert.ReferenceIdeal.main_arg2))
include h1 h2

set_option maxHeartbeats 4000000 in
/-- The per-edge coefficients, as the reference computes them the second time. -/
theorem norm2 : K5 X (Proc.devRef .tc Cert.KernelIdeal.main_v33) = RC1 Y (Proc.devRef .tc Cert.ReferenceIdeal.main_v120) := by
  after_results_simp
  try simp only [ofBuf_toBuf]
  try simp only [h1, h2]
  try rfl

/-- The source list with the self-loops, second time. -/
theorem src2 : K5 X (Proc.devRef .tc Cert.KernelIdeal.main_v5) = RC1 Y (Proc.devRef .tc Cert.ReferenceIdeal.main_v92) := by
  after_results_simp
  try simp only [ofBuf_toBuf]
  try simp only [h1, h2]
  try rfl

/-- The target list with the self-loops, second time. -/
theorem dst2 : K5 X (Proc.devRef .tc Cert.KernelIdeal.main_v6) = RC1 Y (Proc.devRef .tc Cert.ReferenceIdeal.main_v93) := by
  after_results_simp
  try simp only [ofBuf_toBuf]
  try simp only [h1, h2]
  try rfl

end Edges2

section Stage1
variable (X : KV) (Y : RV)
  (h1 : X (Proc.devRef .tc Cert.KernelIdeal.main_v33) = Y (Proc.devRef .tc Cert.ReferenceIdeal.main_v53))
  (h2 : X (Proc.devRef .tc Cert.KernelIdeal.main_v5) = Y (Proc.devRef .tc Cert.ReferenceIdeal.main_v25))
  (h3 : X (Proc.devRef .tc Cert.KernelIdeal.main_v6) = Y (Proc.devRef .tc Cert.ReferenceIdeal.main_v26))
  (h4 : X (Proc.devRef .tc Cert.KernelIdeal.main_v42) = Y (Proc.devRef .tc Cert.ReferenceIdeal.main_v23))
  (h5 : X (Proc.devRef .tc Cert.KernelIdeal.main_arg6) = Y (Proc.devRef .tc Cert.ReferenceIdeal.main_arg6))
include h1 h2 h3 h4 h5

/-- The first aggregated array plus bias. -/
theorem agg1 : K9 X (Proc.devRef .tc Cert.KernelIdeal.main_v58) = RB3 Y (Proc.devRef .tc Cert.ReferenceIdeal.main_v69) := by
  after_results_simp
  try simp only [ofBuf_toBuf]
  try simp only [h1, h2, h3, h4, h5]
  try rfl

/-- Its per-feature mean. -/
theorem mean1 : K9 X (Proc.devRef .tc Cert.KernelIdeal.main_v61) = RB3 Y (Proc.devRef .tc Cert.ReferenceIdeal.main_v72) := by
  after_results_simp
  try simp only [ofBuf_toBuf]
  try simp only [h1, h2, h3, h4, h5]
  try rfl

/-- Its per-feature biased variance. -/
theorem var1 : K9 X (Proc.devRef .tc Cert.KernelIdeal.main_v62) = RB3 Y (Proc.devRef .tc Cert.ReferenceIdeal.main_v73) := by
  after_results_simp
  try simp only [ofBuf_toBuf]
  try simp only [h1, h2, h3, h4, h5]
  try rfl

end Stage1

section Stage2
variable (X : KV) (Y : RV)
  (h1 : X (Proc.devRef .tc Cert.KernelIdeal.main_v33) = Y (Proc.devRef .tc Cert.ReferenceIdeal.main_v120))
  (h2 : X (Proc.devRef .tc Cert.KernelIdeal.main_v5) = Y (Proc.devRef .tc Cert.ReferenceIdeal.main_v92))
  (h3 : X (Proc.devRef .tc Cert.KernelIdeal.main_v6) = Y (Proc.devRef .tc Cert.ReferenceIdeal.main_v93))
  (h4 : X (Proc.devRef .tc Cert.KernelIdeal.main_v67) = Y (Proc.devRef .tc Cert.ReferenceIdeal.main_v90))
  (h5 : X (Proc.devRef .tc Cert.KernelIdeal.main_arg10) = Y (Proc.devRef .tc Cert.ReferenceIdeal.main_arg10))
include h1 h2 h3 h4 h5

/-- The second aggregated array plus bias. -/
theorem agg2 : K13 X (Proc.devRef .tc Cert.KernelIdeal.main_v83) = RC3 Y (Proc.devRef .tc Cert.ReferenceIdeal.main_v136) := by
  after_results_simp
  try simp only [ofBuf_toBuf]
  try simp only [h1, h2, h3, h4, h5]
  try rfl

/-- Its per-feature mean. -/
theorem mean2 : K13 X (Proc.devRef .tc Cert.KernelIdeal.main_v86) = RC3 Y (Proc.devRef .tc Cert.ReferenceIdeal.main_v139) := by
  after_results_simp
  try simp only [ofBuf_toBuf]
  try simp only [h1, h2, h3, h4, h5]
  try rfl

/-- Its per-feature biased variance. -/
theorem var2 : K13 X (Proc.devRef .tc Cert.KernelIdeal.main_v87) = RC3 Y (Proc.devRef .tc Cert.ReferenceIdeal.main_v140) := by
  after_results_simp
  try simp only [ofBuf_toBuf]
  try simp only [h1, h2, h3, h4, h5]
  try rfl

end Stage2

end Cert.Chain

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Region0.lean ====
/-
  The first normalise-and-multiply region: the value of its output array.

  The region's grid has ten points; point t stages rows 5000·t … 5000·t + 4999 of the [50000, 5] input and the whole
  of the five small operands (the per-feature mean, variance, scale and shift as [1, 5] rows, and the [5, 128] weight),
  and writes rows 5000·t … 5000·t + 4999 of the [50000, 128] output. Row r of the block a point computes depends only
  on row r of the input block: each of its five features is centred by the mean, multiplied by the reciprocal square
  root of the variance plus a small constant, scaled, shifted, and the five normalised features are then contracted with
  the weight's five rows. Since the ten row blocks tile the 50000 rows, output row p is that expression of input row p,
  whichever point computed it: the array the region leaves is one function of the arrays it found, index by index.
-/
import proofs.«170029_j24111946400020_1_alg».proof.Proof.Gen.KernelIdeal.Frame
import proofs.«170029_j24111946400020_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region0

open Idealize.ShloMosaic Idealize.ShloMosaic.ValueIdx Idealize.ShloMosaic.TcCoe Idealize.SL.Sem Cert.KernelIdeal Cert.KernelIdeal.Gen
open Idealize.ShloMosaic.Pipeline (Dat)

/-! ## The value at one output position -/

/-- Output entry (p, q) as a function of the six arrays: the sum over the five features k of the normalised feature
    (centred, times the reciprocal square root of variance plus the constant, scaled, shifted) times the weight's
    entry (k, q). -/
def entry (a0 : S50000x5.Idx → EReal) (a1 a2 a3 a4 : S1x5.Idx → EReal) (a5 : S5x128.Idx → EReal)
    (p : Fin 50000) (q : Fin 128) : EReal :=
  ∑ k : Fin 5, ((((a0 (ix2 p k) - a1 (ix2 0 k)) * Ideal.rsqrt (a2 (ix2 0 k) + Ideal.ofBits .f32 0x3727C5AC#32))
      * a3 (ix2 0 k) + a4 (ix2 0 k)) * a5 (ix2 k q))

/-- The whole output array as one function of the six arrays. -/
def G0 (a0 : S50000x5.Idx → EReal) (a1 a2 a3 a4 : S1x5.Idx → EReal) (a5 : S5x128.Idx → EReal) :
    S50000x128.Idx → EReal :=
  fun i => entry a0 a1 a2 a3 a4 a5 (i 0) (i 1)

theorem G0_apply (a0 : S50000x5.Idx → EReal) (a1 a2 a3 a4 : S1x5.Idx → EReal) (a5 : S5x128.Idx → EReal)
    (p : Fin 50000) (q : Fin 128) : G0 a0 a1 a2 a3 a4 a5 (ix2 p q) = entry a0 a1 a2 a3 a4 a5 p q := rfl

/-! ## One block -/

/-- The block a point computes, at row r and column q of the block, from the staged blocks: the matrix product is the
    sum over the five shared positions, and each factor of the left operand is the pointwise normalisation of the
    input block's entry (the four [1, 5] rows are repeated along the block's rows). -/
theorem pay_apply (x0 : Vec Ideal S5000x5 .f32) (x1 x2 x3 x4 : Vec Ideal S1x5 .f32) (x5 : Vec Ideal S5x128 .f32)
    (r : Fin 5000) (q : Fin 128) :
    k0_pay1 (F := Ideal) x0 x1 x2 x3 x4 x5 (ix2 r q)
      = ∑ k : Fin 5, ((((x0 (ix2 r k) - x1 (ix2 0 k)) * Ideal.rsqrt (x2 (ix2 0 k) + Ideal.ofBits .f32 0x3727C5AC#32))
            * x3 (ix2 0 k) + x4 (ix2 0 k)) * x5 (ix2 k q)) := by
  unfold k0_pay1
  refine (Cert.Lib.matmul_zero_apply dot_S5000x5_S5x128_S5000x128_1_0_0_1_n_n.wf none _ _ r q).trans ?_
  refine Finset.sum_congr rfl fun k _ => ?_
  have hrs : ∀ (v : FVec Ideal S1x5 .f32) (i : S1x5.Idx), rsqrt v i = Ideal.rsqrt (v i) := fun _ _ => rfl
  simp only [truncf_apply, addf_apply, mulf_apply, subf_apply, broadcastTo_1b_ab_apply, shapeCast_self, broadcast_apply, hrs]
  rfl

/-- If the staged input block is rows 5000·n … of the input array and the five small staged operands are their whole
    arrays, the block's entry (r, q) is the output function's entry (5000·n + r, q). -/
theorem block_apply (a0 : S50000x5.Idx → EReal) (a1 a2 a3 a4 : S1x5.Idx → EReal) (a5 : S5x128.Idx → EReal)
    (x0 : Vec Ideal S5000x5 .f32) (x1 x2 x3 x4 : Vec Ideal S1x5 .f32) (x5 : Vec Ideal S5x128 .f32) (n : Nat)
    (h0 : ∀ (r : Fin 5000) (k : Fin 5) (p : Fin 50000), p.val = n * 5000 + r.val → x0 (ix2 r k) = a0 (ix2 p k))
    (h1 : x1 = a1) (h2 : x2 = a2) (h3 : x3 = a3) (h4 : x4 = a4) (h5 : x5 = a5)
    (j : S5000x128.Idx) (i : S50000x128.Idx) (hi0 : (i 0).val = n * 5000 + (j 0).val) (hi1 : (i 1).val = (j 1).val) :
    k0_pay1 (F := Ideal) x0 x1 x2 x3 x4 x5 j = G0 a0 a1 a2 a3 a4 a5 i := by
  obtain ⟨r, q, rfl⟩ : ∃ (r : Fin 5000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  subst h1 h2 h3 h4 h5
  rw [pay_apply, G0_apply]
  unfold entry
  refine Finset.sum_congr rfl fun k _ => ?_
  rw [h0 r k p hi0]

/-! ## The blocks the points stage -/

theorem hz : (![0, 0] : Fin 2 → Nat) = fun _ => 0 := funext fun a => by fin_cases a <;> rfl

/-- The block indices over the grid: the input's and the output's row-block index is the point's number, every other
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The input block at point t is rows 5000·t … 5000·t + 4999 of the input array. -/
theorem iblk_0_apply (c : Dev nD) (t : Fin cfg0.N) (r : Fin 5000) (k : Fin 5) (p : Fin 50000)
    (hp : p.val = t.val * 5000 + r.val) :
    (iblk0 (F := Ideal) V c 0 t : Vec Ideal S5000x5 .f32) (ix2 r k) = (V c main_arg0 : S50000x5.Idx → EReal) (ix2 p k) := by
  obtain ⟨e0, e1, -⟩ := idx_facts t
  unfold iblk0
  rw [View.read_apply]
  show V c main_arg0 (((cfg0.win 0).blk t).view.emb (ix2 r k)) = V c main_arg0 (ix2 p k)
  refine congrArg (V c main_arg0) ?_
  funext a
  apply Fin.ext
  match a with
  | ⟨0, _⟩ => show win0_0.index t (0 : Fin 2) * 5000 + 1 * r.val = p.val; rw [e0, hp]; omega
  | ⟨1, _⟩ => show win0_0.index t (1 : Fin 2) * 5 + 1 * k.val = k.val; rw [e1]; omega

/-- A small operand's block at any point is its whole array. -/
theorem iblk_1_eq (c : Dev nD) (t : Fin cfg0.N) :
    (iblk0 (F := Ideal) V c 1 t : Vec Ideal S1x5 .f32) = (V c main_v38 : S1x5.Idx → EReal) := by
  obtain ⟨-, -, e0, e1, -⟩ := idx_facts t
  funext y
  unfold iblk0
  rw [View.read_apply]
  show V c main_v38 (((cfg0.win 1).blk t).view.emb y) = V c main_v38 y
  refine congrArg (V c main_v38) ?_
  funext a
  apply Fin.ext
  match a with
  | ⟨0, _⟩ => show win0_1.index t (0 : Fin 2) * 1 + 1 * (y 0).val = (y 0).val; rw [e0]; omega
  | ⟨1, _⟩ => show win0_1.index t (1 : Fin 2) * 5 + 1 * (y 1).val = (y 1).val; rw [e1]; omega

theorem iblk_2_eq (c : Dev nD) (t : Fin cfg0.N) :
    (iblk0 (F := Ideal) V c 2 t : Vec Ideal S1x5 .f32) = (V c main_v39 : S1x5.Idx → EReal) := by
  obtain ⟨-, -, -, -, e0, e1, -⟩ := idx_facts t
  funext y
  unfold iblk0
  rw [View.read_apply]
  show V c main_v39 (((cfg0.win 2).blk t).view.emb y) = V c main_v39 y
  refine congrArg (V c main_v39) ?_
  funext a
  apply Fin.ext
  match a with
  | ⟨0, _⟩ => show win0_2.index t (0 : Fin 2) * 1 + 1 * (y 0).val = (y 0).val; rw [e0]; omega
  | ⟨1, _⟩ => show win0_2.index t (1 : Fin 2) * 5 + 1 * (y 1).val = (y 1).val; rw [e1]; omega

theorem iblk_3_eq (c : Dev nD) (t : Fin cfg0.N) :
    (iblk0 (F := Ideal) V c 3 t : Vec Ideal S1x5 .f32) = (V c main_v40 : S1x5.Idx → EReal) := by
  obtain ⟨-, -, -, -, -, -, e0, e1, -⟩ := idx_facts t
  funext y
  unfold iblk0
  rw [View.read_apply]
  show V c main_v40 (((cfg0.win 3).blk t).view.emb y) = V c main_v40 y
  refine congrArg (V c main_v40) ?_
  funext a
  apply Fin.ext
  match a with
  | ⟨0, _⟩ => show win0_3.index t (0 : Fin 2) * 1 + 1 * (y 0).val = (y 0).val; rw [e0]; omega
  | ⟨1, _⟩ => show win0_3.index t (1 : Fin 2) * 5 + 1 * (y 1).val = (y 1).val; rw [e1]; omega

theorem iblk_4_eq (c : Dev nD) (t : Fin cfg0.N) :
    (iblk0 (F := Ideal) V c 4 t : Vec Ideal S1x5 .f32) = (V c main_v41 : S1x5.Idx → EReal) := by
  obtain ⟨-, -, -, -, -, -, -, -, e0, e1, -⟩ := idx_facts t
  funext y
  unfold iblk0
  rw [View.read_apply]
  show V c main_v41 (((cfg0.win 4).blk t).view.emb y) = V c main_v41 y
  refine congrArg (V c main_v41) ?_
  funext a
  apply Fin.ext
  match a with
  | ⟨0, _⟩ => show win0_4.index t (0 : Fin 2) * 1 + 1 * (y 0).val = (y 0).val; rw [e0]; omega
  | ⟨1, _⟩ => show win0_4.index t (1 : Fin 2) * 5 + 1 * (y 1).val = (y 1).val; rw [e1]; omega

theorem iblk_5_eq (c : Dev nD) (t : Fin cfg0.N) :
    (iblk0 (F := Ideal) V c 5 t : Vec Ideal S5x128 .f32) = (V c main_arg5 : S5x128.Idx → EReal) := by
  obtain ⟨-, -, -, -, -, -, -, -, -, -, e0, e1, -⟩ := idx_facts t
  funext y
  unfold iblk0
  rw [View.read_apply]
  show V c main_arg5 (((cfg0.win 5).blk t).view.emb y) = V c main_arg5 y
  refine congrArg (V c main_arg5) ?_
  funext a
  apply Fin.ext
  match a with
  | ⟨0, _⟩ => show win0_5.index t (0 : Fin 2) * 5 + 1 * (y 0).val = (y 0).val; rw [e0]; omega
  | ⟨1, _⟩ => show win0_5.index t (1 : Fin 2) * 128 + 1 * (y 1).val = (y 1).val; rw [e1]; omega

/-! ## From the blocks to the array -/

/-- The output function of the arrays the region finds. -/
abbrev result (c : Dev nD) : S50000x128.Idx → EReal :=
  G0 (V c main_arg0) (V c main_v38) (V c main_v39) (V c main_v40) (V c main_v41) (V c main_arg5)

/-- What point t writes back is rows 5000·t … 5000·t + 4999 of the output function. -/
theorem flushed_eq (c : Dev nD) (t : Fin cfg0.N) :
    (dat0 (F := Ideal) V c).flushed 6 t = ((cfg0.win 6).blk t).view.read (Elt Ideal) (result V c) := by
  show (cfg0.win 6).cut (grid0.coords t) ((dat0 (F := Ideal) V c).after 6 t) = _
  rw [after0_6]
  unfold out0_6
  rw [View.canon_unit_zero hz]
  simp only [View.ld_unit_zero (S := S5000x5) hz, View.ld_unit_zero (S := S1x5) hz, View.ld_unit_zero (S := S5x128) hz]
  obtain ⟨-, -, -, -, -, -, -, -, -, -, -, -, e0, e1⟩ := idx_facts t
  funext j
  rw [View.read_apply]
  refine block_apply (V c main_arg0) (V c main_v38) (V c main_v39) (V c main_v40) (V c main_v41) (V c main_arg5)
    (iblk0 (F := Ideal) V c 0 t) (iblk0 (F := Ideal) V c 1 t) (iblk0 (F := Ideal) V c 2 t) (iblk0 (F := Ideal) V c 3 t)
    (iblk0 (F := Ideal) V c 4 t) (iblk0 (F := Ideal) V c 5 t) t.val
    (fun r k p hp => iblk_0_apply V c t r k p hp) (iblk_1_eq V c t) (iblk_2_eq V c t) (iblk_3_eq V c t) (iblk_4_eq V c t)
    (iblk_5_eq V c t) j (((cfg0.win 6).blk t).view.emb j) ?_ ?_
  · show win0_6.index t (0 : Fin 2) * 5000 + 1 * (j 0).val = t.val * 5000 + (j 0).val
    rw [e0]; omega
  · show win0_6.index t (1 : Fin 2) * 128 + 1 * (j 1).val = (j 1).val
    rw [e1]; omega

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v42).slice (win0_6.rect t)).set ↔ _
  rw [View.set_slice_whole, Rect.mem_set_unit]
  exact Iff.rfl

/-- Row p is in the block of point p / 5000: the ten row blocks tile the 50000 rows. -/
theorem cover (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 10 := N_0
  refine ⟨⟨(i 0).val / 5000, by rw [hN]; omega⟩, flush0_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- The output array after the region is the output function of the arrays the region found. -/
theorem final0 (c : Dev nD) : (dat0 (F := Ideal) V c).arrAt 6 cfg0.N = result V c :=
  (dat0 (F := Ideal) V c).arrAt_eq_of_cover 6 (result V c) (fun t _ => flushed_eq V c t) cover

/-- Entry (p, q) of the output array after the region, through the entry function of the arrays the region found. -/
theorem final0_entry (c : Dev nD) (p : Fin 50000) (q : Fin 128) :
    (dat0 (F := Ideal) V c).arrAt 6 cfg0.N (ix2 p q)
      = entry (V c main_arg0) (V c main_v38) (V c main_v39) (V c main_v40) (V c main_v41) (V c main_arg5) p q := by
  rw [final0]
  rfl

/-- The entry function spelt out: the sum over the five features. -/
theorem entry_def (a0 : S50000x5.Idx → EReal) (a1 a2 a3 a4 : S1x5.Idx → EReal) (a5 : S5x128.Idx → EReal)
    (p : Fin 50000) (q : Fin 128) :
    entry a0 a1 a2 a3 a4 a5 p q
      = ∑ k : Fin 5, ((((a0 (ix2 p k) - a1 (ix2 0 k)) * Ideal.rsqrt (a2 (ix2 0 k) + Ideal.ofBits .f32 0x3727C5AC#32))
          * a3 (ix2 0 k) + a4 (ix2 0 k)) * a5 (ix2 k q)) := rfl

/-- Entry (p, q) of the output array after the region, with the six arrays the region found named by the caller. -/
theorem final0_apply_of (c : Dev nD) (p : Fin 50000) (q : Fin 128)
    (a0 : S50000x5.Idx → EReal) (a1 a2 a3 a4 : S1x5.Idx → EReal) (a5 : S5x128.Idx → EReal)
    (h0 : a0 = V c main_arg0) (h1 : a1 = V c main_v38) (h2 : a2 = V c main_v39) (h3 : a3 = V c main_v40)
    (h4 : a4 = V c main_v41) (h5 : a5 = V c main_arg5) :
    (dat0 (F := Ideal) V c).arrAt 6 cfg0.N (ix2 p q)
      = ∑ k : Fin 5, ((((a0 (ix2 p k) - a1 (ix2 0 k)) * Ideal.rsqrt (a2 (ix2 0 k) + Ideal.ofBits .f32 0x3727C5AC#32))
          * a3 (ix2 0 k) + a4 (ix2 0 k)) * a5 (ix2 k q)) := by
  subst h0 h1 h2 h3 h4 h5
  exact final0_entry V c p q

/-- Entry (p, q) of the output array after the region, every array read as a function to the extended reals. -/
theorem final0_apply (c : Dev nD) (p : Fin 50000) (q : Fin 128) :
    (show S50000x128.Idx → EReal from (dat0 (F := Ideal) V c).arrAt 6 cfg0.N) (ix2 p q)
      = ∑ k : Fin 5, (((((show S50000x5.Idx → EReal from V c main_arg0) (ix2 p k) - (show S1x5.Idx → EReal from V c main_v38) (ix2 0 k))
            * Ideal.rsqrt ((show S1x5.Idx → EReal from V c main_v39) (ix2 0 k) + Ideal.ofBits .f32 0x3727C5AC#32))
            * (show S1x5.Idx → EReal from V c main_v40) (ix2 0 k) + (show S1x5.Idx → EReal from V c main_v41) (ix2 0 k))
          * (show S5x128.Idx → EReal from V c main_arg5) (ix2 k q)) :=
  final0_entry V c p q

end Cert.KernelIdeal.Region0

end
-- ==== Proof.RegionCommon.lean ====
/-
  The arithmetic shared by the two later regions, at one entry of a block.

  Both bodies first normalise a [5000, 128] block z column by column — subtract the column's mean, multiply by the
  reciprocal square root of the column's variance plus a small constant, scale by gamma, shift by beta — and clamp the
  result at zero from below; the [1, 128] rows of statistics are repeated along the block's rows. They then multiply the
  clamped block by a [128, 128] weight matrix into a zero accumulator. Over the extended reals the change of float format
  on the way into the product is the identity, so the product's entry (r, q) is the plain sum over k of the clamped entry
  (r, k) times the weight (k, q).
-/
import proofs.«170029_j24111946400020_1_alg».proof.Proof.Gen.KernelIdeal.Frame
import proofs.«170029_j24111946400020_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionCommon

open Idealize.ShloMosaic Idealize.ShloMosaic.TcCoe Idealize.ShloMosaic.ValueIdx Cert.KernelIdeal Cert.KernelIdeal.Gen
open Idealize.SL.Sem
open Idealize.ShloMosaic.Pipeline (Dat)

/-- Two zero offsets, however they are spelt. -/
theorem hz : (![0, 0] : Fin 2 → Nat) = fun _ => 0 := funext fun a => by fin_cases a <;> rfl

/-- The normalised, scaled, shifted entry (p, k) of z clamped at zero: the statistics m (mean), v (variance), g (gamma),
    b (beta) are single rows read at column k; the small constant added to the variance and the zero are kept as their
    float words. -/
def hr {n : Nat} (z : (⟨2, ![n, 128]⟩ : Shape).Idx → EReal) (m v g b : (⟨2, ![1, 128]⟩ : Shape).Idx → EReal)
    (p : Fin n) (k : Fin 128) : EReal :=
  max ((((z (ix2 p k) - m (ix2 0 k)) * Ideal.rsqrt (v (ix2 0 k) + Ideal.ofBits .f32 0x3727C5AC#32)) * g (ix2 0 k)) + b (ix2 0 k))
    (Ideal.ofBits .f32 0x00000000#32)

/-- The clamped block the bodies feed to their products, at entry (r, k): every operation is entrywise, the row
    broadcasts read their one row, and the change of float format is the identity. -/
theorem bnrelu_apply (x0 : Vec Ideal S5000x128 .f32) (x1 x2 x3 x4 : Vec Ideal S1x128 .f32) (r : Fin 5000) (k : Fin 128) :
    k2_pay2 (F := Ideal) x0 x1 x2 x3 x4 (ix2 r k) = hr x0 x1 x2 x3 x4 r k := by
  unfold k2_pay2 hr
  simp only [shapeCast_self]
  simp only [truncf_apply, maximumf_apply, addf_apply, mulf_apply, subf_apply, broadcast_apply, broadcastTo_1b_ab_apply]
  rfl

/-- The product of the clamped block with a weight matrix into a zero accumulator, at entry (r, q): the sum over k of
    the clamped entry (r, k) times the weight (k, q). -/
theorem headsum_apply (x0 : Vec Ideal S5000x128 .f32) (x1 x2 x3 x4 : Vec Ideal S1x128 .f32) (x5 : Vec Ideal S128x128 .f32)
    (r : Fin 5000) (q : Fin 128) :
    matmul dot_S5000x128_S128x128_S5000x128_1_0_0_1_n_n none (k2_pay2 (F := Ideal) x0 x1 x2 x3 x4)
        (truncf .bf16 x5 bitsLt_bf16_f32) (constant (F := Ideal) S5000x128 .f32 0x00000000#32) (ix2 r q)
      = ∑ k : Fin 128, hr x0 x1 x2 x3 x4 r k * x5 (ix2 k q) := by
  refine (Cert.Lib.matmul_zero_apply dot_S5000x128_S128x128_S5000x128_1_0_0_1_n_n.wf none
    (k2_pay2 (F := Ideal) x0 x1 x2 x3 x4) (truncf .bf16 x5 bitsLt_bf16_f32) r q).trans ?_
  refine Finset.sum_congr rfl fun k _ => ?_
  rw [bnrelu_apply]
  rfl

end Cert.KernelIdeal.RegionCommon

end
-- ==== Proof.Region1.lean ====
/-
  The value of the second region's output array, entry by entry.

  The region runs its body at ten grid points. Point t stages rows 5000·t … 5000·t + 4999 of the [50000, 128] input z, the
  four [1, 128] rows of statistics and the [128, 128] weight matrix whole, and writes rows 5000·t … 5000·t + 4999 of the
  output. The body's result at block entry (r, q) depends only on row r of the staged block, so point t writes block t of
  ONE function of the region's input arrays: entry (p, q) is the sum over k of the clamped normalised entry (p, k) of z
  times the weight (k, q). The ten blocks tile the output (row p lies in block p / 5000), so the output array ends as
  that function.
-/
import proofs.«170029_j24111946400020_1_alg».proof.Proof.Gen.KernelIdeal.Frame
import proofs.«170029_j24111946400020_1_alg».proof.Proof.LibPlainDot
import proofs.«170029_j24111946400020_1_alg».proof.Proof.RegionCommon
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region1

open Idealize.ShloMosaic Idealize.ShloMosaic.TcCoe Idealize.ShloMosaic.ValueIdx Cert.KernelIdeal Cert.KernelIdeal.Gen
open Idealize.SL.Sem
open Idealize.ShloMosaic.Pipeline (Dat)

open Cert.KernelIdeal.RegionCommon

/-- The body's stored block at entry (r, q): the sum over k of the clamped normalised entry (r, k) of the staged block
    times the staged weight (k, q). -/
theorem pay1_apply (x0 : Vec Ideal S5000x128 .f32) (x1 x2 x3 x4 : Vec Ideal S1x128 .f32) (x5 : Vec Ideal S128x128 .f32)
    (r : Fin 5000) (q : Fin 128) :
    k1_pay1 (F := Ideal) x0 x1 x2 x3 x4 x5 (ix2 r q) = ∑ k : Fin 128, hr x0 x1 x2 x3 x4 r k * x5 (ix2 k q) :=
  headsum_apply x0 x1 x2 x3 x4 x5 r q

variable (V : (c : Dev nD) → (b : Ref sig .tc) → Buf (Elt Ideal) ((c : Thread nD τ).loc b))

/-- The block indices, decided over the ten points: the input z and the output move down one block of rows per point;
    every other window stays on its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (r, k) of the block of z staged at point t is entry (5000·t + r, k) of z. -/
theorem iblk1_0_apply (c : Dev nD) (t : Fin cfg1.N) (r : Fin 5000) (k : Fin 128) (p : Fin 50000)
    (hp : p.val = 5000 * t.val + r.val) :
    (iblk1 V c 0 t : Vec Ideal S5000x128 .f32) (ix2 r k)
      = (V c (Pipeline.arrRef spec1 0) : S50000x128.Idx → EReal) (ix2 p k) := by
  obtain ⟨e0, e1, -⟩ := idx_facts1 t
  unfold iblk1
  rw [View.read_apply]
  show V c (Pipeline.arrRef spec1 0) _ = V c (Pipeline.arrRef spec1 0) _
  refine congrArg _ ?_
  funext a; apply Fin.ext
  match a with
  | ⟨0, _⟩ => show win1_0.index t (0 : Fin 2) * 5000 + 1 * r.val = p.val; omega
  | ⟨1, _⟩ => show win1_0.index t (1 : Fin 2) * 128 + 1 * k.val = k.val; omega

/-- The staged rows of statistics are the rows themselves, at every point. -/
theorem iblk1_row_apply (c : Dev nD) (t : Fin cfg1.N) (k : Fin 128) :
    (iblk1 V c 1 t : Vec Ideal S1x128 .f32) (ix2 0 k) = (V c (Pipeline.arrRef spec1 1) : S1x128.Idx → EReal) (ix2 0 k)
    ∧ (iblk1 V c 2 t : Vec Ideal S1x128 .f32) (ix2 0 k) = (V c (Pipeline.arrRef spec1 2) : S1x128.Idx → EReal) (ix2 0 k)
    ∧ (iblk1 V c 3 t : Vec Ideal S1x128 .f32) (ix2 0 k) = (V c (Pipeline.arrRef spec1 3) : S1x128.Idx → EReal) (ix2 0 k)
    ∧ (iblk1 V c 4 t : Vec Ideal S1x128 .f32) (ix2 0 k) = (V c (Pipeline.arrRef spec1 4) : S1x128.Idx → EReal) (ix2 0 k) := by
  obtain ⟨-, -, e2, e3, e4, e5, e6, e7, e8, e9, -⟩ := idx_facts1 t
  unfold iblk1
  simp only [View.read_apply]
  refine ⟨?_, ?_, ?_, ?_⟩
  · show V c (Pipeline.arrRef spec1 1) _ = V c (Pipeline.arrRef spec1 1) _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · show V c (Pipeline.arrRef spec1 2) _ = V c (Pipeline.arrRef spec1 2) _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  · show V c (Pipeline.arrRef spec1 3) _ = V c (Pipeline.arrRef spec1 3) _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · show V c (Pipeline.arrRef spec1 4) _ = V c (Pipeline.arrRef spec1 4) _
    refine congrArg _ ?_
    funext a; apply Fin.ext
    match a with
    | ⟨0, _⟩ => show win1_4.index t (0 : Fin 2) * 1 + 1 * 0 = 0; omega
    | ⟨1, _⟩ => show win1_4.index t (1 : Fin 2) * 128 + 1 * k.val = k.val; omega

/-- The staged weight matrix is the matrix itself, at every point. -/
theorem iblk1_5_apply (c : Dev nD) (t : Fin cfg1.N) (k q : Fin 128) :
    (iblk1 V c 5 t : Vec Ideal S128x128 .f32) (ix2 k q) = (V c (Pipeline.arrRef spec1 5) : S128x128.Idx → EReal) (ix2 k q) := by
  obtain ⟨-, -, -, -, -, -, -, -, -, -, e10, e11, -⟩ := idx_facts1 t
  unfold iblk1
  rw [View.read_apply]
  show V c (Pipeline.arrRef spec1 5) _ = V c (Pipeline.arrRef spec1 5) _
  refine congrArg _ ?_
  funext a; apply Fin.ext
  match a with
  | ⟨0, _⟩ => show win1_5.index t (0 : Fin 2) * 128 + 1 * k.val = k.val; omega
  | ⟨1, _⟩ => show win1_5.index t (1 : Fin 2) * 128 + 1 * q.val = q.val; omega

/-- Entry (r, q) of the output's block at point t sits at entry (5000·t + r, q) of the output array. -/
theorem emb1_6 (t : Fin cfg1.N) (r : Fin 5000) (q : Fin 128) (p : Fin 50000) (hp : p.val = 5000 * t.val + r.val) :
    ((cfg1.win 6).blk t).view.emb (ix2 r q) = (ix2 p q : S50000x128.Idx) := by
  obtain ⟨-, -, -, -, -, -, -, -, -, -, -, -, e12, e13⟩ := idx_facts1 t
  funext a; apply Fin.ext
  match a with
  | ⟨0, _⟩ => show win1_6.index t (0 : Fin 2) * 5000 + 1 * r.val = p.val; omega
  | ⟨1, _⟩ => show win1_6.index t (1 : Fin 2) * 128 + 1 * q.val = q.val; omega

/-- What the region leaves in its output array, as one function of the arrays it finds: at entry i, the sum over k of
    the clamped normalised entry (i 0, k) of z times the weight (k, i 1). -/
def G1 (c : Dev nD) : S50000x128.Idx → EReal := fun i =>
  ∑ k : Fin 128, hr (n := 50000) (V c (Pipeline.arrRef spec1 0)) (V c (Pipeline.arrRef spec1 1)) (V c (Pipeline.arrRef spec1 2))
      (V c (Pipeline.arrRef spec1 3)) (V c (Pipeline.arrRef spec1 4)) (i 0) k
    * (V c (Pipeline.arrRef spec1 5) : S128x128.Idx → EReal) (ix2 k (i 1))

/-- What point t writes back is block t of that function: the body's one whole-block store leaves its payload, whose
    entry (r, q) reads row r of the staged block of z, which is row 5000·t + r of z. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  have hp : 5000 * t.val + r.val < 50000 := by
    have ht : t.val < 10 := N_1 ▸ t.isLt
    have := r.isLt; omega
  show k1_pay1 (F := Ideal) (iblk1 V c 0 t) (iblk1 V c 1 t) (iblk1 V c 2 t) (iblk1 V c 3 t) (iblk1 V c 4 t) (iblk1 V c 5 t) (ix2 r q)
      = G1 V c (((cfg1.win 6).blk t).view.emb (ix2 r q))
  rw [emb1_6 t r q ⟨5000 * t.val + r.val, hp⟩ rfl]
  refine (pay1_apply (iblk1 V c 0 t) (iblk1 V c 1 t) (iblk1 V c 2 t) (iblk1 V c 3 t) (iblk1 V c 4 t) (iblk1 V c 5 t) r q).trans ?_
  refine Finset.sum_congr rfl fun k _ => ?_
  obtain ⟨h1, h2, h3, h4⟩ := iblk1_row_apply V c t k
  unfold hr
  rw [iblk1_0_apply V c t r k ⟨5000 * t.val + r.val, hp⟩ rfl, h1, h2, h3, h4, iblk1_5_apply V c t k q]

/-- An entry of the output array is in point t's block iff each coordinate is in the block's range on its axis. -/
theorem mem_blk1_6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v67).slice (win1_6.rect t)).set ↔ _
  rw [View.set_slice_whole, Rect.mem_set_unit]
  exact Iff.rfl

/-- Every entry of the output array is in some point's block: row p lies in block p / 5000. -/
theorem covered1_6 (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have ht : (i 0).val / 5000 < grid1.N := by rw [N_1]; omega
  obtain ⟨-, -, -, -, -, -, -, -, -, -, -, -, e12, e13⟩ := idx_facts1 ⟨(i 0).val / 5000, ht⟩
  refine ⟨⟨(i 0).val / 5000, ht⟩, flush1_6 _, ?_⟩
  rw [mem_blk1_6]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e13]; omega

/-- The output array after the region is that function of the arrays the region finds. -/
theorem final1 (c : Dev nD) : (dat1 (F := Ideal) V c).arrAt 6 cfg1.N = G1 V c :=
  (dat1 (F := Ideal) V c).arrAt_eq_of_cover 6 (G1 V c) (fun t _ => flushed1_eq V c t) covered1_6

/-- The output array after the region, at entry (p, q). -/
theorem final1_apply (c : Dev nD) (p : Fin 50000) (q : Fin 128) :
    (dat1 (F := Ideal) V c).arrAt 6 cfg1.N (ix2 p q)
      = ∑ k : Fin 128, hr (n := 50000) (V c (Pipeline.arrRef spec1 0)) (V c (Pipeline.arrRef spec1 1)) (V c (Pipeline.arrRef spec1 2))
          (V c (Pipeline.arrRef spec1 3)) (V c (Pipeline.arrRef spec1 4)) p k
        * (V c (Pipeline.arrRef spec1 5) : S128x128.Idx → EReal) (ix2 k q) := by
  rw [final1]; rfl

/-- Output entry (p, q) as a function of the six arrays: the sum over the 128 features k of the normalised feature
    (centred, times the reciprocal square root of variance plus the constant, scaled, shifted) clamped at zero, times the
    weight's entry (k, q). -/
def entry (z : S50000x128.Idx → EReal) (m v g b : S1x128.Idx → EReal) (w : S128x128.Idx → EReal)
    (p : Fin 50000) (q : Fin 128) : EReal :=
  ∑ k : Fin 128, max ((((z (ix2 p k) - m (ix2 0 k)) * Ideal.rsqrt (v (ix2 0 k) + Ideal.ofBits .f32 0x3727C5AC#32))
      * g (ix2 0 k)) + b (ix2 0 k)) (Ideal.ofBits .f32 0x00000000#32) * w (ix2 k q)

/-- The entry function spelt out. -/
theorem entry_def (z : S50000x128.Idx → EReal) (m v g b : S1x128.Idx → EReal) (w : S128x128.Idx → EReal)
    (p : Fin 50000) (q : Fin 128) :
    entry z m v g b w p q
      = ∑ k : Fin 128, max ((((z (ix2 p k) - m (ix2 0 k)) * Ideal.rsqrt (v (ix2 0 k) + Ideal.ofBits .f32 0x3727C5AC#32))
          * g (ix2 0 k)) + b (ix2 0 k)) (Ideal.ofBits .f32 0x00000000#32) * w (ix2 k q) := rfl

/-- Entry (p, q) of the output array after the region, through the entry function of the arrays the region found. -/
theorem final1_entry (c : Dev nD) (p : Fin 50000) (q : Fin 128) :
    (dat1 (F := Ideal) V c).arrAt 6 cfg1.N (ix2 p q)
      = entry (V c main_v58) (V c main_v63) (V c main_v64) (V c main_v65) (V c main_v66) (V c main_arg9) p q := by
  rw [final1]
  rfl

/-- Entry (p, q) of the output array after the region, with the six arrays the region found named by the caller. -/
theorem final1_apply_of (c : Dev nD) (p : Fin 50000) (q : Fin 128)
    (z : S50000x128.Idx → EReal) (m v g b : S1x128.Idx → EReal) (w : S128x128.Idx → EReal)
    (hz : z = V c main_v58) (hm : m = V c main_v63) (hv : v = V c main_v64) (hg : g = V c main_v65)
    (hb : b = V c main_v66) (hw : w = V c main_arg9) :
    (dat1 (F := Ideal) V c).arrAt 6 cfg1.N (ix2 p q)
      = ∑ k : Fin 128, max ((((z (ix2 p k) - m (ix2 0 k)) * Ideal.rsqrt (v (ix2 0 k) + Ideal.ofBits .f32 0x3727C5AC#32))
          * g (ix2 0 k)) + b (ix2 0 k)) (Ideal.ofBits .f32 0x00000000#32) * w (ix2 k q) := by
  subst hz hm hv hg hb hw
  exact final1_entry V c p q

end Cert.KernelIdeal.Region1

end
-- ==== Proof.Region2.lean ====
/-
  The values of the third region's two output arrays, entry by entry.

  The region runs its body at ten grid points. Point t stages rows 5000·t … 5000·t + 4999 of the [50000, 128] input z, the
  four [1, 128] rows of statistics, and two heads' [128, 128] weight matrices and [1, 128] biases whole, and writes rows
  5000·t … 5000·t + 4999 of each output. Each head's result at block entry (r, q) depends only on row r of the staged
  block, so point t writes block t of ONE function of the region's input arrays: entry (p, q) is the sum over k of the
  clamped normalised entry (p, k) of z times the head's weight (k, q), plus the head's bias at column q. The ten blocks
  tile each output (row p lies in block p / 5000), so each output array ends as its function.
-/
import proofs.«170029_j24111946400020_1_alg».proof.Proof.Gen.KernelIdeal.Frame
import proofs.«170029_j24111946400020_1_alg».proof.Proof.LibPlainDot
import proofs.«170029_j24111946400020_1_alg».proof.Proof.RegionCommon
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region2

open Idealize.ShloMosaic Idealize.ShloMosaic.TcCoe Idealize.ShloMosaic.ValueIdx Cert.KernelIdeal Cert.KernelIdeal.Gen
open Idealize.SL.Sem
open Idealize.ShloMosaic.Pipeline (Dat)

open Cert.KernelIdeal.RegionCommon

/-- The first head's stored block at entry (r, q): the sum over k of the clamped normalised entry (r, k) of the staged
    block times the staged weight (k, q), plus the staged bias at column q. -/
theorem pay_mu_apply (x0 : Vec Ideal S5000x128 .f32) (x1 x2 x3 x4 : Vec Ideal S1x128 .f32) (x5 : Vec Ideal S128x128 .f32)
    (x6 : Vec Ideal S1x128 .f32) (r : Fin 5000) (q : Fin 128) :
    k2_pay3 (F := Ideal) x0 x1 x2 x3 x4 x5 x6 (ix2 r q)
      = (∑ k : Fin 128, hr x0 x1 x2 x3 x4 r k * x5 (ix2 k q)) + x6 (ix2 0 q) := by
  unfold k2_pay3
  simp only [shapeCast_self]
  rw [addf_apply, broadcastTo_1b_ab_apply, headsum_apply]

/-- The second head's stored block at entry (r, q), likewise with its own weight and bias. -/
theorem pay_ls_apply (x0 : Vec Ideal S5000x128 .f32) (x1 x2 x3 x4 : Vec Ideal S1x128 .f32) (x7 : Vec Ideal S128x128 .f32)
    (x8 : Vec Ideal S1x128 .f32) (r : Fin 5000) (q : Fin 128) :
    k2_pay1 (F := Ideal) (k2_pay4 x0 x1 x2 x3 x4 x7) x8 (ix2 r q)
      = (∑ k : Fin 128, hr x0 x1 x2 x3 x4 r k * x7 (ix2 k q)) + x8 (ix2 0 q) := by
  unfold k2_pay1 k2_pay4
  simp only [shapeCast_self]
  rw [addf_apply, broadcastTo_1b_ab_apply, headsum_apply]

variable (V : (c : Dev nD) → (b : Ref sig .tc) → Buf (Elt Ideal) ((c : Thread nD τ).loc b))

/-- The block indices, decided over the ten points: the input z moves down one block of rows per point, -/
theorem idx_z2 : ∀ t : Fin cfg2.N, win2_0.index t (0 : Fin 2) = t.val ∧ win2_0.index t (1 : Fin 2) = 0 :=
  (by decide +kernel : ∀ t : Fin grid2.N, _)

/-- the six rows of statistics and biases stay on their one block, -/
theorem idx_rows2 : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_8.index t (0 : Fin 2) = 0 ∧ win2_8.index t (1 : Fin 2) = 0 :=
  (by decide +kernel : ∀ t : Fin grid2.N, _)

/-- so do the two weight matrices, -/
theorem idx_mats2 : ∀ t : Fin cfg2.N,
    win2_5.index t (0 : Fin 2) = 0 ∧ win2_5.index t (1 : Fin 2) = 0
    ∧ win2_7.index t (0 : Fin 2) = 0 ∧ win2_7.index t (1 : Fin 2) = 0 :=
  (by decide +kernel : ∀ t : Fin grid2.N, _)

/-- and the two outputs move with z. -/
theorem idx_outs2 : ∀ t : Fin cfg2.N,
    win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- Entry (r, k) of the block of z staged at point t is entry (5000·t + r, k) of z. -/
theorem iblk2_0_apply (c : Dev nD) (t : Fin cfg2.N) (r : Fin 5000) (k : Fin 128) (p : Fin 50000)
    (hp : p.val = 5000 * t.val + r.val) :
    (iblk2 V c 0 t : Vec Ideal S5000x128 .f32) (ix2 r k)
      = (V c (Pipeline.arrRef spec2 0) : S50000x128.Idx → EReal) (ix2 p k) := by
  obtain ⟨e0, e1⟩ := idx_z2 t
  unfold iblk2
  rw [View.read_apply]
  show V c (Pipeline.arrRef spec2 0) _ = V c (Pipeline.arrRef spec2 0) _
  refine congrArg _ ?_
  funext a; apply Fin.ext
  match a with
  | ⟨0, _⟩ => show win2_0.index t (0 : Fin 2) * 5000 + 1 * r.val = p.val; omega
  | ⟨1, _⟩ => show win2_0.index t (1 : Fin 2) * 128 + 1 * k.val = k.val; omega

/-! The staged rows of statistics and biases are the rows themselves, at every point. -/

theorem iblk2_1_apply (c : Dev nD) (t : Fin cfg2.N) (k : Fin 128) :
    (iblk2 V c 1 t : Vec Ideal S1x128 .f32) (ix2 0 k) = (V c (Pipeline.arrRef spec2 1) : S1x128.Idx → EReal) (ix2 0 k) := by
  obtain ⟨e0, e1, e2, e3, e4, e5, e6, e7, e8, e9, e10, e11⟩ := idx_rows2 t
  unfold iblk2
  rw [View.read_apply]
  show V c (Pipeline.arrRef spec2 1) _ = V c (Pipeline.arrRef spec2 1) _
  refine congrArg _ ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

theorem iblk2_2_apply (c : Dev nD) (t : Fin cfg2.N) (k : Fin 128) :
    (iblk2 V c 2 t : Vec Ideal S1x128 .f32) (ix2 0 k) = (V c (Pipeline.arrRef spec2 2) : S1x128.Idx → EReal) (ix2 0 k) := by
  obtain ⟨e0, e1, e2, e3, e4, e5, e6, e7, e8, e9, e10, e11⟩ := idx_rows2 t
  unfold iblk2
  rw [View.read_apply]
  show V c (Pipeline.arrRef spec2 2) _ = V c (Pipeline.arrRef spec2 2) _
  refine congrArg _ ?_
  funext a; apply Fin.ext
  match a with
  | ⟨0, _⟩ => show win2_2.index t (0 : Fin 2) * 1 + 1 * 0 = 0; omega
  | ⟨1, _⟩ => show win2_2.index t (1 : Fin 2) * 128 + 1 * k.val = k.val; omega

theorem iblk2_3_apply (c : Dev nD) (t : Fin cfg2.N) (k : Fin 128) :
    (iblk2 V c 3 t : Vec Ideal S1x128 .f32) (ix2 0 k) = (V c (Pipeline.arrRef spec2 3) : S1x128.Idx → EReal) (ix2 0 k) := by
  obtain ⟨e0, e1, e2, e3, e4, e5, e6, e7, e8, e9, e10, e11⟩ := idx_rows2 t
  unfold iblk2
  rw [View.read_apply]
  show V c (Pipeline.arrRef spec2 3) _ = V c (Pipeline.arrRef spec2 3) _
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

theorem iblk2_4_apply (c : Dev nD) (t : Fin cfg2.N) (k : Fin 128) :
    (iblk2 V c 4 t : Vec Ideal S1x128 .f32) (ix2 0 k) = (V c (Pipeline.arrRef spec2 4) : S1x128.Idx → EReal) (ix2 0 k) := by
  obtain ⟨e0, e1, e2, e3, e4, e5, e6, e7, e8, e9, e10, e11⟩ := idx_rows2 t
  unfold iblk2
  rw [View.read_apply]
  show V c (Pipeline.arrRef spec2 4) _ = V c (Pipeline.arrRef spec2 4) _
  refine congrArg _ ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

theorem iblk2_6_apply (c : Dev nD) (t : Fin cfg2.N) (k : Fin 128) :
    (iblk2 V c 6 t : Vec Ideal S1x128 .f32) (ix2 0 k) = (V c (Pipeline.arrRef spec2 6) : S1x128.Idx → EReal) (ix2 0 k) := by
  obtain ⟨e0, e1, e2, e3, e4, e5, e6, e7, e8, e9, e10, e11⟩ := idx_rows2 t
  unfold iblk2
  rw [View.read_apply]
  show V c (Pipeline.arrRef spec2 6) _ = V c (Pipeline.arrRef spec2 6) _
  refine congrArg _ ?_
  funext a; apply Fin.ext
  match a with
  | ⟨0, _⟩ => show win2_6.index t (0 : Fin 2) * 1 + 1 * 0 = 0; omega
  | ⟨1, _⟩ => show win2_6.index t (1 : Fin 2) * 128 + 1 * k.val = k.val; omega

theorem iblk2_8_apply (c : Dev nD) (t : Fin cfg2.N) (k : Fin 128) :
    (iblk2 V c 8 t : Vec Ideal S1x128 .f32) (ix2 0 k) = (V c (Pipeline.arrRef spec2 8) : S1x128.Idx → EReal) (ix2 0 k) := by
  obtain ⟨e0, e1, e2, e3, e4, e5, e6, e7, e8, e9, e10, e11⟩ := idx_rows2 t
  unfold iblk2
  rw [View.read_apply]
  show V c (Pipeline.arrRef spec2 8) _ = V c (Pipeline.arrRef spec2 8) _
  refine congrArg _ ?_
  funext a; apply Fin.ext
  match a with
  | ⟨0, _⟩ => show win2_8.index t (0 : Fin 2) * 1 + 1 * 0 = 0; omega
  | ⟨1, _⟩ => show win2_8.index t (1 : Fin 2) * 128 + 1 * k.val = k.val; omega

/-! The staged weight matrices are the matrices themselves, at every point. -/

theorem iblk2_5_apply (c : Dev nD) (t : Fin cfg2.N) (k q : Fin 128) :
    (iblk2 V c 5 t : Vec Ideal S128x128 .f32) (ix2 k q) = (V c (Pipeline.arrRef spec2 5) : S128x128.Idx → EReal) (ix2 k q) := by
  obtain ⟨e0, e1, e2, e3⟩ := idx_mats2 t
  unfold iblk2
  rw [View.read_apply]
  show V c (Pipeline.arrRef spec2 5) _ = V c (Pipeline.arrRef spec2 5) _
  refine congrArg _ ?_
  funext a; apply Fin.ext
  match a with
  | ⟨0, _⟩ => show win2_5.index t (0 : Fin 2) * 128 + 1 * k.val = k.val; omega
  | ⟨1, _⟩ => show win2_5.index t (1 : Fin 2) * 128 + 1 * q.val = q.val; omega

theorem iblk2_7_apply (c : Dev nD) (t : Fin cfg2.N) (k q : Fin 128) :
    (iblk2 V c 7 t : Vec Ideal S128x128 .f32) (ix2 k q) = (V c (Pipeline.arrRef spec2 7) : S128x128.Idx → EReal) (ix2 k q) := by
  obtain ⟨e0, e1, e2, e3⟩ := idx_mats2 t
  unfold iblk2
  rw [View.read_apply]
  show V c (Pipeline.arrRef spec2 7) _ = V c (Pipeline.arrRef spec2 7) _
  refine congrArg _ ?_
  funext a; apply Fin.ext
  match a with
  | ⟨0, _⟩ => show win2_7.index t (0 : Fin 2) * 128 + 1 * k.val = k.val; omega
  | ⟨1, _⟩ => show win2_7.index t (1 : Fin 2) * 128 + 1 * q.val = q.val; omega

/-- Entry (r, q) of output mu's block at point t sits at entry (5000·t + r, q) of its array. -/
theorem emb2_9 (t : Fin cfg2.N) (r : Fin 5000) (q : Fin 128) (p : Fin 50000) (hp : p.val = 5000 * t.val + r.val) :
    ((cfg2.win 9).blk t).view.emb (ix2 r q) = (ix2 p q : S50000x128.Idx) := by
  obtain ⟨e0, e1, e2, e3⟩ := idx_outs2 t
  funext a; apply Fin.ext
  match a with
  | ⟨0, _⟩ => show win2_9.index t (0 : Fin 2) * 5000 + 1 * r.val = p.val; omega
  | ⟨1, _⟩ => show win2_9.index t (1 : Fin 2) * 128 + 1 * q.val = q.val; omega

/-- Entry (r, q) of output log_std's block at point t sits at entry (5000·t + r, q) of its array. -/
theorem emb2_10 (t : Fin cfg2.N) (r : Fin 5000) (q : Fin 128) (p : Fin 50000) (hp : p.val = 5000 * t.val + r.val) :
    ((cfg2.win 10).blk t).view.emb (ix2 r q) = (ix2 p q : S50000x128.Idx) := by
  obtain ⟨e0, e1, e2, e3⟩ := idx_outs2 t
  funext a; apply Fin.ext
  match a with
  | ⟨0, _⟩ => show win2_10.index t (0 : Fin 2) * 5000 + 1 * r.val = p.val; omega
  | ⟨1, _⟩ => show win2_10.index t (1 : Fin 2) * 128 + 1 * q.val = q.val; omega

/-- What the region leaves in output mu's array, as one function of the arrays it finds: at entry i, the sum over k of
    the clamped normalised entry (i 0, k) of z times the head's weight (k, i 1), plus the head's bias at column i 1. -/
def G2_9 (c : Dev nD) : S50000x128.Idx → EReal := fun i =>
  (∑ k : Fin 128, hr (n := 50000) (V c (Pipeline.arrRef spec2 0)) (V c (Pipeline.arrRef spec2 1)) (V c (Pipeline.arrRef spec2 2))
      (V c (Pipeline.arrRef spec2 3)) (V c (Pipeline.arrRef spec2 4)) (i 0) k
    * (V c (Pipeline.arrRef spec2 5) : S128x128.Idx → EReal) (ix2 k (i 1)))
  + (V c (Pipeline.arrRef spec2 6) : S1x128.Idx → EReal) (ix2 0 (i 1))

theorem G2_9_apply (c : Dev nD) (p : Fin 50000) (q : Fin 128) :
    G2_9 V c (ix2 p q)
      = (∑ k : Fin 128, hr (n := 50000) (V c (Pipeline.arrRef spec2 0)) (V c (Pipeline.arrRef spec2 1)) (V c (Pipeline.arrRef spec2 2))
          (V c (Pipeline.arrRef spec2 3)) (V c (Pipeline.arrRef spec2 4)) p k
        * (V c (Pipeline.arrRef spec2 5) : S128x128.Idx → EReal) (ix2 k q))
      + (V c (Pipeline.arrRef spec2 6) : S1x128.Idx → EReal) (ix2 0 q) := rfl

/-- What the region leaves in output log_std's array, as one function of the arrays it finds: at entry i, the sum over k of
    the clamped normalised entry (i 0, k) of z times the head's weight (k, i 1), plus the head's bias at column i 1. -/
def G2_10 (c : Dev nD) : S50000x128.Idx → EReal := fun i =>
  (∑ k : Fin 128, hr (n := 50000) (V c (Pipeline.arrRef spec2 0)) (V c (Pipeline.arrRef spec2 1)) (V c (Pipeline.arrRef spec2 2))
      (V c (Pipeline.arrRef spec2 3)) (V c (Pipeline.arrRef spec2 4)) (i 0) k
    * (V c (Pipeline.arrRef spec2 7) : S128x128.Idx → EReal) (ix2 k (i 1)))
  + (V c (Pipeline.arrRef spec2 8) : S1x128.Idx → EReal) (ix2 0 (i 1))

theorem G2_10_apply (c : Dev nD) (p : Fin 50000) (q : Fin 128) :
    G2_10 V c (ix2 p q)
      = (∑ k : Fin 128, hr (n := 50000) (V c (Pipeline.arrRef spec2 0)) (V c (Pipeline.arrRef spec2 1)) (V c (Pipeline.arrRef spec2 2))
          (V c (Pipeline.arrRef spec2 3)) (V c (Pipeline.arrRef spec2 4)) p k
        * (V c (Pipeline.arrRef spec2 7) : S128x128.Idx → EReal) (ix2 k q))
      + (V c (Pipeline.arrRef spec2 8) : S1x128.Idx → EReal) (ix2 0 q) := rfl

set_option maxHeartbeats 1000000 in
/-- What point t writes back to output mu is block t of that function. -/
theorem flushed2_9_eq (c : Dev nD) (t : Fin cfg2.N) :
    (dat2 (F := Ideal) V c).flushed 9 t = ((cfg2.win 9).blk t).view.read (Elt Ideal) (G2_9 V c) := by
  show (cfg2.win 9).cut (grid2.coords t) ((dat2 V c).after 9 t) = _
  rw [after2_9]
  unfold out2_9
  rw [View.canon_unit_zero hz]
  simp only [View.ld_unit_zero (S := S5000x128) hz, View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  have hp : 5000 * t.val + r.val < 50000 := by
    have ht : t.val < 10 := N_2 ▸ t.isLt
    have := r.isLt; omega
  show k2_pay3 (F := Ideal) (iblk2 V c 0 t) (iblk2 V c 1 t) (iblk2 V c 2 t) (iblk2 V c 3 t) (iblk2 V c 4 t) (iblk2 V c 5 t) (iblk2 V c 6 t) (ix2 r q)
      = G2_9 V c (((cfg2.win 9).blk t).view.emb (ix2 r q))
  rw [emb2_9 t r q ⟨5000 * t.val + r.val, hp⟩ rfl, G2_9_apply]
  refine (pay_mu_apply (iblk2 V c 0 t) (iblk2 V c 1 t) (iblk2 V c 2 t) (iblk2 V c 3 t) (iblk2 V c 4 t) (iblk2 V c 5 t) (iblk2 V c 6 t) r q).trans ?_
  refine congrArg₂ (· + ·) (Finset.sum_congr rfl fun k _ => ?_) (iblk2_6_apply V c t q)
  unfold hr
  rw [iblk2_0_apply V c t r k ⟨5000 * t.val + r.val, hp⟩ rfl, iblk2_1_apply V c t k, iblk2_2_apply V c t k,
    iblk2_3_apply V c t k, iblk2_4_apply V c t k, iblk2_5_apply V c t k q]

set_option maxHeartbeats 1000000 in
/-- What point t writes back to output log_std is block t of that function. -/
theorem flushed2_10_eq (c : Dev nD) (t : Fin cfg2.N) :
    (dat2 (F := Ideal) V c).flushed 10 t = ((cfg2.win 10).blk t).view.read (Elt Ideal) (G2_10 V c) := by
  show (cfg2.win 10).cut (grid2.coords t) ((dat2 V c).after 10 t) = _
  rw [after2_10]
  unfold out2_10
  rw [View.canon_unit_zero hz]
  simp only [View.ld_unit_zero (S := S5000x128) hz, View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  have hp : 5000 * t.val + r.val < 50000 := by
    have ht : t.val < 10 := N_2 ▸ t.isLt
    have := r.isLt; omega
  show k2_pay1 (F := Ideal) (k2_pay4 (iblk2 V c 0 t) (iblk2 V c 1 t) (iblk2 V c 2 t) (iblk2 V c 3 t) (iblk2 V c 4 t) (iblk2 V c 7 t)) (iblk2 V c 8 t) (ix2 r q)
      = G2_10 V c (((cfg2.win 10).blk t).view.emb (ix2 r q))
  rw [emb2_10 t r q ⟨5000 * t.val + r.val, hp⟩ rfl, G2_10_apply]
  refine (pay_ls_apply (iblk2 V c 0 t) (iblk2 V c 1 t) (iblk2 V c 2 t) (iblk2 V c 3 t) (iblk2 V c 4 t) (iblk2 V c 7 t) (iblk2 V c 8 t) r q).trans ?_
  refine congrArg₂ (· + ·) (Finset.sum_congr rfl fun k _ => ?_) (iblk2_8_apply V c t q)
  unfold hr
  rw [iblk2_0_apply V c t r k ⟨5000 * t.val + r.val, hp⟩ rfl, iblk2_1_apply V c t k, iblk2_2_apply V c t k,
    iblk2_3_apply V c t k, iblk2_4_apply V c t k, iblk2_7_apply V c t k q]

/-- An entry of output mu's array is in point t's block iff each coordinate is in the block's range on its axis. -/
theorem mem_blk2_9 (t : Fin cfg2.N) (i : S50000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v94_0).slice (win2_9.rect t)).set ↔ _
  rw [View.set_slice_whole, Rect.mem_set_unit]
  exact Iff.rfl

/-- Every entry of that array is in some point's block: row p lies in block p / 5000. -/
theorem covered2_9 (i : S50000x128.Idx) :
    ∃ t : Fin cfg2.N, (cfg2.win 9).flush t = true ∧ i ∈ ((cfg2.win 9).blk t).view.set := by
  have hi0 : (i 0).val < 50000 := idx2_lt0 i
  have hi1 : (i 1).val < 128 := idx2_lt1 i
  have ht : (i 0).val / 5000 < grid2.N := by rw [N_2]; omega
  obtain ⟨e0, e1, e2, e3⟩ := idx_outs2 ⟨(i 0).val / 5000, ht⟩
  refine ⟨⟨(i 0).val / 5000, ht⟩, flush2_9 _, ?_⟩
  rw [mem_blk2_9]
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_9.index ⟨(i 0).val / 5000, ht⟩ (1 : Fin 2) * 128 ≤ (i 1).val
      ∧ (i 1).val < win2_9.index ⟨(i 0).val / 5000, ht⟩ (1 : Fin 2) * 128 + 128
    rw [e1]; omega

/-- An entry of output log_std's array is in point t's block iff each coordinate is in the block's range on its axis. -/
theorem mem_blk2_10 (t : Fin cfg2.N) (i : S50000x128.Idx) :
    i ∈ ((cfg2.win 10).blk t).view.set ↔ ∀ a : Fin 2, win2_10.index t a * S5000x128.size a ≤ (i a).val
      ∧ (i a).val < win2_10.index t a * S5000x128.size a + S5000x128.size a := by
  show i ∈ ((View.whole main_v94_1).slice (win2_10.rect t)).set ↔ _
  rw [View.set_slice_whole, Rect.mem_set_unit]
  exact Iff.rfl

/-- Every entry of that array is in some point's block: row p lies in block p / 5000. -/
theorem covered2_10 (i : S50000x128.Idx) :
    ∃ t : Fin cfg2.N, (cfg2.win 10).flush t = true ∧ i ∈ ((cfg2.win 10).blk t).view.set := by
  have hi0 : (i 0).val < 50000 := idx2_lt0 i
  have hi1 : (i 1).val < 128 := idx2_lt1 i
  have ht : (i 0).val / 5000 < grid2.N := by rw [N_2]; omega
  obtain ⟨e0, e1, e2, e3⟩ := idx_outs2 ⟨(i 0).val / 5000, ht⟩
  refine ⟨⟨(i 0).val / 5000, ht⟩, flush2_10 _, ?_⟩
  rw [mem_blk2_10]
  intro a
  match a with
  | ⟨0, _⟩ =>
    show win2_10.index ⟨(i 0).val / 5000, ht⟩ (0 : Fin 2) * 5000 ≤ (i 0).val
      ∧ (i 0).val < win2_10.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win2_10.index ⟨(i 0).val / 5000, ht⟩ (1 : Fin 2) * 128 ≤ (i 1).val
      ∧ (i 1).val < win2_10.index ⟨(i 0).val / 5000, ht⟩ (1 : Fin 2) * 128 + 128
    rw [e3]; omega

/-- Output mu's array after the region is that function of the arrays the region finds. -/
theorem final2_9 (c : Dev nD) : (dat2 (F := Ideal) V c).arrAt 9 cfg2.N = G2_9 V c :=
  (dat2 (F := Ideal) V c).arrAt_eq_of_cover 9 (G2_9 V c) (fun t _ => flushed2_9_eq V c t) covered2_9

/-- Output mu's array after the region, at entry (p, q). -/
theorem final2_9_apply (c : Dev nD) (p : Fin 50000) (q : Fin 128) :
    (dat2 (F := Ideal) V c).arrAt 9 cfg2.N (ix2 p q)
      = (∑ k : Fin 128, hr (n := 50000) (V c (Pipeline.arrRef spec2 0)) (V c (Pipeline.arrRef spec2 1)) (V c (Pipeline.arrRef spec2 2))
          (V c (Pipeline.arrRef spec2 3)) (V c (Pipeline.arrRef spec2 4)) p k
        * (V c (Pipeline.arrRef spec2 5) : S128x128.Idx → EReal) (ix2 k q))
      + (V c (Pipeline.arrRef spec2 6) : S1x128.Idx → EReal) (ix2 0 q) := by
  rw [final2_9]; rfl

/-- Output log_std's array after the region is that function of the arrays the region finds. -/
theorem final2_10 (c : Dev nD) : (dat2 (F := Ideal) V c).arrAt 10 cfg2.N = G2_10 V c :=
  (dat2 (F := Ideal) V c).arrAt_eq_of_cover 10 (G2_10 V c) (fun t _ => flushed2_10_eq V c t) covered2_10

/-- Output log_std's array after the region, at entry (p, q). -/
theorem final2_10_apply (c : Dev nD) (p : Fin 50000) (q : Fin 128) :
    (dat2 (F := Ideal) V c).arrAt 10 cfg2.N (ix2 p q)
      = (∑ k : Fin 128, hr (n := 50000) (V c (Pipeline.arrRef spec2 0)) (V c (Pipeline.arrRef spec2 1)) (V c (Pipeline.arrRef spec2 2))
          (V c (Pipeline.arrRef spec2 3)) (V c (Pipeline.arrRef spec2 4)) p k
        * (V c (Pipeline.arrRef spec2 7) : S128x128.Idx → EReal) (ix2 k q))
      + (V c (Pipeline.arrRef spec2 8) : S1x128.Idx → EReal) (ix2 0 q) := by
  rw [final2_10]; rfl

end Cert.KernelIdeal.Region2

end
-- ==== Proof.KStage.lean ====
/-
  The three regions' output arrays, read through the run's boundary contents.

  The run's buffer contents are a fold over the program's segments. Just before each region the host only re-lays the
  per-feature vectors (mean, variance, scale, shift, and for the last region the two bias vectors) as one-row matrices;
  a one-row matrix read at (0, k) is the vector read at k. So each region's output array, at entry (p, q), is the
  normalise-and-multiply expression of the arrays held just before the region, with the statistics read as plain
  vectors: the re-laying disappears from the formula.
-/
import proofs.«170029_j24111946400020_1_alg».proof.Proof.Gen.KernelIdeal.Frame
import proofs.«170029_j24111946400020_1_alg».proof.Proof.Region0
import proofs.«170029_j24111946400020_1_alg».proof.Proof.Region1
import proofs.«170029_j24111946400020_1_alg».proof.Proof.Region2
import Idealize.ShloMosaic.Lib.StableHlo.Run
import Idealize.ShloMosaic.Lib.ValueIdx
import Idealize.ShloMosaic.Lib.ValueLayout

noncomputable section

namespace Cert.KernelIdeal.KStage

open Idealize.ShloMosaic Idealize.ShloMosaic.ValueIdx Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## The first region -/

/-- Just before the first region the one-row mean is the mean vector re-laid; likewise the variance, scale and shift. -/
theorem W5_v38 (c : Dev nD) : W5 (F := Ideal) m ρ c (Proc.devRef .tc main_v38)
    = shapeCast S1x5 (W5 (F := Ideal) m ρ c (Proc.devRef .tc main_v36)) shapeCasts_S5_S1x5 := by after_results_simp; rfl
theorem W5_v39 (c : Dev nD) : W5 (F := Ideal) m ρ c (Proc.devRef .tc main_v39)
    = shapeCast S1x5 (W5 (F := Ideal) m ρ c (Proc.devRef .tc main_v37)) shapeCasts_S5_S1x5 := by after_results_simp; rfl
theorem W5_v40 (c : Dev nD) : W5 (F := Ideal) m ρ c (Proc.devRef .tc main_v40)
    = shapeCast S1x5 (W5 (F := Ideal) m ρ c (Proc.devRef .tc main_arg3)) shapeCasts_S5_S1x5 := by after_results_simp; rfl
theorem W5_v41 (c : Dev nD) : W5 (F := Ideal) m ρ c (Proc.devRef .tc main_v41)
    = shapeCast S1x5 (W5 (F := Ideal) m ρ c (Proc.devRef .tc main_arg4)) shapeCasts_S5_S1x5 := by after_results_simp; rfl

/-- Entry (p, q) of the first region's output: the sum over the five features of the normalised feature times the
    weight, the statistics read as vectors. -/
theorem x1_apply (c : Dev nD) (p : Fin 50000) (q : Fin 128) (x1 : S50000x128.Idx → EReal) (h : S50000x5.Idx → EReal)
    (mean var g b : S5.Idx → EReal) (w : S5x128.Idx → EReal)
    (hx1 : x1 = W6 m ρ c (Proc.devRef .tc main_v42)) (hh : h = W5 m ρ c (Proc.devRef .tc main_arg0))
    (hmean : mean = W5 m ρ c (Proc.devRef .tc main_v36)) (hvar : var = W5 m ρ c (Proc.devRef .tc main_v37))
    (hg : g = W5 m ρ c (Proc.devRef .tc main_arg3)) (hb : b = W5 m ρ c (Proc.devRef .tc main_arg4))
    (hw : w = W5 m ρ c (Proc.devRef .tc main_arg5)) :
    x1 (ix2 p q) = ∑ k : Fin 5, ((((h (ix2 p k) - mean (ix1 k)) * Ideal.rsqrt (var (ix1 k) + Ideal.ofBits .f32 0x3727C5AC#32))
        * g (ix1 k) + b (ix1 k)) * w (ix2 k q)) := by
  have hx : x1 (ix2 p q) = (dat0 (F := Ideal) (V5 m ρ) c).arrAt 6 cfg0.N (ix2 p q) := by
    rw [hx1]; exact congrFun (W6_arr m ρ c 6) (ix2 p q)
  have e := Region0.final0_apply_of (V5 m ρ) c p q h (shapeCast S1x5 mean shapeCasts_S5_S1x5)
    (shapeCast S1x5 var shapeCasts_S5_S1x5) (shapeCast S1x5 g shapeCasts_S5_S1x5) (shapeCast S1x5 b shapeCasts_S5_S1x5) w
    hh (by rw [hmean]; exact (W5_v38 m ρ c).symm) (by rw [hvar]; exact (W5_v39 m ρ c).symm)
    (by rw [hg]; exact (W5_v40 m ρ c).symm) (by rw [hb]; exact (W5_v41 m ρ c).symm) hw
  rw [hx, e]
  refine Finset.sum_congr rfl fun k _ => ?_
  rw [shapeCast_a_1a_apply mean, shapeCast_a_1a_apply var, shapeCast_a_1a_apply g, shapeCast_a_1a_apply b]

/-! ## The second region -/

theorem W9_v63 (c : Dev nD) : W9 (F := Ideal) m ρ c (Proc.devRef .tc main_v63)
    = shapeCast S1x128 (W9 (F := Ideal) m ρ c (Proc.devRef .tc main_v61)) shapeCasts_S128_S1x128 := by after_results_simp; rfl
theorem W9_v64 (c : Dev nD) : W9 (F := Ideal) m ρ c (Proc.devRef .tc main_v64)
    = shapeCast S1x128 (W9 (F := Ideal) m ρ c (Proc.devRef .tc main_v62)) shapeCasts_S128_S1x128 := by after_results_simp; rfl
theorem W9_v65 (c : Dev nD) : W9 (F := Ideal) m ρ c (Proc.devRef .tc main_v65)
    = shapeCast S1x128 (W9 (F := Ideal) m ρ c (Proc.devRef .tc main_arg7)) shapeCasts_S128_S1x128 := by after_results_simp; rfl
theorem W9_v66 (c : Dev nD) : W9 (F := Ideal) m ρ c (Proc.devRef .tc main_v66)
    = shapeCast S1x128 (W9 (F := Ideal) m ρ c (Proc.devRef .tc main_arg8)) shapeCasts_S128_S1x128 := by after_results_simp; rfl

/-- Entry (p, q) of the second region's output: the sum over the 128 features of the normalised feature clamped at zero
    times the weight, the statistics read as vectors. -/
theorem x2_apply (c : Dev nD) (p : Fin 50000) (q : Fin 128) (x2 z : S50000x128.Idx → EReal)
    (mean var g b : S128.Idx → EReal) (w : S128x128.Idx → EReal)
    (hx2 : x2 = W10 m ρ c (Proc.devRef .tc main_v67)) (hz : z = W9 m ρ c (Proc.devRef .tc main_v58))
    (hmean : mean = W9 m ρ c (Proc.devRef .tc main_v61)) (hvar : var = W9 m ρ c (Proc.devRef .tc main_v62))
    (hg : g = W9 m ρ c (Proc.devRef .tc main_arg7)) (hb : b = W9 m ρ c (Proc.devRef .tc main_arg8))
    (hw : w = W9 m ρ c (Proc.devRef .tc main_arg9)) :
    x2 (ix2 p q) = ∑ k : Fin 128, max ((((z (ix2 p k) - mean (ix1 k)) * Ideal.rsqrt (var (ix1 k) + Ideal.ofBits .f32 0x3727C5AC#32))
        * g (ix1 k)) + b (ix1 k)) (Ideal.ofBits .f32 0x00000000#32) * w (ix2 k q) := by
  have hx : x2 (ix2 p q) = (dat1 (F := Ideal) (V9 m ρ) c).arrAt 6 cfg1.N (ix2 p q) := by
    rw [hx2]; exact congrFun (W10_arr m ρ c 6) (ix2 p q)
  have e := Region1.final1_apply_of (V9 m ρ) c p q z (shapeCast S1x128 mean shapeCasts_S128_S1x128)
    (shapeCast S1x128 var shapeCasts_S128_S1x128) (shapeCast S1x128 g shapeCasts_S128_S1x128)
    (shapeCast S1x128 b shapeCasts_S128_S1x128) w
    hz (by rw [hmean]; exact (W9_v63 m ρ c).symm) (by rw [hvar]; exact (W9_v64 m ρ c).symm)
    (by rw [hg]; exact (W9_v65 m ρ c).symm) (by rw [hb]; exact (W9_v66 m ρ c).symm) hw
  rw [hx, e]
  refine Finset.sum_congr rfl fun k _ => ?_
  rw [shapeCast_a_1a_apply mean, shapeCast_a_1a_apply var, shapeCast_a_1a_apply g, shapeCast_a_1a_apply b]

/-! ## The third region -/

theorem W13_v88 (c : Dev nD) : W13 (F := Ideal) m ρ c (Proc.devRef .tc main_v88)
    = shapeCast S1x128 (W13 (F := Ideal) m ρ c (Proc.devRef .tc main_v86)) shapeCasts_S128_S1x128 := by after_results_simp; rfl
theorem W13_v89 (c : Dev nD) : W13 (F := Ideal) m ρ c (Proc.devRef .tc main_v89)
    = shapeCast S1x128 (W13 (F := Ideal) m ρ c (Proc.devRef .tc main_v87)) shapeCasts_S128_S1x128 := by after_results_simp; rfl
theorem W13_v90 (c : Dev nD) : W13 (F := Ideal) m ρ c (Proc.devRef .tc main_v90)
    = shapeCast S1x128 (W13 (F := Ideal) m ρ c (Proc.devRef .tc main_arg11)) shapeCasts_S128_S1x128 := by after_results_simp; rfl
theorem W13_v91 (c : Dev nD) : W13 (F := Ideal) m ρ c (Proc.devRef .tc main_v91)
    = shapeCast S1x128 (W13 (F := Ideal) m ρ c (Proc.devRef .tc main_arg12)) shapeCasts_S128_S1x128 := by after_results_simp; rfl
theorem W13_v92 (c : Dev nD) : W13 (F := Ideal) m ρ c (Proc.devRef .tc main_v92)
    = shapeCast S1x128 (W13 (F := Ideal) m ρ c (Proc.devRef .tc main_arg14)) shapeCasts_S128_S1x128 := by after_results_simp; rfl
theorem W13_v93 (c : Dev nD) : W13 (F := Ideal) m ρ c (Proc.devRef .tc main_v93)
    = shapeCast S1x128 (W13 (F := Ideal) m ρ c (Proc.devRef .tc main_arg16)) shapeCasts_S128_S1x128 := by after_results_simp; rfl

/-- Entry (p, q) of the third region's first output, for any entry contents, with the arrays the region finds named by
    the caller: the sum over the 128 features of the clamped normalised feature times the head's weight, plus the head's
    bias. -/
theorem final2_9_of (V : (c : Dev nD) → (b : Ref sig .tc) → Buf (Elt Ideal) ((c : Thread nD τ).loc b))
    (c : Dev nD) (p : Fin 50000) (q : Fin 128)
    (z : S50000x128.Idx → EReal) (mn v g b : S1x128.Idx → EReal) (w : S128x128.Idx → EReal) (bias : S1x128.Idx → EReal)
    (hz : z = V c main_v83) (hm : mn = V c main_v88) (hv : v = V c main_v89) (hg : g = V c main_v90)
    (hb : b = V c main_v91) (hw : w = V c main_arg13) (hbias : bias = V c main_v92) :
    (dat2 (F := Ideal) V c).arrAt 9 cfg2.N (ix2 p q)
      = (∑ k : Fin 128, max ((((z (ix2 p k) - mn (ix2 0 k)) * Ideal.rsqrt (v (ix2 0 k) + Ideal.ofBits .f32 0x3727C5AC#32))
          * g (ix2 0 k)) + b (ix2 0 k)) (Ideal.ofBits .f32 0x00000000#32) * w (ix2 k q)) + bias (ix2 0 q) := by
  subst hz hm hv hg hb hw hbias
  exact Region2.final2_9_apply V c p q

/-- The same for the second output, with its own weight and bias. -/
theorem final2_10_of (V : (c : Dev nD) → (b : Ref sig .tc) → Buf (Elt Ideal) ((c : Thread nD τ).loc b))
    (c : Dev nD) (p : Fin 50000) (q : Fin 128)
    (z : S50000x128.Idx → EReal) (mn v g b : S1x128.Idx → EReal) (w : S128x128.Idx → EReal) (bias : S1x128.Idx → EReal)
    (hz : z = V c main_v83) (hm : mn = V c main_v88) (hv : v = V c main_v89) (hg : g = V c main_v90)
    (hb : b = V c main_v91) (hw : w = V c main_arg15) (hbias : bias = V c main_v93) :
    (dat2 (F := Ideal) V c).arrAt 10 cfg2.N (ix2 p q)
      = (∑ k : Fin 128, max ((((z (ix2 p k) - mn (ix2 0 k)) * Ideal.rsqrt (v (ix2 0 k) + Ideal.ofBits .f32 0x3727C5AC#32))
          * g (ix2 0 k)) + b (ix2 0 k)) (Ideal.ofBits .f32 0x00000000#32) * w (ix2 k q)) + bias (ix2 0 q) := by
  subst hz hm hv hg hb hw hbias
  exact Region2.final2_10_apply V c p q

/-- Entry (p, q) of the third region's first output: the sum over the 128 features of the normalised feature clamped at
    zero times the head's weight, plus the head's bias, statistics and bias read as vectors. -/
theorem mu_apply (c : Dev nD) (p : Fin 50000) (q : Fin 128) (mu z : S50000x128.Idx → EReal)
    (mean var g b : S128.Idx → EReal) (w : S128x128.Idx → EReal) (bias : S128.Idx → EReal)
    (hmu : mu = W14 m ρ c (Proc.devRef .tc main_v94_0)) (hz : z = W13 m ρ c (Proc.devRef .tc main_v83))
    (hmean : mean = W13 m ρ c (Proc.devRef .tc main_v86)) (hvar : var = W13 m ρ c (Proc.devRef .tc main_v87))
    (hg : g = W13 m ρ c (Proc.devRef .tc main_arg11)) (hb : b = W13 m ρ c (Proc.devRef .tc main_arg12))
    (hw : w = W13 m ρ c (Proc.devRef .tc main_arg13)) (hbias : bias = W13 m ρ c (Proc.devRef .tc main_arg14)) :
    mu (ix2 p q) = (∑ k : Fin 128, max ((((z (ix2 p k) - mean (ix1 k)) * Ideal.rsqrt (var (ix1 k) + Ideal.ofBits .f32 0x3727C5AC#32))
        * g (ix1 k)) + b (ix1 k)) (Ideal.ofBits .f32 0x00000000#32) * w (ix2 k q)) + bias (ix1 q) := by
  have hx : mu (ix2 p q) = (dat2 (F := Ideal) (V13 m ρ) c).arrAt 9 cfg2.N (ix2 p q) := by
    rw [hmu]; exact congrFun (W14_arr m ρ c 9) (ix2 p q)
  have e := final2_9_of (V13 m ρ) c p q z (shapeCast S1x128 mean shapeCasts_S128_S1x128)
    (shapeCast S1x128 var shapeCasts_S128_S1x128) (shapeCast S1x128 g shapeCasts_S128_S1x128)
    (shapeCast S1x128 b shapeCasts_S128_S1x128) w (shapeCast S1x128 bias shapeCasts_S128_S1x128)
    hz (by rw [hmean]; exact (W13_v88 m ρ c).symm) (by rw [hvar]; exact (W13_v89 m ρ c).symm)
    (by rw [hg]; exact (W13_v90 m ρ c).symm) (by rw [hb]; exact (W13_v91 m ρ c).symm) hw
    (by rw [hbias]; exact (W13_v92 m ρ c).symm)
  rw [hx, e, shapeCast_a_1a_apply bias]
  refine congrArg (fun s => s + bias (ix1 q)) (Finset.sum_congr rfl fun k _ => ?_)
  rw [shapeCast_a_1a_apply mean, shapeCast_a_1a_apply var, shapeCast_a_1a_apply g, shapeCast_a_1a_apply b]

/-- The same for the third region's second output, with its own weight and bias. -/
theorem ls_apply (c : Dev nD) (p : Fin 50000) (q : Fin 128) (ls z : S50000x128.Idx → EReal)
    (mean var g b : S128.Idx → EReal) (w : S128x128.Idx → EReal) (bias : S128.Idx → EReal)
    (hls : ls = W14 m ρ c (Proc.devRef .tc main_v94_1)) (hz : z = W13 m ρ c (Proc.devRef .tc main_v83))
    (hmean : mean = W13 m ρ c (Proc.devRef .tc main_v86)) (hvar : var = W13 m ρ c (Proc.devRef .tc main_v87))
    (hg : g = W13 m ρ c (Proc.devRef .tc main_arg11)) (hb : b = W13 m ρ c (Proc.devRef .tc main_arg12))
    (hw : w = W13 m ρ c (Proc.devRef .tc main_arg15)) (hbias : bias = W13 m ρ c (Proc.devRef .tc main_arg16)) :
    ls (ix2 p q) = (∑ k : Fin 128, max ((((z (ix2 p k) - mean (ix1 k)) * Ideal.rsqrt (var (ix1 k) + Ideal.ofBits .f32 0x3727C5AC#32))
        * g (ix1 k)) + b (ix1 k)) (Ideal.ofBits .f32 0x00000000#32) * w (ix2 k q)) + bias (ix1 q) := by
  have hx : ls (ix2 p q) = (dat2 (F := Ideal) (V13 m ρ) c).arrAt 10 cfg2.N (ix2 p q) := by
    rw [hls]; exact congrFun (W14_arr m ρ c 10) (ix2 p q)
  have e := final2_10_of (V13 m ρ) c p q z (shapeCast S1x128 mean shapeCasts_S128_S1x128)
    (shapeCast S1x128 var shapeCasts_S128_S1x128) (shapeCast S1x128 g shapeCasts_S128_S1x128)
    (shapeCast S1x128 b shapeCasts_S128_S1x128) w (shapeCast S1x128 bias shapeCasts_S128_S1x128)
    hz (by rw [hmean]; exact (W13_v88 m ρ c).symm) (by rw [hvar]; exact (W13_v89 m ρ c).symm)
    (by rw [hg]; exact (W13_v90 m ρ c).symm) (by rw [hb]; exact (W13_v91 m ρ c).symm) hw
    (by rw [hbias]; exact (W13_v93 m ρ c).symm)
  rw [hx, e, shapeCast_a_1a_apply bias]
  refine congrArg (fun s => s + bias (ix1 q)) (Finset.sum_congr rfl fun k _ => ?_)
  rw [shapeCast_a_1a_apply mean, shapeCast_a_1a_apply var, shapeCast_a_1a_apply g, shapeCast_a_1a_apply b]

end Cert.KernelIdeal.KStage

end
-- ==== Proof.LibBnRead.lean ====
/-
  Reading a batch-normalisation's affine map at an index, in the form a host program spells it.

  A per-feature vector of length d (a mean, a reciprocal standard deviation, a scale, a shift) is applied to an
  [N, d] array by broadcasting it first to one row, [1, d], and then along the rows, [N, d]. Read at (p, k), each
  such broadcast is the vector's entry k, whatever the row p; a scalar broadcast to any shape is the scalar. So the
  normalised array at (p, k) is  ((z (p, k) − mean k) · rsqrt (var k + ε)) · g k + b k  on the extended reals, every
  operation the pointwise one. Independent of any program.
-/
import Idealize.ShloMosaic.Lib.ValueIdx
import Idealize.ShloMosaic.Lib.Pipeline.Value
import Idealize.ShloMosaic.PureOps.Ideal
import Idealize.ShloMosaic.PureOps.Ideal.Laws

noncomputable section

namespace Cert.Lib

open Idealize.ShloMosaic Idealize.ShloMosaic.ValueIdx

variable {α : Type}

/-- A length-a vector broadcast to one row [1, a] reads, at (u, i), its entry i. -/
theorem bcast_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply ![1] h x (ix2 u i) (ix1 i) fun ax => ?_
  match ax with
  | ⟨0, _⟩ =>
    show i.val = if a = 1 then 0 else i.val
    split
    · have := i.isLt; omega
    · rfl

/-- One row [1, b] broadcast along the rows to [a, b] reads, at (p, c), the row's entry c. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar broadcast to any shape reads, everywhere, the scalar. -/
theorem bcast_scalar_apply {t : Shape} (x : (⟨0, ![]⟩ : Shape).Idx → α)
    (h : (⟨0, ![]⟩ : Shape).BroadcastsInDim t ![]) (j : t.Idx) :
    broadcastInDim t ![] h x j = x ix0 := by
  unfold broadcastInDim
  exact congrArg x (funext fun a => a.elim0)

/-- The normalisation's affine map at (p, k): the per-feature vectors enter at k only. -/
theorem bn_affine_apply {N d : ℕ} (z : FVec Ideal ⟨2, ![N, d]⟩ .f32) (mean var g b : FVec Ideal ⟨1, ![d]⟩ .f32)
    (h0 : (⟨0, ![]⟩ : Shape).BroadcastsInDim ⟨1, ![d]⟩ ![])
    (h1 : (⟨1, ![d]⟩ : Shape).BroadcastsInDim ⟨2, ![1, d]⟩ ![1])
    (h2 : (⟨2, ![1, d]⟩ : Shape).BroadcastsInDim ⟨2, ![N, d]⟩ ![0, 1]) (w : BitVec 32) (p : Fin N) (k : Fin d) :
    addf (mulf (mulf (subf z (broadcastInDim ⟨2, ![N, d]⟩ ![0, 1] h2 (broadcastInDim ⟨2, ![1, d]⟩ ![1] h1 mean)))
        (broadcastInDim ⟨2, ![N, d]⟩ ![0, 1] h2 (broadcastInDim ⟨2, ![1, d]⟩ ![1] h1
          (Host.rsqrt (addf var (broadcastInDim ⟨1, ![d]⟩ ![] h0 (constant (F := Ideal) ⟨0, ![]⟩ .f32 w)))))))
        (broadcastInDim ⟨2, ![N, d]⟩ ![0, 1] h2 (broadcastInDim ⟨2, ![1, d]⟩ ![1] h1 g)))
      (broadcastInDim ⟨2, ![N, d]⟩ ![0, 1] h2 (broadcastInDim ⟨2, ![1, d]⟩ ![1] h1 b)) (ix2 p k)
    = ((z (ix2 p k) - mean (ix1 k)) * Ideal.rsqrt (var (ix1 k) + Ideal.ofBits .f32 w)) * g (ix1 k) + b (ix1 k) := by
  simp only [addf_apply, mulf_apply, subf_apply]
  rw [bcast_1b_ab_apply _ h2 p k, bcast_1b_ab_apply _ h2 p k, bcast_1b_ab_apply _ h2 p k, bcast_1b_ab_apply _ h2 p k,
    bcast_a_1a_apply _ h1 0 k, bcast_a_1a_apply _ h1 0 k, bcast_a_1a_apply _ h1 0 k, bcast_a_1a_apply _ h1 0 k]
  rfl

end Cert.Lib

end
-- ==== Proof.RStage.lean ====
/-
  The reference's three normalise-and-multiply stages, read at an index.

  Each of the three stages takes an array z of rows, normalises every column k with a mean and a variance
  ( (z (p, k) − mean k) · rsqrt (var k + ε) · g k + b k ), the second and third stages then clamp at zero from below,
  and every stage ends in a matrix product with a weight w — the third twice, each product followed by the addition of a
  bias row. The operations are pointwise except the broadcasts of the per-column vectors (which read entry k whatever
  the row) and the contraction (a sum over k of left (p, k) · right (k, q)). So at the output index (p, q) a stage is a
  finite sum over k of the normalised (and clamped) entry (p, k) times w (k, q), plus, in the last stage, bias q.

  The statements are over ANY contents Y of the buffers before the stage's operations run: the arrays the stage reads
  are named, each with the equation saying which buffer of Y it is.
-/
import proofs.«170029_j24111946400020_1_alg».proof.Proof.RefRun
import proofs.«170029_j24111946400020_1_alg».proof.Proof.LibPlainDot
import proofs.«170029_j24111946400020_1_alg».proof.Proof.LibBnRead

noncomputable section

namespace Cert.ReferenceIdeal.RStage

open Cert.ReferenceIdeal Cert.ReferenceIdeal.Gen Cert.ReferenceIdeal.RefRun Cert.Lib Idealize.ShloMosaic Idealize.ShloMosaic.TcCoe Idealize.SL.Sem Idealize.ShloMosaic.StableHlo Idealize.ShloMosaic.ValueIdx

/-- Contents carried to a buffer's own type and back are the contents: the two transports are along one equation of
    types, in opposite directions. -/
theorem ofBuf_toBuf {sig : RefSig} {Val : EltTy → Type} {T : BufTy} (x : TRef sig T) (v : T.Contents Val) :
    x.ofBuf (x.toBuf v) = v := by
  obtain ⟨r, h, _, _⟩ := x; subst h; rfl

/-- A normalised [50000, 128] array clamped at zero from below, at (p, k): the maximum of the normalised entry and
    zero (the zero a scalar broadcast to every position). -/
theorem relu_bn_apply (z : FVec Ideal S50000x128 .f32) (mean var g b : FVec Ideal S128 .f32) (p : Fin 50000) (k : Fin 128) :
    maximumf
        (addf (mulf (mulf (subf z (broadcastInDim S50000x128 ![0, 1] bcast_S1x128_S50000x128_0_1 (broadcastInDim S1x128 ![1] bcast_S128_S1x128_1 mean)))
            (broadcastInDim S50000x128 ![0, 1] bcast_S1x128_S50000x128_0_1 (broadcastInDim S1x128 ![1] bcast_S128_S1x128_1
              (Host.rsqrt (addf var (broadcastInDim S128 ![] bcast_S_S128 (constant (F := Ideal) S_ .f32 0x3727C5AC#32)))))))
            (broadcastInDim S50000x128 ![0, 1] bcast_S1x128_S50000x128_0_1 (broadcastInDim S1x128 ![1] bcast_S128_S1x128_1 g)))
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)) (ix2 p k)
      = max ((((z (ix2 p k) - mean (ix1 k)) * Ideal.rsqrt (var (ix1 k) + Ideal.ofBits .f32 0x3727C5AC#32)) * g (ix1 k)) + b (ix1 k))
          (Ideal.ofBits .f32 0x00000000#32) := by
  refine (maximumf_apply _ _ (ix2 p k)).trans ?_
  exact congrArg₂ max (bn_affine_apply z mean var g b bcast_S_S128 bcast_S128_S1x128_1 bcast_S1x128_S50000x128_0_1 0x3727C5AC#32 p k)
    (bcast_scalar_apply (constant (F := Ideal) S_ .f32 0x00000000#32) bcast_S_S50000x128 (ix2 p k))

/-- A bias row added to every row of a [50000, 128] array reads, at (p, q), the bias's entry q. -/
theorem bias_row_apply (bias : FVec Ideal S128 .f32) (p : Fin 50000) (q : Fin 128) :
    broadcastInDim S50000x128 ![0, 1] bcast_S1x128_S50000x128_0_1 (broadcastInDim S1x128 ![1] bcast_S128_S1x128_1 bias) (ix2 p q)
      = bias (ix1 q) :=
  (bcast_1b_ab_apply _ bcast_S1x128_S50000x128_0_1 p q).trans (bcast_a_1a_apply bias bcast_S128_S1x128_1 0 q)

/-- THE FIRST STAGE at (p, q): the input features normalised column by column, times the first weight. -/
theorem x1_apply (Y : Valuation τ sig (Elt Ideal)) (p : Fin 50000) (q : Fin 128) (x1 : S50000x128.Idx → EReal)
    (h : S50000x5.Idx → EReal) (mean var g b : S5.Idx → EReal) (w : S5x128.Idx → EReal)
    (hx1 : x1 = after (opsA2 (F := Ideal)) Y (Proc.devRef .tc main_v23)) (hh : h = Y (Proc.devRef .tc main_arg0))
    (hmean : mean = Y (Proc.devRef .tc main_v6)) (hvar : var = Y (Proc.devRef .tc main_v7))
    (hg : g = Y (Proc.devRef .tc main_arg3)) (hb : b = Y (Proc.devRef .tc main_arg4)) (hw : w = Y (Proc.devRef .tc main_arg5)) :
    x1 (ix2 p q) = ∑ k : Fin 5, ((((h (ix2 p k) - mean (ix1 k)) * Ideal.rsqrt (var (ix1 k) + Ideal.ofBits .f32 0x3727C5AC#32)) * g (ix1 k) + b (ix1 k)) * w (ix2 k q)) := by
  subst hx1
  after_results_simp
  rw [← hh, ← hmean, ← hvar, ← hg, ← hb, ← hw]
  refine (dotGeneral_plain_apply dot_S50000x5_S5x128_S50000x128_1_0_0_1_n_n_wf none .single _ w p q).trans ?_
  refine Finset.sum_congr rfl fun k _ => ?_
  exact congrArg (· * w (ix2 k q)) (bn_affine_apply h mean var g b bcast_S_S5 bcast_S5_S1x5_1 bcast_S1x5_S50000x5_0_1 0x3727C5AC#32 p k)

/-- THE SECOND STAGE at (p, q): the first layer's output normalised, clamped at zero, times the second weight. -/
theorem x2_apply (Y : Valuation τ sig (Elt Ideal)) (p : Fin 50000) (q : Fin 128) (x2 : S50000x128.Idx → EReal)
    (z : S50000x128.Idx → EReal) (mean var g b : S128.Idx → EReal) (w : S128x128.Idx → EReal)
    (hx2 : x2 = after (opsB4 (F := Ideal)) Y (Proc.devRef .tc main_v90)) (hz : z = Y (Proc.devRef .tc main_v69))
    (hmean : mean = Y (Proc.devRef .tc main_v72)) (hvar : var = Y (Proc.devRef .tc main_v73))
    (hg : g = Y (Proc.devRef .tc main_arg7)) (hb : b = Y (Proc.devRef .tc main_arg8)) (hw : w = Y (Proc.devRef .tc main_arg9)) :
    x2 (ix2 p q) = ∑ k : Fin 128, max ((((z (ix2 p k) - mean (ix1 k)) * Ideal.rsqrt (var (ix1 k) + Ideal.ofBits .f32 0x3727C5AC#32)) * g (ix1 k)) + b (ix1 k)) (Ideal.ofBits .f32 0x00000000#32) * w (ix2 k q) := by
  subst hx2
  after_results_simp
  simp only [ofBuf_toBuf]
  rw [← hz, ← hmean, ← hvar, ← hg, ← hb, ← hw]
  refine (dotGeneral_plain_apply dot_S50000x128_S128x128_S50000x128_1_0_0_1_n_n_wf none .single _ w p q).trans ?_
  refine Finset.sum_congr rfl fun k _ => ?_
  exact congrArg (· * w (ix2 k q)) (relu_bn_apply z mean var g b p k)

/-- THE THIRD STAGE's first output at (p, q): the second layer's output normalised, clamped at zero, times the weight of
    the mean head, plus that head's bias. -/
theorem mu_apply (Y : Valuation τ sig (Elt Ideal)) (p : Fin 50000) (q : Fin 128) (mu : S50000x128.Idx → EReal)
    (z : S50000x128.Idx → EReal) (mean var g b : S128.Idx → EReal) (w : S128x128.Idx → EReal) (bias : S128.Idx → EReal)
    (hmu : mu = after (opsC4 (F := Ideal)) Y (Proc.devRef .tc main_v160)) (hz : z = Y (Proc.devRef .tc main_v136))
    (hmean : mean = Y (Proc.devRef .tc main_v139)) (hvar : var = Y (Proc.devRef .tc main_v140))
    (hg : g = Y (Proc.devRef .tc main_arg11)) (hb : b = Y (Proc.devRef .tc main_arg12)) (hw : w = Y (Proc.devRef .tc main_arg13))
    (hbias : bias = Y (Proc.devRef .tc main_arg14)) :
    mu (ix2 p q) = (∑ k : Fin 128, max ((((z (ix2 p k) - mean (ix1 k)) * Ideal.rsqrt (var (ix1 k) + Ideal.ofBits .f32 0x3727C5AC#32)) * g (ix1 k)) + b (ix1 k)) (Ideal.ofBits .f32 0x00000000#32) * w (ix2 k q)) + bias (ix1 q) := by
  subst hmu
  after_results_simp
  simp only [ofBuf_toBuf]
  rw [← hz, ← hmean, ← hvar, ← hg, ← hb, ← hw, ← hbias]
  refine (addf_apply _ _ (ix2 p q)).trans ?_
  refine congrArg₂ (· + ·) ?_ (bias_row_apply bias p q)
  refine (dotGeneral_plain_apply dot_S50000x128_S128x128_S50000x128_1_0_0_1_n_n_wf none .single _ w p q).trans ?_
  refine Finset.sum_congr rfl fun k _ => ?_
  exact congrArg (· * w (ix2 k q)) (relu_bn_apply z mean var g b p k)

/-- THE THIRD STAGE's second output at (p, q): the same clamped normalised array times the weight of the log-deviation
    head, plus that head's bias. -/
theorem ls_apply (Y : Valuation τ sig (Elt Ideal)) (p : Fin 50000) (q : Fin 128) (ls : S50000x128.Idx → EReal)
    (z : S50000x128.Idx → EReal) (mean var g b : S128.Idx → EReal) (w : S128x128.Idx → EReal) (bias : S128.Idx → EReal)
    (hls : ls = after (opsC4 (F := Ideal)) Y (Proc.devRef .tc main_v164)) (hz : z = Y (Proc.devRef .tc main_v136))
    (hmean : mean = Y (Proc.devRef .tc main_v139)) (hvar : var = Y (Proc.devRef .tc main_v140))
    (hg : g = Y (Proc.devRef .tc main_arg11)) (hb : b = Y (Proc.devRef .tc main_arg12)) (hw : w = Y (Proc.devRef .tc main_arg15))
    (hbias : bias = Y (Proc.devRef .tc main_arg16)) :
    ls (ix2 p q) = (∑ k : Fin 128, max ((((z (ix2 p k) - mean (ix1 k)) * Ideal.rsqrt (var (ix1 k) + Ideal.ofBits .f32 0x3727C5AC#32)) * g (ix1 k)) + b (ix1 k)) (Ideal.ofBits .f32 0x00000000#32) * w (ix2 k q)) + bias (ix1 q) := by
  subst hls
  after_results_simp
  simp only [ofBuf_toBuf]
  rw [← hz, ← hmean, ← hvar, ← hg, ← hb, ← hw, ← hbias]
  refine (addf_apply _ _ (ix2 p q)).trans ?_
  refine congrArg₂ (· + ·) ?_ (bias_row_apply bias p q)
  refine (dotGeneral_plain_apply dot_S50000x128_S128x128_S50000x128_1_0_0_1_n_n_wf none .single _ w p q).trans ?_
  refine Finset.sum_congr rfl fun k _ => ?_
  exact congrArg (· * w (ix2 k q)) (relu_bn_apply z mean var g b p k)

end Cert.ReferenceIdeal.RStage

end
-- ==== Proof.Bridge.lean ====
/-
  The two idealized programs compute the same arrays, stage by stage.

  Both programs are three normalise-and-multiply stages joined by the same graph aggregation. Reading each stage at an
  output index gives, on both sides, the same sum over the contracted feature of the normalised (and, after the first
  stage, rectified) entry times the weight's entry; the arrays that enter these sums — the stage's input, its
  per-feature mean and variance, the scale, the shift, the weight, the bias — are equal on the two sides because the
  host computations that produce them are the same functions of equal arrays. Going through the stages in order, the
  first stage's outputs agree because the arguments do; each aggregation and its statistics agree because the previous
  stage's outputs and the edge coefficients do; and so the two results agree.
-/
import proofs.«170029_j24111946400020_1_alg».proof.Defs
import proofs.«170029_j24111946400020_1_alg».proof.Proof.Chain
import proofs.«170029_j24111946400020_1_alg».proof.Proof.Pass
import proofs.«170029_j24111946400020_1_alg».proof.Proof.KStage
import proofs.«170029_j24111946400020_1_alg».proof.Proof.RStage

set_option maxRecDepth 16384

noncomputable section

namespace Cert.Bridge

open Idealize.ShloMosaic Idealize.ShloMosaic.TcCoe Idealize.SL.Sem Idealize.ShloMosaic.StableHlo Idealize.ShloMosaic.ValueIdx
open Cert.Chain

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
include hag

/-! ## The arguments, as the two launches hold them -/
theorem arg0 : (Cert.KernelIdeal.Gen.W0 (F := Ideal) m ρ c) (Proc.devRef .tc Cert.KernelIdeal.main_arg0) = (launchContents m' c) (Proc.devRef .tc Cert.ReferenceIdeal.main_arg0) := (hag.1).symm
theorem arg1 : (Cert.KernelIdeal.Gen.W0 (F := Ideal) m ρ c) (Proc.devRef .tc Cert.KernelIdeal.main_arg1) = (launchContents m' c) (Proc.devRef .tc Cert.ReferenceIdeal.main_arg1) := (hag.2.1).symm
theorem arg2 : (Cert.KernelIdeal.Gen.W0 (F := Ideal) m ρ c) (Proc.devRef .tc Cert.KernelIdeal.main_arg2) = (launchContents m' c) (Proc.devRef .tc Cert.ReferenceIdeal.main_arg2) := (hag.2.2.1).symm
theorem arg3 : (Cert.KernelIdeal.Gen.W0 (F := Ideal) m ρ c) (Proc.devRef .tc Cert.KernelIdeal.main_arg3) = (launchContents m' c) (Proc.devRef .tc Cert.ReferenceIdeal.main_arg3) := (hag.2.2.2.1).symm
theorem arg4 : (Cert.KernelIdeal.Gen.W0 (F := Ideal) m ρ c) (Proc.devRef .tc Cert.KernelIdeal.main_arg4) = (launchContents m' c) (Proc.devRef .tc Cert.ReferenceIdeal.main_arg4) := (hag.2.2.2.2.1).symm
theorem arg5 : (Cert.KernelIdeal.Gen.W0 (F := Ideal) m ρ c) (Proc.devRef .tc Cert.KernelIdeal.main_arg5) = (launchContents m' c) (Proc.devRef .tc Cert.ReferenceIdeal.main_arg5) := (hag.2.2.2.2.2.1).symm
theorem arg6 : (Cert.KernelIdeal.Gen.W0 (F := Ideal) m ρ c) (Proc.devRef .tc Cert.KernelIdeal.main_arg6) = (launchContents m' c) (Proc.devRef .tc Cert.ReferenceIdeal.main_arg6) := (hag.2.2.2.2.2.2.1).symm
theorem arg7 : (Cert.KernelIdeal.Gen.W0 (F := Ideal) m ρ c) (Proc.devRef .tc Cert.KernelIdeal.main_arg7) = (launchContents m' c) (Proc.devRef .tc Cert.ReferenceIdeal.main_arg7) := (hag.2.2.2.2.2.2.2.1).symm
theorem arg8 : (Cert.KernelIdeal.Gen.W0 (F := Ideal) m ρ c) (Proc.devRef .tc Cert.KernelIdeal.main_arg8) = (launchContents m' c) (Proc.devRef .tc Cert.ReferenceIdeal.main_arg8) := (hag.2.2.2.2.2.2.2.2.1).symm
theorem arg9 : (Cert.KernelIdeal.Gen.W0 (F := Ideal) m ρ c) (Proc.devRef .tc Cert.KernelIdeal.main_arg9) = (launchContents m' c) (Proc.devRef .tc Cert.ReferenceIdeal.main_arg9) := (hag.2.2.2.2.2.2.2.2.2.1).symm
theorem arg10 : (Cert.KernelIdeal.Gen.W0 (F := Ideal) m ρ c) (Proc.devRef .tc Cert.KernelIdeal.main_arg10) = (launchContents m' c) (Proc.devRef .tc Cert.ReferenceIdeal.main_arg10) := (hag.2.2.2.2.2.2.2.2.2.2.1).symm
theorem arg11 : (Cert.KernelIdeal.Gen.W0 (F := Ideal) m ρ c) (Proc.devRef .tc Cert.KernelIdeal.main_arg11) = (launchContents m' c) (Proc.devRef .tc Cert.ReferenceIdeal.main_arg11) := (hag.2.2.2.2.2.2.2.2.2.2.2.1).symm
theorem arg12 : (Cert.KernelIdeal.Gen.W0 (F := Ideal) m ρ c) (Proc.devRef .tc Cert.KernelIdeal.main_arg12) = (launchContents m' c) (Proc.devRef .tc Cert.ReferenceIdeal.main_arg12) := (hag.2.2.2.2.2.2.2.2.2.2.2.2.1).symm
theorem arg13 : (Cert.KernelIdeal.Gen.W0 (F := Ideal) m ρ c) (Proc.devRef .tc Cert.KernelIdeal.main_arg13) = (launchContents m' c) (Proc.devRef .tc Cert.ReferenceIdeal.main_arg13) := (hag.2.2.2.2.2.2.2.2.2.2.2.2.2.1).symm
theorem arg14 : (Cert.KernelIdeal.Gen.W0 (F := Ideal) m ρ c) (Proc.devRef .tc Cert.KernelIdeal.main_arg14) = (launchContents m' c) (Proc.devRef .tc Cert.ReferenceIdeal.main_arg14) := (hag.2.2.2.2.2.2.2.2.2.2.2.2.2.2.1).symm
theorem arg15 : (Cert.KernelIdeal.Gen.W0 (F := Ideal) m ρ c) (Proc.devRef .tc Cert.KernelIdeal.main_arg15) = (launchContents m' c) (Proc.devRef .tc Cert.ReferenceIdeal.main_arg15) := (hag.2.2.2.2.2.2.2.2.2.2.2.2.2.2.2.1).symm
theorem arg16 : (Cert.KernelIdeal.Gen.W0 (F := Ideal) m ρ c) (Proc.devRef .tc Cert.KernelIdeal.main_arg16) = (launchContents m' c) (Proc.devRef .tc Cert.ReferenceIdeal.main_arg16) := (hag.2.2.2.2.2.2.2.2.2.2.2.2.2.2.2.2).symm

/-! ## First stage -/

theorem mean0_eq : Cert.KernelIdeal.Gen.W5 (F := Ideal) m ρ c (Proc.devRef .tc Cert.KernelIdeal.main_v36) = (RA1 (launchContents m' c)) (Proc.devRef .tc Cert.ReferenceIdeal.main_v6) := Chain.mean0 (Cert.KernelIdeal.Gen.W0 (F := Ideal) m ρ c) (launchContents m' c) (arg0 m ρ m' c hag)
theorem var0_eq : Cert.KernelIdeal.Gen.W5 (F := Ideal) m ρ c (Proc.devRef .tc Cert.KernelIdeal.main_v37) = (RA1 (launchContents m' c)) (Proc.devRef .tc Cert.ReferenceIdeal.main_v7) := Chain.var0 (Cert.KernelIdeal.Gen.W0 (F := Ideal) m ρ c) (launchContents m' c) (arg0 m ρ m' c hag)
theorem s0_arg0 : Cert.KernelIdeal.Gen.W5 (F := Ideal) m ρ c (Proc.devRef .tc Cert.KernelIdeal.main_arg0) = (RA1 (launchContents m' c)) (Proc.devRef .tc Cert.ReferenceIdeal.main_arg0) :=
  (Cert.Pass.k5_arg0 (Cert.KernelIdeal.Gen.W0 (F := Ideal) m ρ c)).trans ((arg0 m ρ m' c hag).trans (Cert.Pass.rA1_arg0 (launchContents m' c)).symm)
theorem s0_arg3 : Cert.KernelIdeal.Gen.W5 (F := Ideal) m ρ c (Proc.devRef .tc Cert.KernelIdeal.main_arg3) = (RA1 (launchContents m' c)) (Proc.devRef .tc Cert.ReferenceIdeal.main_arg3) :=
  (Cert.Pass.k5_arg3 (Cert.KernelIdeal.Gen.W0 (F := Ideal) m ρ c)).trans ((arg3 m ρ m' c hag).trans (Cert.Pass.rA1_arg3 (launchContents m' c)).symm)
theorem s0_arg4 : Cert.KernelIdeal.Gen.W5 (F := Ideal) m ρ c (Proc.devRef .tc Cert.KernelIdeal.main_arg4) = (RA1 (launchContents m' c)) (Proc.devRef .tc Cert.ReferenceIdeal.main_arg4) :=
  (Cert.Pass.k5_arg4 (Cert.KernelIdeal.Gen.W0 (F := Ideal) m ρ c)).trans ((arg4 m ρ m' c hag).trans (Cert.Pass.rA1_arg4 (launchContents m' c)).symm)
theorem s0_arg5 : Cert.KernelIdeal.Gen.W5 (F := Ideal) m ρ c (Proc.devRef .tc Cert.KernelIdeal.main_arg5) = (RA1 (launchContents m' c)) (Proc.devRef .tc Cert.ReferenceIdeal.main_arg5) :=
  (Cert.Pass.k5_arg5 (Cert.KernelIdeal.Gen.W0 (F := Ideal) m ρ c)).trans ((arg5 m ρ m' c hag).trans (Cert.Pass.rA1_arg5 (launchContents m' c)).symm)

/-- The first stage's output: entry by entry the same sum of the same arrays. -/
theorem x1_eq : Cert.KernelIdeal.Gen.W6 (F := Ideal) m ρ c (Proc.devRef .tc Cert.KernelIdeal.main_v42) = (after (Cert.ReferenceIdeal.RefRun.opsA2 (F := Ideal)) (RA1 (launchContents m' c))) (Proc.devRef .tc Cert.ReferenceIdeal.main_v23) := by
  show @Eq (Cert.KernelIdeal.S50000x128.Idx → EReal) _ _
  funext i
  obtain ⟨p, q, rfl⟩ : ∃ (p : Fin 50000) (q : Fin 128), i = ix2 p q := ⟨i 0, i 1, eq_ix2 i⟩
  exact (Cert.KernelIdeal.KStage.x1_apply m ρ c p q _ _ _ _ _ _ _ rfl rfl rfl rfl rfl rfl rfl).trans
    (Cert.ReferenceIdeal.RStage.x1_apply (RA1 (launchContents m' c)) p q _ _ _ _ _ _ _ rfl (s0_arg0 m ρ m' c hag) (mean0_eq m ρ m' c hag) (var0_eq m ρ m' c hag) (s0_arg3 m ρ m' c hag) (s0_arg4 m ρ m' c hag) (s0_arg5 m ρ m' c hag)).symm

/-! ## Second stage -/

theorem h1_norm : Cert.KernelIdeal.Gen.W6 (F := Ideal) m ρ c (Proc.devRef .tc Cert.KernelIdeal.main_v33) = (RB1 (launchContents m' c)) (Proc.devRef .tc Cert.ReferenceIdeal.main_v53) := (Cert.KernelIdeal.Gen.W6_of_ne m ρ c Cert.KernelIdeal.main_v33 (by decide)).trans (Chain.norm1 (Cert.KernelIdeal.Gen.W0 (F := Ideal) m ρ c) (launchContents m' c) (arg1 m ρ m' c hag) (arg2 m ρ m' c hag))
theorem h1_src : Cert.KernelIdeal.Gen.W6 (F := Ideal) m ρ c (Proc.devRef .tc Cert.KernelIdeal.main_v5) = (RB1 (launchContents m' c)) (Proc.devRef .tc Cert.ReferenceIdeal.main_v25) := (Cert.KernelIdeal.Gen.W6_of_ne m ρ c Cert.KernelIdeal.main_v5 (by decide)).trans (Chain.src1 (Cert.KernelIdeal.Gen.W0 (F := Ideal) m ρ c) (launchContents m' c) (arg1 m ρ m' c hag) (arg2 m ρ m' c hag))
theorem h1_dst : Cert.KernelIdeal.Gen.W6 (F := Ideal) m ρ c (Proc.devRef .tc Cert.KernelIdeal.main_v6) = (RB1 (launchContents m' c)) (Proc.devRef .tc Cert.ReferenceIdeal.main_v26) := (Cert.KernelIdeal.Gen.W6_of_ne m ρ c Cert.KernelIdeal.main_v6 (by decide)).trans (Chain.dst1 (Cert.KernelIdeal.Gen.W0 (F := Ideal) m ρ c) (launchContents m' c) (arg1 m ρ m' c hag) (arg2 m ρ m' c hag))
theorem h1_x : Cert.KernelIdeal.Gen.W6 (F := Ideal) m ρ c (Proc.devRef .tc Cert.KernelIdeal.main_v42) = (RB1 (launchContents m' c)) (Proc.devRef .tc Cert.ReferenceIdeal.main_v23) := (x1_eq m ρ m' c hag).trans (Cert.Pass.rB1_keeps_v23 (after (Cert.ReferenceIdeal.RefRun.opsA2 (F := Ideal)) (RA1 (launchContents m' c)))).symm
theorem h1_bias : Cert.KernelIdeal.Gen.W6 (F := Ideal) m ρ c (Proc.devRef .tc Cert.KernelIdeal.main_arg6) = (RB1 (launchContents m' c)) (Proc.devRef .tc Cert.ReferenceIdeal.main_arg6) :=
  (Cert.KernelIdeal.Gen.W6_of_ne m ρ c Cert.KernelIdeal.main_arg6 (by decide)).trans ((Cert.Pass.k5_arg6 (Cert.KernelIdeal.Gen.W0 (F := Ideal) m ρ c)).trans ((arg6 m ρ m' c hag).trans (Cert.Pass.rB1_arg6 (launchContents m' c)).symm))
theorem agg1_eq : Cert.KernelIdeal.Gen.W9 (F := Ideal) m ρ c (Proc.devRef .tc Cert.KernelIdeal.main_v58) = (RB3 (RB1 (launchContents m' c))) (Proc.devRef .tc Cert.ReferenceIdeal.main_v69) := Chain.agg1 (Cert.KernelIdeal.Gen.W6 (F := Ideal) m ρ c) (RB1 (launchContents m' c)) (h1_norm m ρ m' c hag) (h1_src m ρ m' c hag) (h1_dst m ρ m' c hag) (h1_x m ρ m' c hag) (h1_bias m ρ m' c hag)
theorem mean1_eq : Cert.KernelIdeal.Gen.W9 (F := Ideal) m ρ c (Proc.devRef .tc Cert.KernelIdeal.main_v61) = (RB3 (RB1 (launchContents m' c))) (Proc.devRef .tc Cert.ReferenceIdeal.main_v72) := Chain.mean1 (Cert.KernelIdeal.Gen.W6 (F := Ideal) m ρ c) (RB1 (launchContents m' c)) (h1_norm m ρ m' c hag) (h1_src m ρ m' c hag) (h1_dst m ρ m' c hag) (h1_x m ρ m' c hag) (h1_bias m ρ m' c hag)
theorem var1_eq : Cert.KernelIdeal.Gen.W9 (F := Ideal) m ρ c (Proc.devRef .tc Cert.KernelIdeal.main_v62) = (RB3 (RB1 (launchContents m' c))) (Proc.devRef .tc Cert.ReferenceIdeal.main_v73) := Chain.var1 (Cert.KernelIdeal.Gen.W6 (F := Ideal) m ρ c) (RB1 (launchContents m' c)) (h1_norm m ρ m' c hag) (h1_src m ρ m' c hag) (h1_dst m ρ m' c hag) (h1_x m ρ m' c hag) (h1_bias m ρ m' c hag)
theorem s1_arg7 : Cert.KernelIdeal.Gen.W9 (F := Ideal) m ρ c (Proc.devRef .tc Cert.KernelIdeal.main_arg7) = (RB3 (RB1 (launchContents m' c))) (Proc.devRef .tc Cert.ReferenceIdeal.main_arg7) :=
  (Cert.Pass.k9_arg7 (Cert.KernelIdeal.Gen.W6 (F := Ideal) m ρ c)).trans ((Cert.KernelIdeal.Gen.W6_of_ne m ρ c Cert.KernelIdeal.main_arg7 (by decide)).trans ((Cert.Pass.k5_arg7 (Cert.KernelIdeal.Gen.W0 (F := Ideal) m ρ c)).trans ((arg7 m ρ m' c hag).trans (Cert.Pass.rB3_arg7 (launchContents m' c)).symm)))
theorem s1_arg8 : Cert.KernelIdeal.Gen.W9 (F := Ideal) m ρ c (Proc.devRef .tc Cert.KernelIdeal.main_arg8) = (RB3 (RB1 (launchContents m' c))) (Proc.devRef .tc Cert.ReferenceIdeal.main_arg8) :=
  (Cert.Pass.k9_arg8 (Cert.KernelIdeal.Gen.W6 (F := Ideal) m ρ c)).trans ((Cert.KernelIdeal.Gen.W6_of_ne m ρ c Cert.KernelIdeal.main_arg8 (by decide)).trans ((Cert.Pass.k5_arg8 (Cert.KernelIdeal.Gen.W0 (F := Ideal) m ρ c)).trans ((arg8 m ρ m' c hag).trans (Cert.Pass.rB3_arg8 (launchContents m' c)).symm)))
theorem s1_arg9 : Cert.KernelIdeal.Gen.W9 (F := Ideal) m ρ c (Proc.devRef .tc Cert.KernelIdeal.main_arg9) = (RB3 (RB1 (launchContents m' c))) (Proc.devRef .tc Cert.ReferenceIdeal.main_arg9) :=
  (Cert.Pass.k9_arg9 (Cert.KernelIdeal.Gen.W6 (F := Ideal) m ρ c)).trans ((Cert.KernelIdeal.Gen.W6_of_ne m ρ c Cert.KernelIdeal.main_arg9 (by decide)).trans ((Cert.Pass.k5_arg9 (Cert.KernelIdeal.Gen.W0 (F := Ideal) m ρ c)).trans ((arg9 m ρ m' c hag).trans (Cert.Pass.rB3_arg9 (launchContents m' c)).symm)))

/-- The second stage's output. -/
theorem x2_eq : Cert.KernelIdeal.Gen.W10 (F := Ideal) m ρ c (Proc.devRef .tc Cert.KernelIdeal.main_v67) = (after (Cert.ReferenceIdeal.RefRun.opsB4 (F := Ideal)) (RB3 (RB1 (launchContents m' c)))) (Proc.devRef .tc Cert.ReferenceIdeal.main_v90) := by
  show @Eq (Cert.KernelIdeal.S50000x128.Idx → EReal) _ _
  funext i
  obtain ⟨p, q, rfl⟩ : ∃ (p : Fin 50000) (q : Fin 128), i = ix2 p q := ⟨i 0, i 1, eq_ix2 i⟩
  exact (Cert.KernelIdeal.KStage.x2_apply m ρ c p q _ _ _ _ _ _ _ rfl rfl rfl rfl rfl rfl rfl).trans
    (Cert.ReferenceIdeal.RStage.x2_apply (RB3 (RB1 (launchContents m' c))) p q _ _ _ _ _ _ _ rfl (agg1_eq m ρ m' c hag) (mean1_eq m ρ m' c hag) (var1_eq m ρ m' c hag) (s1_arg7 m ρ m' c hag) (s1_arg8 m ρ m' c hag) (s1_arg9 m ρ m' c hag)).symm

/-! ## Third stage -/

theorem h2_norm : Cert.KernelIdeal.Gen.W10 (F := Ideal) m ρ c (Proc.devRef .tc Cert.KernelIdeal.main_v33) = (RC1 (launchContents m' c)) (Proc.devRef .tc Cert.ReferenceIdeal.main_v120) :=
  (Cert.KernelIdeal.Gen.W10_of_ne m ρ c Cert.KernelIdeal.main_v33 (by decide)).trans ((Cert.Pass.k9_v33 (Cert.KernelIdeal.Gen.W6 (F := Ideal) m ρ c)).trans ((Cert.KernelIdeal.Gen.W6_of_ne m ρ c Cert.KernelIdeal.main_v33 (by decide)).trans (Chain.norm2 (Cert.KernelIdeal.Gen.W0 (F := Ideal) m ρ c) (launchContents m' c) (arg1 m ρ m' c hag) (arg2 m ρ m' c hag))))
theorem h2_src : Cert.KernelIdeal.Gen.W10 (F := Ideal) m ρ c (Proc.devRef .tc Cert.KernelIdeal.main_v5) = (RC1 (launchContents m' c)) (Proc.devRef .tc Cert.ReferenceIdeal.main_v92) :=
  (Cert.KernelIdeal.Gen.W10_of_ne m ρ c Cert.KernelIdeal.main_v5 (by decide)).trans ((Cert.Pass.k9_v5 (Cert.KernelIdeal.Gen.W6 (F := Ideal) m ρ c)).trans ((Cert.KernelIdeal.Gen.W6_of_ne m ρ c Cert.KernelIdeal.main_v5 (by decide)).trans (Chain.src2 (Cert.KernelIdeal.Gen.W0 (F := Ideal) m ρ c) (launchContents m' c) (arg1 m ρ m' c hag) (arg2 m ρ m' c hag))))
theorem h2_dst : Cert.KernelIdeal.Gen.W10 (F := Ideal) m ρ c (Proc.devRef .tc Cert.KernelIdeal.main_v6) = (RC1 (launchContents m' c)) (Proc.devRef .tc Cert.ReferenceIdeal.main_v93) :=
  (Cert.KernelIdeal.Gen.W10_of_ne m ρ c Cert.KernelIdeal.main_v6 (by decide)).trans ((Cert.Pass.k9_v6 (Cert.KernelIdeal.Gen.W6 (F := Ideal) m ρ c)).trans ((Cert.KernelIdeal.Gen.W6_of_ne m ρ c Cert.KernelIdeal.main_v6 (by decide)).trans (Chain.dst2 (Cert.KernelIdeal.Gen.W0 (F := Ideal) m ρ c) (launchContents m' c) (arg1 m ρ m' c hag) (arg2 m ρ m' c hag))))
theorem h2_x : Cert.KernelIdeal.Gen.W10 (F := Ideal) m ρ c (Proc.devRef .tc Cert.KernelIdeal.main_v67) = (RC1 (launchContents m' c)) (Proc.devRef .tc Cert.ReferenceIdeal.main_v90) := (x2_eq m ρ m' c hag).trans (Cert.Pass.rC1_keeps_v90 (after (Cert.ReferenceIdeal.RefRun.opsB4 (F := Ideal)) (RB3 (RB1 (launchContents m' c))))).symm
theorem h2_bias : Cert.KernelIdeal.Gen.W10 (F := Ideal) m ρ c (Proc.devRef .tc Cert.KernelIdeal.main_arg10) = (RC1 (launchContents m' c)) (Proc.devRef .tc Cert.ReferenceIdeal.main_arg10) :=
  (Cert.KernelIdeal.Gen.W10_of_ne m ρ c Cert.KernelIdeal.main_arg10 (by decide)).trans ((Cert.Pass.k9_arg10 (Cert.KernelIdeal.Gen.W6 (F := Ideal) m ρ c)).trans ((Cert.KernelIdeal.Gen.W6_of_ne m ρ c Cert.KernelIdeal.main_arg10 (by decide)).trans ((Cert.Pass.k5_arg10 (Cert.KernelIdeal.Gen.W0 (F := Ideal) m ρ c)).trans ((arg10 m ρ m' c hag).trans (Cert.Pass.rC1_arg10 (launchContents m' c)).symm))))
theorem agg2_eq : Cert.KernelIdeal.Gen.W13 (F := Ideal) m ρ c (Proc.devRef .tc Cert.KernelIdeal.main_v83) = (RC3 (RC1 (launchContents m' c))) (Proc.devRef .tc Cert.ReferenceIdeal.main_v136) := Chain.agg2 (Cert.KernelIdeal.Gen.W10 (F := Ideal) m ρ c) (RC1 (launchContents m' c)) (h2_norm m ρ m' c hag) (h2_src m ρ m' c hag) (h2_dst m ρ m' c hag) (h2_x m ρ m' c hag) (h2_bias m ρ m' c hag)
theorem mean2_eq : Cert.KernelIdeal.Gen.W13 (F := Ideal) m ρ c (Proc.devRef .tc Cert.KernelIdeal.main_v86) = (RC3 (RC1 (launchContents m' c))) (Proc.devRef .tc Cert.ReferenceIdeal.main_v139) := Chain.mean2 (Cert.KernelIdeal.Gen.W10 (F := Ideal) m ρ c) (RC1 (launchContents m' c)) (h2_norm m ρ m' c hag) (h2_src m ρ m' c hag) (h2_dst m ρ m' c hag) (h2_x m ρ m' c hag) (h2_bias m ρ m' c hag)
theorem var2_eq : Cert.KernelIdeal.Gen.W13 (F := Ideal) m ρ c (Proc.devRef .tc Cert.KernelIdeal.main_v87) = (RC3 (RC1 (launchContents m' c))) (Proc.devRef .tc Cert.ReferenceIdeal.main_v140) := Chain.var2 (Cert.KernelIdeal.Gen.W10 (F := Ideal) m ρ c) (RC1 (launchContents m' c)) (h2_norm m ρ m' c hag) (h2_src m ρ m' c hag) (h2_dst m ρ m' c hag) (h2_x m ρ m' c hag) (h2_bias m ρ m' c hag)
theorem s2_arg11 : Cert.KernelIdeal.Gen.W13 (F := Ideal) m ρ c (Proc.devRef .tc Cert.KernelIdeal.main_arg11) = (RC3 (RC1 (launchContents m' c))) (Proc.devRef .tc Cert.ReferenceIdeal.main_arg11) :=
  (Cert.Pass.k13_arg11 (Cert.KernelIdeal.Gen.W10 (F := Ideal) m ρ c)).trans ((Cert.KernelIdeal.Gen.W10_of_ne m ρ c Cert.KernelIdeal.main_arg11 (by decide)).trans ((Cert.Pass.k9_arg11 (Cert.KernelIdeal.Gen.W6 (F := Ideal) m ρ c)).trans ((Cert.KernelIdeal.Gen.W6_of_ne m ρ c Cert.KernelIdeal.main_arg11 (by decide)).trans ((Cert.Pass.k5_arg11 (Cert.KernelIdeal.Gen.W0 (F := Ideal) m ρ c)).trans ((arg11 m ρ m' c hag).trans (Cert.Pass.rC3_arg11 (launchContents m' c)).symm)))))
theorem s2_arg12 : Cert.KernelIdeal.Gen.W13 (F := Ideal) m ρ c (Proc.devRef .tc Cert.KernelIdeal.main_arg12) = (RC3 (RC1 (launchContents m' c))) (Proc.devRef .tc Cert.ReferenceIdeal.main_arg12) :=
  (Cert.Pass.k13_arg12 (Cert.KernelIdeal.Gen.W10 (F := Ideal) m ρ c)).trans ((Cert.KernelIdeal.Gen.W10_of_ne m ρ c Cert.KernelIdeal.main_arg12 (by decide)).trans ((Cert.Pass.k9_arg12 (Cert.KernelIdeal.Gen.W6 (F := Ideal) m ρ c)).trans ((Cert.KernelIdeal.Gen.W6_of_ne m ρ c Cert.KernelIdeal.main_arg12 (by decide)).trans ((Cert.Pass.k5_arg12 (Cert.KernelIdeal.Gen.W0 (F := Ideal) m ρ c)).trans ((arg12 m ρ m' c hag).trans (Cert.Pass.rC3_arg12 (launchContents m' c)).symm)))))
theorem s2_arg13 : Cert.KernelIdeal.Gen.W13 (F := Ideal) m ρ c (Proc.devRef .tc Cert.KernelIdeal.main_arg13) = (RC3 (RC1 (launchContents m' c))) (Proc.devRef .tc Cert.ReferenceIdeal.main_arg13) :=
  (Cert.Pass.k13_arg13 (Cert.KernelIdeal.Gen.W10 (F := Ideal) m ρ c)).trans ((Cert.KernelIdeal.Gen.W10_of_ne m ρ c Cert.KernelIdeal.main_arg13 (by decide)).trans ((Cert.Pass.k9_arg13 (Cert.KernelIdeal.Gen.W6 (F := Ideal) m ρ c)).trans ((Cert.KernelIdeal.Gen.W6_of_ne m ρ c Cert.KernelIdeal.main_arg13 (by decide)).trans ((Cert.Pass.k5_arg13 (Cert.KernelIdeal.Gen.W0 (F := Ideal) m ρ c)).trans ((arg13 m ρ m' c hag).trans (Cert.Pass.rC3_arg13 (launchContents m' c)).symm)))))
theorem s2_arg14 : Cert.KernelIdeal.Gen.W13 (F := Ideal) m ρ c (Proc.devRef .tc Cert.KernelIdeal.main_arg14) = (RC3 (RC1 (launchContents m' c))) (Proc.devRef .tc Cert.ReferenceIdeal.main_arg14) :=
  (Cert.Pass.k13_arg14 (Cert.KernelIdeal.Gen.W10 (F := Ideal) m ρ c)).trans ((Cert.KernelIdeal.Gen.W10_of_ne m ρ c Cert.KernelIdeal.main_arg14 (by decide)).trans ((Cert.Pass.k9_arg14 (Cert.KernelIdeal.Gen.W6 (F := Ideal) m ρ c)).trans ((Cert.KernelIdeal.Gen.W6_of_ne m ρ c Cert.KernelIdeal.main_arg14 (by decide)).trans ((Cert.Pass.k5_arg14 (Cert.KernelIdeal.Gen.W0 (F := Ideal) m ρ c)).trans ((arg14 m ρ m' c hag).trans (Cert.Pass.rC3_arg14 (launchContents m' c)).symm)))))
theorem s2_arg15 : Cert.KernelIdeal.Gen.W13 (F := Ideal) m ρ c (Proc.devRef .tc Cert.KernelIdeal.main_arg15) = (RC3 (RC1 (launchContents m' c))) (Proc.devRef .tc Cert.ReferenceIdeal.main_arg15) :=
  (Cert.Pass.k13_arg15 (Cert.KernelIdeal.Gen.W10 (F := Ideal) m ρ c)).trans ((Cert.KernelIdeal.Gen.W10_of_ne m ρ c Cert.KernelIdeal.main_arg15 (by decide)).trans ((Cert.Pass.k9_arg15 (Cert.KernelIdeal.Gen.W6 (F := Ideal) m ρ c)).trans ((Cert.KernelIdeal.Gen.W6_of_ne m ρ c Cert.KernelIdeal.main_arg15 (by decide)).trans ((Cert.Pass.k5_arg15 (Cert.KernelIdeal.Gen.W0 (F := Ideal) m ρ c)).trans ((arg15 m ρ m' c hag).trans (Cert.Pass.rC3_arg15 (launchContents m' c)).symm)))))
theorem s2_arg16 : Cert.KernelIdeal.Gen.W13 (F := Ideal) m ρ c (Proc.devRef .tc Cert.KernelIdeal.main_arg16) = (RC3 (RC1 (launchContents m' c))) (Proc.devRef .tc Cert.ReferenceIdeal.main_arg16) :=
  (Cert.Pass.k13_arg16 (Cert.KernelIdeal.Gen.W10 (F := Ideal) m ρ c)).trans ((Cert.KernelIdeal.Gen.W10_of_ne m ρ c Cert.KernelIdeal.main_arg16 (by decide)).trans ((Cert.Pass.k9_arg16 (Cert.KernelIdeal.Gen.W6 (F := Ideal) m ρ c)).trans ((Cert.KernelIdeal.Gen.W6_of_ne m ρ c Cert.KernelIdeal.main_arg16 (by decide)).trans ((Cert.Pass.k5_arg16 (Cert.KernelIdeal.Gen.W0 (F := Ideal) m ρ c)).trans ((arg16 m ρ m' c hag).trans (Cert.Pass.rC3_arg16 (launchContents m' c)).symm)))))

/-- The first result. -/
theorem mu_eq : Cert.KernelIdeal.Gen.W14 (F := Ideal) m ρ c (Proc.devRef .tc Cert.KernelIdeal.main_v94_0) = (after (Cert.ReferenceIdeal.RefRun.opsC4 (F := Ideal)) (RC3 (RC1 (launchContents m' c)))) (Proc.devRef .tc Cert.ReferenceIdeal.main_v160) := by
  show @Eq (Cert.KernelIdeal.S50000x128.Idx → EReal) _ _
  funext i
  obtain ⟨p, q, rfl⟩ : ∃ (p : Fin 50000) (q : Fin 128), i = ix2 p q := ⟨i 0, i 1, eq_ix2 i⟩
  exact (Cert.KernelIdeal.KStage.mu_apply m ρ c p q _ _ _ _ _ _ _ _ rfl rfl rfl rfl rfl rfl rfl rfl).trans
    (Cert.ReferenceIdeal.RStage.mu_apply (RC3 (RC1 (launchContents m' c))) p q _ _ _ _ _ _ _ _ rfl (agg2_eq m ρ m' c hag) (mean2_eq m ρ m' c hag) (var2_eq m ρ m' c hag) (s2_arg11 m ρ m' c hag) (s2_arg12 m ρ m' c hag) (s2_arg13 m ρ m' c hag) (s2_arg14 m ρ m' c hag)).symm

/-- The second result. -/
theorem ls_eq : Cert.KernelIdeal.Gen.W14 (F := Ideal) m ρ c (Proc.devRef .tc Cert.KernelIdeal.main_v94_1) = (after (Cert.ReferenceIdeal.RefRun.opsC4 (F := Ideal)) (RC3 (RC1 (launchContents m' c)))) (Proc.devRef .tc Cert.ReferenceIdeal.main_v164) := by
  show @Eq (Cert.KernelIdeal.S50000x128.Idx → EReal) _ _
  funext i
  obtain ⟨p, q, rfl⟩ : ∃ (p : Fin 50000) (q : Fin 128), i = ix2 p q := ⟨i 0, i 1, eq_ix2 i⟩
  exact (Cert.KernelIdeal.KStage.ls_apply m ρ c p q _ _ _ _ _ _ _ _ rfl rfl rfl rfl rfl rfl rfl rfl).trans
    (Cert.ReferenceIdeal.RStage.ls_apply (RC3 (RC1 (launchContents m' c))) p q _ _ _ _ _ _ _ _ rfl (agg2_eq m ρ m' c hag) (mean2_eq m ρ m' c hag) (var2_eq m ρ m' c hag) (s2_arg11 m ρ m' c hag) (s2_arg12 m ρ m' c hag) (s2_arg15 m ρ m' c hag) (s2_arg16 m ρ m' c hag)).symm

/-! ## The reference's whole run ends at the kernel program's results -/

theorem mu_final : after (Cert.ReferenceIdeal.RefRun.ops (F := Ideal)) (launchContents m' c) (Proc.devRef .tc Cert.ReferenceIdeal.main_v160) = Cert.KernelIdeal.Gen.W14 (F := Ideal) m ρ c (Proc.devRef .tc Cert.KernelIdeal.main_v94_0) := by
  rw [Cert.ReferenceIdeal.RefRun.after_ops]; exact (mu_eq m ρ m' c hag).symm
theorem ls_final : after (Cert.ReferenceIdeal.RefRun.ops (F := Ideal)) (launchContents m' c) (Proc.devRef .tc Cert.ReferenceIdeal.main_v164) = Cert.KernelIdeal.Gen.W14 (F := Ideal) m ρ c (Proc.devRef .tc Cert.KernelIdeal.main_v94_1) := by
  rw [Cert.ReferenceIdeal.RefRun.after_ops]; exact (ls_eq m ρ m' c hag).symm

end Cert.Bridge

end
-- ==== Proof.lean ====
/-
  The certificate: a graph-convolution encoder written as three pipelined normalise-and-multiply kernels around host
  aggregation, against the same encoder written as plain array operations.

  Frames. The word-level kernel program and its idealization have their frames from the pipelines' launch argument. The
  reference is a straight line of host operations: every execution runs them in order, so every buffer ends at the fold
  of the operations over the launch memory, and no operation writes an argument.

  Values. At the ideal instance a change of float format is the identity and a matrix product is the sum over the
  contracted index, so each kernel's output block, read at a row and a column, is the sum over the input features of the
  batch-normalised (after the first stage: rectified) feature times the weight's entry — the same expression the
  reference's dot_general of its normalised array has at that position. Ten row blocks of 5000 rows tile the 50000
  nodes, so each kernel's output array is that one function of its input arrays. The host computations between the
  stages (edge coefficients from the weighted degrees, gather, scale, scatter-add, bias, mean and biased variance) are
  the same compositions of the same operations in both programs, so they carry equal arrays to equal arrays. Stage by
  stage the two programs therefore hold equal arrays, and the two results — the means' head and the log-deviations'
  head — agree entry by entry as extended reals. Nothing in the argument needs the inputs to be finite: no law beyond
  reading both sides as the same sums is used. The ideal pass rewrote nothing, so the idealization claim is trivial.
-/
import proofs.«170029_j24111946400020_1_alg».proof.Defs
import proofs.«170029_j24111946400020_1_alg».proof.Proof.Gen.Kernel
import proofs.«170029_j24111946400020_1_alg».proof.Proof.Gen.Kernel.Frame
import proofs.«170029_j24111946400020_1_alg».proof.Proof.Gen.KernelIdeal
import proofs.«170029_j24111946400020_1_alg».proof.Proof.Gen.KernelIdeal.Frame
import proofs.«170029_j24111946400020_1_alg».proof.Proof.Gen.ReferenceIdeal
import proofs.«170029_j24111946400020_1_alg».proof.Proof.Gen.Pre_finite_inputs
import proofs.«170029_j24111946400020_1_alg».proof.Proof.KRun
import proofs.«170029_j24111946400020_1_alg».proof.Proof.RefRun
import proofs.«170029_j24111946400020_1_alg».proof.Proof.Pass
import proofs.«170029_j24111946400020_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_p : Cert.frame_Kernel := fun m ρ _ => Cert.Kernel.Gen.frame m ρ

theorem frame_pi : Cert.frame_KernelIdeal := fun m ρ _ => Cert.KernelIdeal.Gen.frame m ρ

/-- The reference's frame: its run with every buffer at the operations' fold, read at the arguments, which no
    operation writes. -/
theorem frame_ri : Cert.frame_ReferenceIdeal := fun m ρ _ =>
  (θ_run Cert.ReferenceIdeal.defs _ _).mono (fun r h c =>
    ⟨(h c Cert.ReferenceIdeal.main_arg0).trans (Cert.Pass.rAll_arg0 (launchContents m c)),
      (h c Cert.ReferenceIdeal.main_arg1).trans (Cert.Pass.rAll_arg1 (launchContents m c)),
      (h c Cert.ReferenceIdeal.main_arg2).trans (Cert.Pass.rAll_arg2 (launchContents m c)),
      (h c Cert.ReferenceIdeal.main_arg3).trans (Cert.Pass.rAll_arg3 (launchContents m c)),
      (h c Cert.ReferenceIdeal.main_arg4).trans (Cert.Pass.rAll_arg4 (launchContents m c)),
      (h c Cert.ReferenceIdeal.main_arg5).trans (Cert.Pass.rAll_arg5 (launchContents m c)),
      (h c Cert.ReferenceIdeal.main_arg6).trans (Cert.Pass.rAll_arg6 (launchContents m c)),
      (h c Cert.ReferenceIdeal.main_arg7).trans (Cert.Pass.rAll_arg7 (launchContents m c)),
      (h c Cert.ReferenceIdeal.main_arg8).trans (Cert.Pass.rAll_arg8 (launchContents m c)),
      (h c Cert.ReferenceIdeal.main_arg9).trans (Cert.Pass.rAll_arg9 (launchContents m c)),
      (h c Cert.ReferenceIdeal.main_arg10).trans (Cert.Pass.rAll_arg10 (launchContents m c)),
      (h c Cert.ReferenceIdeal.main_arg11).trans (Cert.Pass.rAll_arg11 (launchContents m c)),
      (h c Cert.ReferenceIdeal.main_arg12).trans (Cert.Pass.rAll_arg12 (launchContents m c)),
      (h c Cert.ReferenceIdeal.main_arg13).trans (Cert.Pass.rAll_arg13 (launchContents m c)),
      (h c Cert.ReferenceIdeal.main_arg14).trans (Cert.Pass.rAll_arg14 (launchContents m c)),
      (h c Cert.ReferenceIdeal.main_arg15).trans (Cert.Pass.rAll_arg15 (launchContents m c)),
      (h c Cert.ReferenceIdeal.main_arg16).trans (Cert.Pass.rAll_arg16 (launchContents m c))⟩)
    (Cert.ReferenceIdeal.RefRun.run_main (F := Ideal) m ρ)

theorem preserves : Cert.preserves_Kernel_KernelIdeal := trivial

/-- Both idealized programs run, and end with the same two result arrays: the kernel program's last boundary
    contents at its result buffers, which the reference's fold reaches too. -/
theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v94_0),
    fun c => Cert.KernelIdeal.Gen.W14 (F := Ideal) m ρ c (Proc.devRef .tc Cert.KernelIdeal.main_v94_1), ?_, ?_⟩
  · exact (θ_run Cert.KernelIdeal.defs _ _).mono (fun r h c =>
      ⟨h c _ (Cert.KernelIdeal.Gen.mem_uc Cert.KernelIdeal.main_v94_0 (by decide)),
      h c _ (Cert.KernelIdeal.Gen.mem_uc Cert.KernelIdeal.main_v94_1 (by decide)),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c),
      (h c _ (Cert.KernelIdeal.Gen.mem_uc Cert.KernelIdeal.main_arg14 (by decide))).trans (Cert.KernelIdeal.Gen.W14_main_arg14 m ρ c),
      (h c _ (Cert.KernelIdeal.Gen.mem_uc Cert.KernelIdeal.main_arg15 (by decide))).trans (Cert.KernelIdeal.Gen.W14_main_arg15 m ρ c),
      (h c _ (Cert.KernelIdeal.Gen.mem_uc Cert.KernelIdeal.main_arg16 (by decide))).trans (Cert.KernelIdeal.Gen.W14_main_arg16 m ρ c)⟩)
      (Cert.KernelIdeal.KRun.run_all (F := Ideal) m ρ)
  · exact (θ_run Cert.ReferenceIdeal.defs _ _).mono (fun r h c =>
      ⟨(h c Cert.ReferenceIdeal.main_v160).trans (Cert.Bridge.mu_final m ρ m' c (hagree c)),
      (h c Cert.ReferenceIdeal.main_v164).trans (Cert.Bridge.ls_final m ρ m' c (hagree c)),
      (h c Cert.ReferenceIdeal.main_arg0).trans (Cert.Pass.rAll_arg0 (launchContents m' c)),
      (h c Cert.ReferenceIdeal.main_arg1).trans (Cert.Pass.rAll_arg1 (launchContents m' c)),
      (h c Cert.ReferenceIdeal.main_arg2).trans (Cert.Pass.rAll_arg2 (launchContents m' c)),
      (h c Cert.ReferenceIdeal.main_arg3).trans (Cert.Pass.rAll_arg3 (launchContents m' c)),
      (h c Cert.ReferenceIdeal.main_arg4).trans (Cert.Pass.rAll_arg4 (launchContents m' c)),
      (h c Cert.ReferenceIdeal.main_arg5).trans (Cert.Pass.rAll_arg5 (launchContents m' c)),
      (h c Cert.ReferenceIdeal.main_arg6).trans (Cert.Pass.rAll_arg6 (launchContents m' c)),
      (h c Cert.ReferenceIdeal.main_arg7).trans (Cert.Pass.rAll_arg7 (launchContents m' c)),
      (h c Cert.ReferenceIdeal.main_arg8).trans (Cert.Pass.rAll_arg8 (launchContents m' c)),
      (h c Cert.ReferenceIdeal.main_arg9).trans (Cert.Pass.rAll_arg9 (launchContents m' c)),
      (h c Cert.ReferenceIdeal.main_arg10).trans (Cert.Pass.rAll_arg10 (launchContents m' c)),
      (h c Cert.ReferenceIdeal.main_arg11).trans (Cert.Pass.rAll_arg11 (launchContents m' c)),
      (h c Cert.ReferenceIdeal.main_arg12).trans (Cert.Pass.rAll_arg12 (launchContents m' c)),
      (h c Cert.ReferenceIdeal.main_arg13).trans (Cert.Pass.rAll_arg13 (launchContents m' c)),
      (h c Cert.ReferenceIdeal.main_arg14).trans (Cert.Pass.rAll_arg14 (launchContents m' c)),
      (h c Cert.ReferenceIdeal.main_arg15).trans (Cert.Pass.rAll_arg15 (launchContents m' c)),
      (h c Cert.ReferenceIdeal.main_arg16).trans (Cert.Pass.rAll_arg16 (launchContents m' c))⟩)
      (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
